-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1024x30 : Shape := ⟨2, ![1024, 30]⟩
abbrev S32000x512 : Shape := ⟨2, ![32000, 512]⟩
abbrev S200x1536 : Shape := ⟨2, ![200, 1536]⟩
abbrev S200 : Shape := ⟨1, ![200]⟩
abbrev S300x600 : Shape := ⟨2, ![300, 600]⟩
abbrev S300 : Shape := ⟨1, ![300]⟩
abbrev S300x900 : Shape := ⟨2, ![300, 900]⟩
abbrev S400x2648 : Shape := ⟨2, ![400, 2648]⟩
abbrev S400 : Shape := ⟨1, ![400]⟩
abbrev S1x400 : Shape := ⟨2, ![1, 400]⟩
abbrev S1 : Shape := ⟨1, ![1]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S32000x512 : S_.BroadcastsInDim S32000x512 (![] : Fin 0 → Fin S32000x512.rank)
  reducesTo_S32000x512_S_d0_1 : S32000x512.ReducesTo [0, 1] S_
  bcast_S_S200x1536 : S_.BroadcastsInDim S200x1536 (![] : Fin 0 → Fin S200x1536.rank)
  reducesTo_S200x1536_S_d0_1 : S200x1536.ReducesTo [0, 1] S_
  bcast_S_S200 : S_.BroadcastsInDim S200 (![] : Fin 0 → Fin S200.rank)
  reducesTo_S200_S_d0 : S200.ReducesTo [0] S_
  bcast_S_S300x600 : S_.BroadcastsInDim S300x600 (![] : Fin 0 → Fin S300x600.rank)
  reducesTo_S300x600_S_d0_1 : S300x600.ReducesTo [0, 1] S_
  bcast_S_S300 : S_.BroadcastsInDim S300 (![] : Fin 0 → Fin S300.rank)
  reducesTo_S300_S_d0 : S300.ReducesTo [0] S_
  bcast_S_S300x900 : S_.BroadcastsInDim S300x900 (![] : Fin 0 → Fin S300x900.rank)
  reducesTo_S300x900_S_d0_1 : S300x900.ReducesTo [0, 1] S_
  bcast_S_S400x2648 : S_.BroadcastsInDim S400x2648 (![] : Fin 0 → Fin S400x2648.rank)
  reducesTo_S400x2648_S_d0_1 : S400x2648.ReducesTo [0, 1] S_
  bcast_S_S400 : S_.BroadcastsInDim S400 (![] : Fin 0 → Fin S400.rank)
  reducesTo_S400_S_d0 : S400.ReducesTo [0] S_
  bcast_S_S1x400 : S_.BroadcastsInDim S1x400 (![] : Fin 0 → Fin S1x400.rank)
  reducesTo_S1x400_S_d0_1 : S1x400.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S1x400 .f32) (main_v50 : FVec F S1x400 .f32) : IVec S_ 1 :=
  let main_v51 : IVec S1x400 1 := cmpf .olt main_v49 main_v50
  let main_c_19 : IVec S_ 1 := constantI S_ 1 1#1
  let main_v52 : IVec S_ 1 := (fun x v => Host.reduce IntOp.andi x v reducesTo_S1x400_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S300 .f32) (main_arg9 : FVec F S400x2648 .f32) (main_arg10 : FVec F S400 .f32) (main_arg11 : FVec F S1x400 .f32) (main_arg12 : FVec F S1 .f32) (main_v33 : IVec S_ 1) : IVec S_ 1 :=
  let main_v34 : FVec F S300 .f32 := Host.absf main_arg8
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  let main_v39 : FVec F S400x2648 .f32 := Host.absf main_arg9
  let main_cst_14 : FVec F S_ .f32 := constant S_ .f32 0x7F800000#32
  let main_v40 : FVec F S400x2648 .f32 := broadcastInDim S400x2648 ![] bcast_S_S400x2648 main_cst_14
  let main_v41 : IVec S400x2648 1 := cmpf .olt main_v39 main_v40
  let main_c_15 : IVec S_ 1 := constantI S_ 1 1#1
  let main_v42 : IVec S_ 1 := (fun x v => Host.reduce IntOp.andi x v reducesTo_S400x2648_S_d0_1 h_S_) main_v41 main_c_15
  let main_v43 : IVec S_ 1 := andi main_v38 main_v42
  let main_v44 : FVec F S400 .f32 := Host.absf main_arg10
  let main_cst_16 : FVec F S_ .f32 := constant S_ .f32 0x7F800000#32
  let main_v45 : FVec F S400 .f32 := broadcastInDim S400 ![] bcast_S_S400 main_cst_16
  let main_v46 : IVec S400 1 := cmpf .olt main_v44 main_v45
  let main_c_17 : IVec S_ 1 := constantI S_ 1 1#1
  let main_v47 : IVec S_ 1 := (fun x v => Host.reduce IntOp.andi x v reducesTo_S400_S_d0 h_S_) main_v46 main_c_17
  let main_v48 : IVec S_ 1 := andi main_v43 main_v47
  let main_v49 : FVec F S1x400 .f32 := Host.absf main_arg11
  let main_cst_18 : FVec F S_ .f32 := constant S_ .f32 0x7F800000#32
  let main_v50 : FVec F S1x400 .f32 := broadcastInDim S1x400 ![] bcast_S_S1x400 main_cst_18
  fn_part3 (F := F) main_arg12 main_v48 main_v49 main_v50

def fn_part1 {F : FTy → Type} [FloatOps F] (main_arg5 : FVec F S300x600 .f32) (main_arg6 : FVec F S300 .f32) (main_arg7 : FVec F S300x900 .f32) (main_arg8 : FVec F S300 .f32) (main_arg9 : FVec F S400x2648 .f32) (main_arg10 : FVec F S400 .f32) (main_arg11 : FVec F S1x400 .f32) (main_arg12 : FVec F S1 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S300x600 .f32 := Host.absf main_arg5
  let main_cst_6 : FVec F S_ .f32 := constant S_ .f32 0x7F800000#32
  let main_v20 : FVec F S300x600 .f32 := broadcastInDim S300x600 ![] bcast_S_S300x600 main_cst_6
  let main_v21 : IVec S300x600 1 := cmpf .olt main_v19 main_v20
  let main_c_7 : IVec S_ 1 := constantI S_ 1 1#1
  let main_v22 : IVec S_ 1 := (fun x v => Host.reduce IntOp.andi x v reducesTo_S300x600_S_d0_1 h_S_) main_v21 main_c_7
  let main_v23 : IVec S_ 1 := andi main_v18 main_v22
  let main_v24 : FVec F S300 .f32 := Host.absf main_arg6
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S300x900 .f32 := Host.absf main_arg7
  let main_cst_10 : FVec F S_ .f32 := constant S_ .f32 0x7F800000#32
  let main_v30 : FVec F S300x900 .f32 := broadcastInDim S300x900 ![] bcast_S_S300x900 main_cst_10
  let main_v31 : IVec S300x900 1 := cmpf .olt main_v29 main_v30
  let main_c_11 : IVec S_ 1 := constantI S_ 1 1#1
  let main_v32 : IVec S_ 1 := (fun x v => Host.reduce IntOp.andi x v reducesTo_S300x900_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S1024x2048 .f32) (main_arg1 : IVec S1024x30 32) (main_arg2 : FVec F S32000x512 .f32) (main_arg3 : FVec F S200x1536 .f32) (main_arg4 : FVec F S200 .f32) (main_arg5 : FVec F S300x600 .f32) (main_arg6 : FVec F S300 .f32) (main_arg7 : FVec F S300x900 .f32) (main_arg8 : FVec F S300 .f32) (main_arg9 : FVec F S400x2648 .f32) (main_arg10 : FVec F S400 .f32) (main_arg11 : FVec F S1x400 .f32) (main_arg12 : FVec F S1 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S32000x512 .f32 := Host.absf main_arg2
  let main_cst_0 : FVec F S_ .f32 := constant S_ .f32 0x7F800000#32
  let main_v5 : FVec F S32000x512 .f32 := broadcastInDim S32000x512 ![] bcast_S_S32000x512 main_cst_0
  let main_v6 : IVec S32000x512 1 := cmpf .olt main_v4 main_v5
  let main_c_1 : IVec S_ 1 := constantI S_ 1 1#1
  let main_v7 : IVec S_ 1 := (fun x v => Host.reduce IntOp.andi x v reducesTo_S32000x512_S_d0_1 h_S_) main_v6 main_c_1
  let main_v8 : IVec S_ 1 := andi main_v3 main_v7
  let main_v9 : FVec F S200x1536 .f32 := Host.absf main_arg3
  let main_cst_2 : FVec F S_ .f32 := constant S_ .f32 0x7F800000#32
  let main_v10 : FVec F S200x1536 .f32 := broadcastInDim S200x1536 ![] bcast_S_S200x1536 main_cst_2
  let main_v11 : IVec S200x1536 1 := cmpf .olt main_v9 main_v10
  let main_c_3 : IVec S_ 1 := constantI S_ 1 1#1
  let main_v12 : IVec S_ 1 := (fun x v => Host.reduce IntOp.andi x v reducesTo_S200x1536_S_d0_1 h_S_) main_v11 main_c_3
  let main_v13 : IVec S_ 1 := andi main_v8 main_v12
  let main_v14 : FVec F S200 .f32 := Host.absf main_arg4
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg5 main_arg6 main_arg7 main_arg8 main_arg9 main_arg10 main_arg11 main_arg12 main_v13 main_v16
-- ==== Kernel.lean ====
abbrev S1024x2048 : Shape := ⟨2, ![1024, 2048]⟩
abbrev S1024x30 : Shape := ⟨2, ![1024, 30]⟩
abbrev S32000x512 : Shape := ⟨2, ![32000, 512]⟩
abbrev S200x1536 : Shape := ⟨2, ![200, 1536]⟩
abbrev S200 : Shape := ⟨1, ![200]⟩
abbrev S300x600 : Shape := ⟨2, ![300, 600]⟩
abbrev S300 : Shape := ⟨1, ![300]⟩
abbrev S300x900 : Shape := ⟨2, ![300, 900]⟩
abbrev S400x2648 : Shape := ⟨2, ![400, 2648]⟩
abbrev S400 : Shape := ⟨1, ![400]⟩
abbrev S1x400 : Shape := ⟨2, ![1, 400]⟩
abbrev S1 : Shape := ⟨1, ![1]⟩
abbrev S_ : Shape := ⟨0, ![]⟩
abbrev S1024x30x1 : Shape := ⟨3, ![1024, 30, 1]⟩
abbrev S1024x30x512 : Shape := ⟨3, ![1024, 30, 512]⟩
abbrev S1536x200 : Shape := ⟨2, ![1536, 200]⟩
abbrev S512x200 : Shape := ⟨2, ![512, 200]⟩
abbrev S600x300 : Shape := ⟨2, ![600, 300]⟩
abbrev S200x300 : Shape := ⟨2, ![200, 300]⟩
abbrev S900x300 : Shape := ⟨2, ![900, 300]⟩
abbrev S300x300 : Shape := ⟨2, ![300, 300]⟩
abbrev S2648x400 : Shape := ⟨2, ![2648, 400]⟩
abbrev S600x400 : Shape := ⟨2, ![600, 400]⟩
abbrev S2048x400 : Shape := ⟨2, ![2048, 400]⟩
abbrev S400x1 : Shape := ⟨2, ![400, 1]⟩
abbrev S1x200 : Shape := ⟨2, ![1, 200]⟩
abbrev S1x300 : Shape := ⟨2, ![1, 300]⟩
abbrev S1x1 : Shape := ⟨2, ![1, 1]⟩
abbrev S1024x1 : Shape := ⟨2, ![1024, 1]⟩
abbrev S128x30x512 : Shape := ⟨3, ![128, 30, 512]⟩
abbrev S128x2048 : Shape := ⟨2, ![128, 2048]⟩
abbrev S128x1 : Shape := ⟨2, ![128, 1]⟩
abbrev S3840x512 : Shape := ⟨2, ![3840, 512]⟩
abbrev S3840x200 : Shape := ⟨2, ![3840, 200]⟩
abbrev S128x30x200 : Shape := ⟨3, ![128, 30, 200]⟩
abbrev S128x28x200 : Shape := ⟨3, ![128, 28, 200]⟩
abbrev S1x1x200 : Shape := ⟨3, ![1, 1, 200]⟩
abbrev S128x30 : Shape := ⟨2, ![128, 30]⟩
abbrev S128x28 : Shape := ⟨2, ![128, 28]⟩
abbrev S128x28x1 : Shape := ⟨3, ![128, 28, 1]⟩
abbrev S128x14x2x200 : Shape := ⟨4, ![128, 14, 2, 200]⟩
abbrev S128x14x200 : Shape := ⟨3, ![128, 14, 200]⟩
abbrev S1792x200 : Shape := ⟨2, ![1792, 200]⟩
abbrev S1792x300 : Shape := ⟨2, ![1792, 300]⟩
abbrev S128x14x300 : Shape := ⟨3, ![128, 14, 300]⟩
abbrev S128x12x300 : Shape := ⟨3, ![128, 12, 300]⟩
abbrev S1x1x300 : Shape := ⟨3, ![1, 1, 300]⟩
abbrev S128x14 : Shape := ⟨2, ![128, 14]⟩
abbrev S128x12 : Shape := ⟨2, ![128, 12]⟩
abbrev S128x12x1 : Shape := ⟨3, ![128, 12, 1]⟩
abbrev S128x6x2x300 : Shape := ⟨4, ![128, 6, 2, 300]⟩
abbrev S128x6x300 : Shape := ⟨3, ![128, 6, 300]⟩
abbrev S768x300 : Shape := ⟨2, ![768, 300]⟩
abbrev S128x4x300 : Shape := ⟨3, ![128, 4, 300]⟩
abbrev S128x6 : Shape := ⟨2, ![128, 6]⟩
abbrev S128x4 : Shape := ⟨2, ![128, 4]⟩
abbrev S128x4x1 : Shape := ⟨3, ![128, 4, 1]⟩
abbrev S128x2x2x300 : Shape := ⟨4, ![128, 2, 2, 300]⟩
abbrev S128x2x300 : Shape := ⟨3, ![128, 2, 300]⟩
abbrev S128x600 : Shape := ⟨2, ![128, 600]⟩
abbrev S128x400 : Shape := ⟨2, ![128, 400]⟩

abbrev nBuf : Space → Nat
  | .hbm => 51
  | .vmem => 23
  | .smem => 0
  | _ => 0

abbrev bufTy : (tb : Table) → Fin (tcTables nBuf tb) → BufTy
  | .hbm, ⟨0, _⟩ => ⟨S1024x2048, .f32⟩
  | .hbm, ⟨1, _⟩ => ⟨S1024x30, .i32⟩
  | .hbm, ⟨2, _⟩ => ⟨S32000x512, .f32⟩
  | .hbm, ⟨3, _⟩ => ⟨S200x1536, .f32⟩
  | .hbm, ⟨4, _⟩ => ⟨S200, .f32⟩
  | .hbm, ⟨5, _⟩ => ⟨S300x600, .f32⟩
  | .hbm, ⟨6, _⟩ => ⟨S300, .f32⟩
  | .hbm, ⟨7, _⟩ => ⟨S300x900, .f32⟩
  | .hbm, ⟨8, _⟩ => ⟨S300, .f32⟩
  | .hbm, ⟨9, _⟩ => ⟨S400x2648, .f32⟩
  | .hbm, ⟨10, _⟩ => ⟨S400, .f32⟩
  | .hbm, ⟨11, _⟩ => ⟨S1x400, .f32⟩
  | .hbm, ⟨12, _⟩ => ⟨S1, .f32⟩
  | .hbm, ⟨13, _⟩ => ⟨S_, .i32⟩
  | .hbm, ⟨14, _⟩ => ⟨S1024x30, .i32⟩
  | .hbm, ⟨15, _⟩ => ⟨S1024x30, .i1⟩
  | .hbm, ⟨16, _⟩ => ⟨S_, .i32⟩
  | .hbm, ⟨17, _⟩ => ⟨S1024x30, .i32⟩
  | .hbm, ⟨18, _⟩ => ⟨S1024x30, .i32⟩
  | .hbm, ⟨19, _⟩ => ⟨S1024x30, .i32⟩
  | .hbm, ⟨20, _⟩ => ⟨S1024x30x1, .i32⟩
  | .hbm, ⟨21, _⟩ => ⟨S1024x30x512, .f32⟩
  | .hbm, ⟨22, _⟩ => ⟨S1024x30x512, .bf16⟩
  | .hbm, ⟨23, _⟩ => ⟨S1536x200, .f32⟩
  | .hbm, ⟨24, _⟩ => ⟨S1536x200, .bf16⟩
  | .hbm, ⟨25, _⟩ => ⟨S512x200, .bf16⟩
  | .hbm, ⟨26, _⟩ => ⟨S512x200, .bf16⟩
  | .hbm, ⟨27, _⟩ => ⟨S512x200, .bf16⟩
  | .hbm, ⟨28, _⟩ => ⟨S600x300, .f32⟩
  | .hbm, ⟨29, _⟩ => ⟨S600x300, .bf16⟩
  | .hbm, ⟨30, _⟩ => ⟨S200x300, .bf16⟩
  | .hbm, ⟨31, _⟩ => ⟨S200x300, .bf16⟩
  | .hbm, ⟨32, _⟩ => ⟨S200x300, .bf16⟩
  | .hbm, ⟨33, _⟩ => ⟨S900x300, .f32⟩
  | .hbm, ⟨34, _⟩ => ⟨S900x300, .bf16⟩
  | .hbm, ⟨35, _⟩ => ⟨S300x300, .bf16⟩
  | .hbm, ⟨36, _⟩ => ⟨S300x300, .bf16⟩
  | .hbm, ⟨37, _⟩ => ⟨S300x300, .bf16⟩
  | .hbm, ⟨38, _⟩ => ⟨S2648x400, .f32⟩
  | .hbm, ⟨39, _⟩ => ⟨S600x400, .f32⟩
  | .hbm, ⟨40, _⟩ => ⟨S600x400, .bf16⟩
  | .hbm, ⟨41, _⟩ => ⟨S2048x400, .f32⟩
  | .hbm, ⟨42, _⟩ => ⟨S2048x400, .bf16⟩
  | .hbm, ⟨43, _⟩ => ⟨S400x1, .f32⟩
  | .hbm, ⟨44, _⟩ => ⟨S400x1, .bf16⟩
  | .hbm, ⟨45, _⟩ => ⟨S1x200, .f32⟩
  | .hbm, ⟨46, _⟩ => ⟨S1x300, .f32⟩
  | .hbm, ⟨47, _⟩ => ⟨S1x300, .f32⟩
  | .hbm, ⟨48, _⟩ => ⟨S1x400, .f32⟩
  | .hbm, ⟨49, _⟩ => ⟨S1x1, .f32⟩
  | .hbm, ⟨50, _⟩ => ⟨S1024x1, .f32⟩
  | .local _ .vmem, ⟨0, _⟩ => ⟨S128x30x512, .bf16⟩
  | .local _ .vmem, ⟨1, _⟩ => ⟨S128x30x512, .bf16⟩
  | .local _ .vmem, ⟨2, _⟩ => ⟨S128x2048, .f32⟩
  | .local _ .vmem, ⟨3, _⟩ => ⟨S128x2048, .f32⟩
  | .local _ .vmem, ⟨4, _⟩ => ⟨S512x200, .bf16⟩
  | .local _ .vmem, ⟨5, _⟩ => ⟨S512x200, .bf16⟩
  | .local _ .vmem, ⟨6, _⟩ => ⟨S512x200, .bf16⟩
  | .local _ .vmem, ⟨7, _⟩ => ⟨S1x200, .f32⟩
  | .local _ .vmem, ⟨8, _⟩ => ⟨S200x300, .bf16⟩
  | .local _ .vmem, ⟨9, _⟩ => ⟨S200x300, .bf16⟩
  | .local _ .vmem, ⟨10, _⟩ => ⟨S200x300, .bf16⟩
  | .local _ .vmem, ⟨11, _⟩ => ⟨S1x300, .f32⟩
  | .local _ .vmem, ⟨12, _⟩ => ⟨S300x300, .bf16⟩
  | .local _ .vmem, ⟨13, _⟩ => ⟨S300x300, .bf16⟩
  | .local _ .vmem, ⟨14, _⟩ => ⟨S300x300, .bf16⟩
  | .local _ .vmem, ⟨15, _⟩ => ⟨S1x300, .f32⟩
  | .local _ .vmem, ⟨16, _⟩ => ⟨S600x400, .bf16⟩
  | .local _ .vmem, ⟨17, _⟩ => ⟨S2048x400, .bf16⟩
  | .local _ .vmem, ⟨18, _⟩ => ⟨S1x400, .f32⟩
  | .local _ .vmem, ⟨19, _⟩ => ⟨S400x1, .bf16⟩
  | .local _ .vmem, ⟨20, _⟩ => ⟨S1x1, .f32⟩
  | .local _ .vmem, ⟨21, _⟩ => ⟨S128x1, .f32⟩
  | .local _ .vmem, ⟨22, _⟩ => ⟨S128x1, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x30x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200x300 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S200x300 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S200x300 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x300 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S300x300 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S300x300 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S300x300 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x300 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S600x400 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x400 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x400 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S400x1 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S128x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bcast_S_S1024x30 : S_.BroadcastsInDim S1024x30 (![] : Fin 0 → Fin S1024x30.rank)
  bcast_S1024x30_S1024x30x1_0_1 : S1024x30.BroadcastsInDim S1024x30x1 (![0, 1] : Fin 2 → Fin S1024x30x1.rank)
  bitsLt_bf16_f32 : FTy.bits .bf16 < FTy.bits .f32
  transposes_S200x1536_S1536x200_1_0 : S200x1536.Transposes [1, 0] S1536x200
  slices_S1536x200_S512x200_0_0 : S1536x200.Slices ![0, 0] S512x200
  slices_S1536x200_S512x200_512_0 : S1536x200.Slices ![512, 0] S512x200
  slices_S1536x200_S512x200_1024_0 : S1536x200.Slices ![1024, 0] S512x200
  transposes_S300x600_S600x300_1_0 : S300x600.Transposes [1, 0] S600x300
  slices_S600x300_S200x300_0_0 : S600x300.Slices ![0, 0] S200x300
  slices_S600x300_S200x300_200_0 : S600x300.Slices ![200, 0] S200x300
  slices_S600x300_S200x300_400_0 : S600x300.Slices ![400, 0] S200x300
  transposes_S300x900_S900x300_1_0 : S300x900.Transposes [1, 0] S900x300
  slices_S900x300_S300x300_0_0 : S900x300.Slices ![0, 0] S300x300
  slices_S900x300_S300x300_300_0 : S900x300.Slices ![300, 0] S300x300
  slices_S900x300_S300x300_600_0 : S900x300.Slices ![600, 0] S300x300
  transposes_S400x2648_S2648x400_1_0 : S400x2648.Transposes [1, 0] S2648x400
  slices_S2648x400_S600x400_0_0 : S2648x400.Slices ![0, 0] S600x400
  slices_S2648x400_S2048x400_600_0 : S2648x400.Slices ![600, 0] S2048x400
  transposes_S1x400_S400x1_1_0 : S1x400.Transposes [1, 0] S400x1
  shapeCasts_S200_S1x200 : S200.ShapeCasts S1x200
  shapeCasts_S300_S1x300 : S300.ShapeCasts S1x300
  shapeCasts_S400_S1x400 : S400.ShapeCasts S1x400
  shapeCasts_S1_S1x1 : S1.ShapeCasts S1x1
  inb_S128x30x512_S128x30x512_0_0_0 : ∀ a, (![0, 0, 0] : Fin 3 → Nat) a + S128x30x512.size a ≤ S128x30x512.size a
  h_S128x30x512 : 0 < S128x30x512.numel
  shapeCasts_S128x30x512_S128x30x512 : S128x30x512.ShapeCasts S128x30x512
  inb_S512x200_S512x200_0_0 : ∀ a, (![0, 0] : Fin 2 → Nat) a + S512x200.size a ≤ S512x200.size a
  h_S512x200 : 0 < S512x200.numel
  shapeCasts_S512x200_S512x200 : S512x200.ShapeCasts S512x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  shapeCasts_S128x30x512_S3840x512 : S128x30x512.ShapeCasts S3840x512
  shapeCasts_S3840x200_S128x30x200 : S3840x200.ShapeCasts S128x30x200
  slices_S128x30x200_o0_0_0_S128x28x200 : S128x30x200.Slices ![0, 0, 0] S128x28x200
  slices_S128x30x200_o0_1_0_S128x28x200 : S128x30x200.Slices ![0, 1, 0] S128x28x200
  slices_S128x30x200_o0_2_0_S128x28x200 : S128x30x200.Slices ![0, 2, 0] S128x28x200
  shapeCasts_S1x200_S1x1x200 : S1x200.ShapeCasts S1x1x200
  broadcasts_S1x1x200_S128x28x200 : S1x1x200.Broadcasts S128x28x200
  reduces_S128x30x512_S128x30 : S128x30x512.Reduces [2] S128x30
  slices_S128x30_o0_0_S128x28 : S128x30.Slices ![0, 0] S128x28
  slices_S128x30_o0_1_S128x28 : S128x30.Slices ![0, 1] S128x28
  slices_S128x30_o0_2_S128x28 : S128x30.Slices ![0, 2] S128x28
  natLt_1_32 : 1 < 32
  shapeCasts_S128x28_S128x28x1 : S128x28.ShapeCasts S128x28x1
  broadcasts_S128x28x1_S128x28x200 : S128x28x1.Broadcasts S128x28x200
  shapeCasts_S128x28x200_S128x14x2x200 : S128x28x200.ShapeCasts S128x14x2x200
  reduces_S128x14x2x200_S128x14x200 : S128x14x2x200.Reduces [2] S128x14x200
  inb_S200x300_S200x300_0_0 : ∀ a, (![0, 0] : Fin 2 → Nat) a + S200x300.size a ≤ S200x300.size a
  h_S200x300 : 0 < S200x300.numel
  shapeCasts_S200x300_S200x300 : S200x300.ShapeCasts S200x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  shapeCasts_S128x14x200_S1792x200 : S128x14x200.ShapeCasts S1792x200
  shapeCasts_S1792x300_S128x14x300 : S1792x300.ShapeCasts S128x14x300
  slices_S128x14x300_o0_0_0_S128x12x300 : S128x14x300.Slices ![0, 0, 0] S128x12x300
  slices_S128x14x300_o0_1_0_S128x12x300 : S128x14x300.Slices ![0, 1, 0] S128x12x300
  slices_S128x14x300_o0_2_0_S128x12x300 : S128x14x300.Slices ![0, 2, 0] S128x12x300
  shapeCasts_S1x300_S1x1x300 : S1x300.ShapeCasts S1x1x300
  broadcasts_S1x1x300_S128x12x300 : S1x1x300.Broadcasts S128x12x300
  reduces_S128x14x200_S128x14 : S128x14x200.Reduces [2] S128x14
  slices_S128x14_o0_0_S128x12 : S128x14.Slices ![0, 0] S128x12
  slices_S128x14_o0_1_S128x12 : S128x14.Slices ![0, 1] S128x12
  slices_S128x14_o0_2_S128x12 : S128x14.Slices ![0, 2] S128x12
  shapeCasts_S128x12_S128x12x1 : S128x12.ShapeCasts S128x12x1
  broadcasts_S128x12x1_S128x12x300 : S128x12x1.Broadcasts S128x12x300
  shapeCasts_S128x12x300_S128x6x2x300 : S128x12x300.ShapeCasts S128x6x2x300
  reduces_S128x6x2x300_S128x6x300 : S128x6x2x300.Reduces [2] S128x6x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  shapeCasts_S128x6x300_S768x300 : S128x6x300.ShapeCasts S768x300
  shapeCasts_S768x300_S128x6x300 : S768x300.ShapeCasts S128x6x300
  slices_S128x6x300_o0_0_0_S128x4x300 : S128x6x300.Slices ![0, 0, 0] S128x4x300
  slices_S128x6x300_o0_1_0_S128x4x300 : S128x6x300.Slices ![0, 1, 0] S128x4x300
  slices_S128x6x300_o0_2_0_S128x4x300 : S128x6x300.Slices ![0, 2, 0] S128x4x300
  broadcasts_S1x1x300_S128x4x300 : S1x1x300.Broadcasts S128x4x300
  reduces_S128x6x300_S128x6 : S128x6x300.Reduces [2] S128x6
  slices_S128x6_o0_0_S128x4 : S128x6.Slices ![0, 0] S128x4
  slices_S128x6_o0_1_S128x4 : S128x6.Slices ![0, 1] S128x4
  slices_S128x6_o0_2_S128x4 : S128x6.Slices ![0, 2] S128x4
  shapeCasts_S128x4_S128x4x1 : S128x4.ShapeCasts S128x4x1
  broadcasts_S128x4x1_S128x4x300 : S128x4x1.Broadcasts S128x4x300
  shapeCasts_S128x4x300_S128x2x2x300 : S128x4x300.ShapeCasts S128x2x2x300
  reduces_S128x2x2x300_S128x2x300 : S128x2x2x300.Reduces [2] S128x2x300
  shapeCasts_S128x2x300_S128x600 : S128x2x300.ShapeCasts S128x600
  inb_S128x2048_S128x2048_0_0 : ∀ a, (![0, 0] : Fin 2 → Nat) a + S128x2048.size a ≤ S128x2048.size a
  h_S128x2048 : 0 < S128x2048.numel
  inb_S600x400_S600x400_0_0 : ∀ a, (![0, 0] : Fin 2 → Nat) a + S600x400.size a ≤ S600x400.size a
  h_S600x400 : 0 < S600x400.numel
  shapeCasts_S600x400_S600x400 : S600x400.ShapeCasts S600x400
  inb_S2048x400_S2048x400_0_0 : ∀ a, (![0, 0] : Fin 2 → Nat) a + S2048x400.size a ≤ S2048x400.size a
  h_S2048x400 : 0 < S2048x400.numel
  shapeCasts_S2048x400_S2048x400 : S2048x400.ShapeCasts S2048x400
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S128x400 : S1x400.Broadcasts S128x400
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  gather_S32000x512_S1024x30x1_S1024x30x512_2_0_n_n_0_2_1512_wf : GatherDims.WF S32000x512 S1024x30x1 S1024x30x512 [2] [0] [] [0] [] 2 ![1, 512]
  dot_S3840x512_S512x200_S3840x200_1_0_0_1_n_n_wf : DotDims.WF S3840x512 S512x200 S3840x200 [1] [0] [0] [1] [] []
  dot_S1792x200_S200x300_S1792x300_1_0_0_1_n_n_wf : DotDims.WF S1792x200 S200x300 S1792x300 [1] [0] [0] [1] [] []
  dot_S768x300_S300x300_S768x300_1_0_0_1_n_n_wf : DotDims.WF S768x300 S300x300 S768x300 [1] [0] [0] [1] [] []
  dot_S128x600_S600x400_S128x400_1_0_0_1_n_n_wf : DotDims.WF S128x600 S600x400 S128x400 [1] [0] [0] [1] [] []
  dot_S128x2048_S2048x400_S128x400_1_0_0_1_n_n_wf : DotDims.WF S128x2048 S2048x400 S128x400 [1] [0] [0] [1] [] []
  dot_S128x400_S400x1_S128x1_1_0_0_1_n_n_wf : DotDims.WF S128x400 S400x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x30x512.size a ≤ S1024x30x512.size a
  hwx0_0 : ∀ i : grid0.Coords, EltTy.bits .bf16 = 32 ∨ (Rect.block (s := S1024x30x512) S128x30x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S1024x2048.size a
  hwx0_1 : ∀ i : grid0.Coords, EltTy.bits .f32 = 32 ∨ (Rect.block (s := S1024x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x200.size a ≤ S512x200.size a
  hwx0_2 : ∀ i : grid0.Coords, EltTy.bits .bf16 = 32 ∨ (Rect.block (s := S512x200) S512x200.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x200.size a ≤ S512x200.size a
  hwx0_3 : ∀ i : grid0.Coords, EltTy.bits .bf16 = 32 ∨ (Rect.block (s := S512x200) S512x200.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x200.size a ≤ S512x200.size a
  hwx0_4 : ∀ i : grid0.Coords, EltTy.bits .bf16 = 32 ∨ (Rect.block (s := S512x200) S512x200.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x200.size a ≤ S1x200.size a
  hwx0_5 : ∀ i : grid0.Coords, EltTy.bits .f32 = 32 ∨ (Rect.block (s := S1x200) S1x200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200x300.size a ≤ S200x300.size a
  hwx0_6 : ∀ i : grid0.Coords, EltTy.bits .bf16 = 32 ∨ (Rect.block (s := S200x300) S200x300.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S200x300.size a ≤ S200x300.size a
  hwx0_7 : ∀ i : grid0.Coords, EltTy.bits .bf16 = 32 ∨ (Rect.block (s := S200x300) S200x300.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S200x300.size a ≤ S200x300.size a
  hwx0_8 : ∀ i : grid0.Coords, EltTy.bits .bf16 = 32 ∨ (Rect.block (s := S200x300) S200x300.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x300.size a ≤ S1x300.size a
  hwx0_9 : ∀ i : grid0.Coords, EltTy.bits .f32 = 32 ∨ (Rect.block (s := S1x300) S1x300.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S300x300.size a ≤ S300x300.size a
  hwx0_10 : ∀ i : grid0.Coords, EltTy.bits .bf16 = 32 ∨ (Rect.block (s := S300x300) S300x300.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S300x300.size a ≤ S300x300.size a
  hwx0_11 : ∀ i : grid0.Coords, EltTy.bits .bf16 = 32 ∨ (Rect.block (s := S300x300) S300x300.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S300x300.size a ≤ S300x300.size a
  hwx0_12 : ∀ i : grid0.Coords, EltTy.bits .bf16 = 32 ∨ (Rect.block (s := S300x300) S300x300.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x300.size a ≤ S1x300.size a
  hwx0_13 : ∀ i : grid0.Coords, EltTy.bits .f32 = 32 ∨ (Rect.block (s := S1x300) S1x300.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S600x400.size a ≤ S600x400.size a
  hwx0_14 : ∀ i : grid0.Coords, EltTy.bits .bf16 = 32 ∨ (Rect.block (s := S600x400) S600x400.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2048x400.size a ≤ S2048x400.size a
  hwx0_15 : ∀ i : grid0.Coords, EltTy.bits .bf16 = 32 ∨ (Rect.block (s := S2048x400) S2048x400.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x400.size a ≤ S1x400.size a
  hwx0_16 : ∀ i : grid0.Coords, EltTy.bits .f32 = 32 ∨ (Rect.block (s := S1x400) S1x400.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S400x1.size a ≤ S400x1.size a
  hwx0_17 : ∀ i : grid0.Coords, EltTy.bits .bf16 = 32 ∨ (Rect.block (s := S400x1) S400x1.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1.size a ≤ S1x1.size a
  hwx0_18 : ∀ i : grid0.Coords, EltTy.bits .f32 = 32 ∨ (Rect.block (s := S1x1) S1x1.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S128x1.size a ≤ S1024x1.size a
  hwx0_19 : ∀ i : grid0.Coords, EltTy.bits .f32 = 32 ∨ (Rect.block (s := S1024x1) S128x1.size (cc0_transform_19 i) (hinb0_19 i)).WholeWords (EltTy.packing .f32)

variable [Facts₀]

def gather_S32000x512_S1024x30x1_S1024x30x512_2_0_n_n_0_2_1512 : GatherDims S32000x512 S1024x30x1 S1024x30x512 where
  offsetDims := [2]
  collapsedSliceDims := [0]
  operandBatchingDims := []
  startIndicesBatchingDims := []
  startIndexMap := [0]
  indexVectorDim := 2
  sliceSizes := ![1, 512]
  wf := gather_S32000x512_S1024x30x1_S1024x30x512_2_0_n_n_0_2_1512_wf
def dot_S3840x512_S512x200_S3840x200_1_0_0_1_n_n : DotDims S3840x512 S512x200 S3840x200 where
  lhsContracting := [1]
  rhsContracting := [0]
  lhsNonContracting := [0]
  rhsNonContracting := [1]
  lhsBatch := []
  rhsBatch := []
  wf := dot_S3840x512_S512x200_S3840x200_1_0_0_1_n_n_wf
def dot_S1792x200_S200x300_S1792x300_1_0_0_1_n_n : DotDims S1792x200 S200x300 S1792x300 where
  lhsContracting := [1]
  rhsContracting := [0]
  lhsNonContracting := [0]
  rhsNonContracting := [1]
  lhsBatch := []
  rhsBatch := []
  wf := dot_S1792x200_S200x300_S1792x300_1_0_0_1_n_n_wf
def dot_S768x300_S300x300_S768x300_1_0_0_1_n_n : DotDims S768x300 S300x300 S768x300 where
  lhsContracting := [1]
  rhsContracting := [0]
  lhsNonContracting := [0]
  rhsNonContracting := [1]
  lhsBatch := []
  rhsBatch := []
  wf := dot_S768x300_S300x300_S768x300_1_0_0_1_n_n_wf
def dot_S128x600_S600x400_S128x400_1_0_0_1_n_n : DotDims S128x600 S600x400 S128x400 where
  lhsContracting := [1]
  rhsContracting := [0]
  lhsNonContracting := [0]
  rhsNonContracting := [1]
  lhsBatch := []
  rhsBatch := []
  wf := dot_S128x600_S600x400_S128x400_1_0_0_1_n_n_wf
def dot_S128x2048_S2048x400_S128x400_1_0_0_1_n_n : DotDims S128x2048 S2048x400 S128x400 where
  lhsContracting := [1]
  rhsContracting := [0]
  lhsNonContracting := [0]
  rhsNonContracting := [1]
  lhsBatch := []
  rhsBatch := []
  wf := dot_S128x2048_S2048x400_S128x400_1_0_0_1_n_n_wf
def dot_S128x400_S400x1_S128x1_1_0_0_1_n_n : DotDims S128x400 S400x1 S128x1 where
  lhsContracting := [1]
  rhsContracting := [0]
  lhsNonContracting := [0]
  rhsNonContracting := [1]
  lhsBatch := []
  rhsBatch := []
  wf := dot_S128x400_S400x1_S128x1_1_0_0_1_n_n_wf

abbrev win0_0 : Pipeline.Window sig grid0 :=
  Pipeline.Window.ofSpec (Memref.whole main_v7) S128x30x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S200x300.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S200x300.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S200x300.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S1x300.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S300x300.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S300x300.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S300x300.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v32) S1x300.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25) S600x400.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v27) S2048x400.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v33) S1x400.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v29) S400x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v34) S1x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v35) S128x1.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S1024x30 : Shape := ⟨2, ![1024, 30]⟩
abbrev S32000x512 : Shape := ⟨2, ![32000, 512]⟩
abbrev S200x1536 : Shape := ⟨2, ![200, 1536]⟩
abbrev S200 : Shape := ⟨1, ![200]⟩
abbrev S300x600 : Shape := ⟨2, ![300, 600]⟩
abbrev S300 : Shape := ⟨1, ![300]⟩
abbrev S300x900 : Shape := ⟨2, ![300, 900]⟩
abbrev S400x2648 : Shape := ⟨2, ![400, 2648]⟩
abbrev S400 : Shape := ⟨1, ![400]⟩
abbrev S1x400 : Shape := ⟨2, ![1, 400]⟩
abbrev S1 : Shape := ⟨1, ![1]⟩
abbrev S_ : Shape := ⟨0, ![]⟩
abbrev S1024x30x1 : Shape := ⟨3, ![1024, 30, 1]⟩
abbrev S1024x30x512 : Shape := ⟨3, ![1024, 30, 512]⟩
abbrev S1024x28x512 : Shape := ⟨3, ![1024, 28, 512]⟩
abbrev S1024x28x1536 : Shape := ⟨3, ![1024, 28, 1536]⟩
abbrev S1024x28x200 : Shape := ⟨3, ![1024, 28, 200]⟩
abbrev S1x1x200 : Shape := ⟨3, ![1, 1, 200]⟩
abbrev S1024x28 : Shape := ⟨2, ![1024, 28]⟩
abbrev S1024x28x1 : Shape := ⟨3, ![1024, 28, 1]⟩
abbrev S1024x14x2x200 : Shape := ⟨4, ![1024, 14, 2, 200]⟩
abbrev S1024x14x200 : Shape := ⟨3, ![1024, 14, 200]⟩
abbrev S1024x12x200 : Shape := ⟨3, ![1024, 12, 200]⟩
abbrev S1024x12x600 : Shape := ⟨3, ![1024, 12, 600]⟩
abbrev S1024x12x300 : Shape := ⟨3, ![1024, 12, 300]⟩
abbrev S1x1x300 : Shape := ⟨3, ![1, 1, 300]⟩
abbrev S1024x12 : Shape := ⟨2, ![1024, 12]⟩
abbrev S1024x12x1 : Shape := ⟨3, ![1024, 12, 1]⟩
abbrev S1024x6x2x300 : Shape := ⟨4, ![1024, 6, 2, 300]⟩
abbrev S1024x6x300 : Shape := ⟨3, ![1024, 6, 300]⟩
abbrev S1024x4x300 : Shape := ⟨3, ![1024, 4, 300]⟩
abbrev S1024x4x900 : Shape := ⟨3, ![1024, 4, 900]⟩
abbrev S1024x4 : Shape := ⟨2, ![1024, 4]⟩
abbrev S1024x4x1 : Shape := ⟨3, ![1024, 4, 1]⟩
abbrev S1024x2x2x300 : Shape := ⟨4, ![1024, 2, 2, 300]⟩
abbrev S1024x2x300 : Shape := ⟨3, ![1024, 2, 300]⟩
abbrev S1024x600 : Shape := ⟨2, ![1024, 600]⟩
abbrev S1024x2648 : Shape := ⟨2, ![1024, 2648]⟩
abbrev S2648x400 : Shape := ⟨2, ![2648, 400]⟩
abbrev S1024x400 : Shape := ⟨2, ![1024, 400]⟩
abbrev S400x1 : Shape := ⟨2, ![400, 1]⟩
abbrev S1024x1 : Shape := ⟨2, ![1024, 1]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x30, .i32⟩
  | .hbm, ⟨2, _⟩ => ⟨S32000x512, .f32⟩
  | .hbm, ⟨3, _⟩ => ⟨S200x1536, .f32⟩
  | .hbm, ⟨4, _⟩ => ⟨S200, .f32⟩
  | .hbm, ⟨5, _⟩ => ⟨S300x600, .f32⟩
  | .hbm, ⟨6, _⟩ => ⟨S300, .f32⟩
  | .hbm, ⟨7, _⟩ => ⟨S300x900, .f32⟩
  | .hbm, ⟨8, _⟩ => ⟨S300, .f32⟩
  | .hbm, ⟨9, _⟩ => ⟨S400x2648, .f32⟩
  | .hbm, ⟨10, _⟩ => ⟨S400, .f32⟩
  | .hbm, ⟨11, _⟩ => ⟨S1x400, .f32⟩
  | .hbm, ⟨12, _⟩ => ⟨S1, .f32⟩
  | .hbm, ⟨13, _⟩ => ⟨S_, .i32⟩
  | .hbm, ⟨14, _⟩ => ⟨S1024x30, .i32⟩
  | .hbm, ⟨15, _⟩ => ⟨S1024x30, .i1⟩
  | .hbm, ⟨16, _⟩ => ⟨S_, .i32⟩
  | .hbm, ⟨17, _⟩ => ⟨S1024x30, .i32⟩
  | .hbm, ⟨18, _⟩ => ⟨S1024x30, .i32⟩
  | .hbm, ⟨19, _⟩ => ⟨S1024x30, .i32⟩
  | .hbm, ⟨20, _⟩ => ⟨S1024x30x1, .i32⟩
  | .hbm, ⟨21, _⟩ => ⟨S1024x30x512, .f32⟩
  | .hbm, ⟨22, _⟩ => ⟨S1024x28x512, .f32⟩
  | .hbm, ⟨23, _⟩ => ⟨S1024x28x512, .f32⟩
  | .hbm, ⟨24, _⟩ => ⟨S1024x28x512, .f32⟩
  | .hbm, ⟨25, _⟩ => ⟨S1024x28x1536, .f32⟩
  | .hbm, ⟨26, _⟩ => ⟨S1024x28x200, .f32⟩
  | .hbm, ⟨27, _⟩ => ⟨S1x1x200, .f32⟩
  | .hbm, ⟨28, _⟩ => ⟨S1024x28x200, .f32⟩
  | .hbm, ⟨29, _⟩ => ⟨S1024x28x200, .f32⟩
  | .hbm, ⟨30, _⟩ => ⟨S_, .f32⟩
  | .hbm, ⟨31, _⟩ => ⟨S1024x28x200, .f32⟩
  | .hbm, ⟨32, _⟩ => ⟨S1024x28x200, .i1⟩
  | .hbm, ⟨33, _⟩ => ⟨S_, .f32⟩
  | .hbm, ⟨34, _⟩ => ⟨S1024x28x200, .f32⟩
  | .hbm, ⟨35, _⟩ => ⟨S1024x28x200, .f32⟩
  | .hbm, ⟨36, _⟩ => ⟨S1024x28x200, .f32⟩
  | .hbm, ⟨37, _⟩ => ⟨S_, .f32⟩
  | .hbm, ⟨38, _⟩ => ⟨S1024x28, .f32⟩
  | .hbm, ⟨39, _⟩ => ⟨S1024x28x1, .f32⟩
  | .hbm, ⟨40, _⟩ => ⟨S_, .f32⟩
  | .hbm, ⟨41, _⟩ => ⟨S1024x28x1, .f32⟩
  | .hbm, ⟨42, _⟩ => ⟨S1024x28x1, .i1⟩
  | .hbm, ⟨43, _⟩ => ⟨S1024x28x1, .f32⟩
  | .hbm, ⟨44, _⟩ => ⟨S1024x28x200, .f32⟩
  | .hbm, ⟨45, _⟩ => ⟨S1024x28x200, .f32⟩
  | .hbm, ⟨46, _⟩ => ⟨S1024x14x2x200, .f32⟩
  | .hbm, ⟨47, _⟩ => ⟨S_, .f32⟩
  | .hbm, ⟨48, _⟩ => ⟨S1024x14x200, .f32⟩
  | .hbm, ⟨49, _⟩ => ⟨S1024x12x200, .f32⟩
  | .hbm, ⟨50, _⟩ => ⟨S1024x12x200, .f32⟩
  | .hbm, ⟨51, _⟩ => ⟨S1024x12x200, .f32⟩
  | .hbm, ⟨52, _⟩ => ⟨S1024x12x600, .f32⟩
  | .hbm, ⟨53, _⟩ => ⟨S1024x12x300, .f32⟩
  | .hbm, ⟨54, _⟩ => ⟨S1x1x300, .f32⟩
  | .hbm, ⟨55, _⟩ => ⟨S1024x12x300, .f32⟩
  | .hbm, ⟨56, _⟩ => ⟨S1024x12x300, .f32⟩
  | .hbm, ⟨57, _⟩ => ⟨S_, .f32⟩
  | .hbm, ⟨58, _⟩ => ⟨S1024x12x300, .f32⟩
  | .hbm, ⟨59, _⟩ => ⟨S1024x12x300, .i1⟩
  | .hbm, ⟨60, _⟩ => ⟨S_, .f32⟩
  | .hbm, ⟨61, _⟩ => ⟨S1024x12x300, .f32⟩
  | .hbm, ⟨62, _⟩ => ⟨S1024x12x300, .f32⟩
  | .hbm, ⟨63, _⟩ => ⟨S1024x12x300, .f32⟩
  | .hbm, ⟨64, _⟩ => ⟨S_, .f32⟩
  | .hbm, ⟨65, _⟩ => ⟨S1024x12, .f32⟩
  | .hbm, ⟨66, _⟩ => ⟨S1024x12x1, .f32⟩
  | .hbm, ⟨67, _⟩ => ⟨S_, .f32⟩
  | .hbm, ⟨68, _⟩ => ⟨S1024x12x1, .f32⟩
  | .hbm, ⟨69, _⟩ => ⟨S1024x12x1, .i1⟩
  | .hbm, ⟨70, _⟩ => ⟨S1024x12x1, .f32⟩
  | .hbm, ⟨71, _⟩ => ⟨S1024x12x300, .f32⟩
  | .hbm, ⟨72, _⟩ => ⟨S1024x12x300, .f32⟩
  | .hbm, ⟨73, _⟩ => ⟨S1024x6x2x300, .f32⟩
  | .hbm, ⟨74, _⟩ => ⟨S_, .f32⟩
  | .hbm, ⟨75, _⟩ => ⟨S1024x6x300, .f32⟩
  | .hbm, ⟨76, _⟩ => ⟨S1024x4x300, .f32⟩
  | .hbm, ⟨77, _⟩ => ⟨S1024x4x300, .f32⟩
  | .hbm, ⟨78, _⟩ => ⟨S1024x4x300, .f32⟩
  | .hbm, ⟨79, _⟩ => ⟨S1024x4x900, .f32⟩
  | .hbm, ⟨80, _⟩ => ⟨S1024x4x300, .f32⟩
  | .hbm, ⟨81, _⟩ => ⟨S1x1x300, .f32⟩
  | .hbm, ⟨82, _⟩ => ⟨S1024x4x300, .f32⟩
  | .hbm, ⟨83, _⟩ => ⟨S1024x4x300, .f32⟩
  | .hbm, ⟨84, _⟩ => ⟨S_, .f32⟩
  | .hbm, ⟨85, _⟩ => ⟨S1024x4x300, .f32⟩
  | .hbm, ⟨86, _⟩ => ⟨S1024x4x300, .i1⟩
  | .hbm, ⟨87, _⟩ => ⟨S_, .f32⟩
  | .hbm, ⟨88, _⟩ => ⟨S1024x4x300, .f32⟩
  | .hbm, ⟨89, _⟩ => ⟨S1024x4x300, .f32⟩
  | .hbm, ⟨90, _⟩ => ⟨S1024x4x300, .f32⟩
  | .hbm, ⟨91, _⟩ => ⟨S_, .f32⟩
  | .hbm, ⟨92, _⟩ => ⟨S1024x4, .f32⟩
  | .hbm, ⟨93, _⟩ => ⟨S1024x4x1, .f32⟩
  | .hbm, ⟨94, _⟩ => ⟨S_, .f32⟩
  | .hbm, ⟨95, _⟩ => ⟨S1024x4x1, .f32⟩
  | .hbm, ⟨96, _⟩ => ⟨S1024x4x1, .i1⟩
  | .hbm, ⟨97, _⟩ => ⟨S1024x4x1, .f32⟩
  | .hbm, ⟨98, _⟩ => ⟨S1024x4x300, .f32⟩
  | .hbm, ⟨99, _⟩ => ⟨S1024x4x300, .f32⟩
  | .hbm, ⟨100, _⟩ => ⟨S1024x2x2x300, .f32⟩
  | .hbm, ⟨101, _⟩ => ⟨S_, .f32⟩
  | .hbm, ⟨102, _⟩ => ⟨S1024x2x300, .f32⟩
  | .hbm, ⟨103, _⟩ => ⟨S1024x600, .f32⟩
  | .hbm, ⟨104, _⟩ => ⟨S1024x2648, .f32⟩
  | .hbm, ⟨105, _⟩ => ⟨S2648x400, .f32⟩
  | .hbm, ⟨106, _⟩ => ⟨S1024x400, .f32⟩
  | .hbm, ⟨107, _⟩ => ⟨S1x400, .f32⟩
  | .hbm, ⟨108, _⟩ => ⟨S1024x400, .f32⟩
  | .hbm, ⟨109, _⟩ => ⟨S1024x400, .f32⟩
  | .hbm, ⟨110, _⟩ => ⟨S_, .f32⟩
  | .hbm, ⟨111, _⟩ => ⟨S1024x400, .f32⟩
  | .hbm, ⟨112, _⟩ => ⟨S1024x400, .i1⟩
  | .hbm, ⟨113, _⟩ => ⟨S_, .f32⟩
  | .hbm, ⟨114, _⟩ => ⟨S1024x400, .f32⟩
  | .hbm, ⟨115, _⟩ => ⟨S1024x400, .f32⟩
  | .hbm, ⟨116, _⟩ => ⟨S1024x400, .f32⟩
  | .hbm, ⟨117, _⟩ => ⟨S400x1, .f32⟩
  | .hbm, ⟨118, _⟩ => ⟨S1024x1, .f32⟩
  | .hbm, ⟨119, _⟩ => ⟨S1x1, .f32⟩
  | .hbm, ⟨120, _⟩ => ⟨S1024x1, .f32⟩
  | .hbm, ⟨121, _⟩ => ⟨S1024x1, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_cst_0 : Ref sig .tc := ⟨.hbm, 33, rfl⟩
abbrev main_call0_v2 : Ref sig .tc := ⟨.hbm, 34, rfl⟩
abbrev main_call0_v3 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call1_cst : Ref sig .tc := ⟨.hbm, 57, rfl⟩
abbrev main_call1_v0 : Ref sig .tc := ⟨.hbm, 58, rfl⟩
abbrev main_call1_v1 : Ref sig .tc := ⟨.hbm, 59, rfl⟩
abbrev main_call1_cst_0 : Ref sig .tc := ⟨.hbm, 60, rfl⟩
abbrev main_call1_v2 : Ref sig .tc := ⟨.hbm, 61, rfl⟩
abbrev main_call1_v3 : Ref sig .tc := ⟨.hbm, 62, rfl⟩
abbrev main_v33 : Ref sig .tc := ⟨.hbm, 63, rfl⟩
abbrev main_cst_3 : Ref sig .tc := ⟨.hbm, 64, rfl⟩
abbrev main_v34 : Ref sig .tc := ⟨.hbm, 65, rfl⟩
abbrev main_v35 : Ref sig .tc := ⟨.hbm, 66, rfl⟩
abbrev main_cst_4 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_5 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_cst_0 : Ref sig .tc := ⟨.hbm, 87, rfl⟩
abbrev main_call2_v2 : Ref sig .tc := ⟨.hbm, 88, rfl⟩
abbrev main_call2_v3 : Ref sig .tc := ⟨.hbm, 89, rfl⟩
abbrev main_v51 : Ref sig .tc := ⟨.hbm, 90, rfl⟩
abbrev main_cst_6 : Ref sig .tc := ⟨.hbm, 91, rfl⟩
abbrev main_v52 : Ref sig .tc := ⟨.hbm, 92, rfl⟩
abbrev main_v53 : Ref sig .tc := ⟨.hbm, 93, rfl⟩
abbrev main_cst_7 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_8 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_call3_cst : Ref sig .tc := ⟨.hbm, 110, rfl⟩
abbrev main_call3_v0 : Ref sig .tc := ⟨.hbm, 111, rfl⟩
abbrev main_call3_v1 : Ref sig .tc := ⟨.hbm, 112, rfl⟩
abbrev main_call3_cst_0 : Ref sig .tc := ⟨.hbm, 113, rfl⟩
abbrev main_call3_v2 : Ref sig .tc := ⟨.hbm, 114, rfl⟩
abbrev main_call3_v3 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩

abbrev nD : Nat := 1
abbrev τ : Topo := Topo.v7x

variable {F : FTy → Type} [FloatOps F]

class Facts₀ : Prop where
  bcast_S_S1024x30 : S_.BroadcastsInDim S1024x30 (![] : Fin 0 → Fin S1024x30.rank)
  bcast_S1024x30_S1024x30x1_0_1 : S1024x30.BroadcastsInDim S1024x30x1 (![0, 1] : Fin 2 → Fin S1024x30x1.rank)
  slices_S1024x30x512_S1024x28x512_0_0_0 : S1024x30x512.Slices ![0, 0, 0] S1024x28x512
  slices_S1024x30x512_S1024x28x512_0_1_0 : S1024x30x512.Slices ![0, 1, 0] S1024x28x512
  slices_S1024x30x512_S1024x28x512_0_2_0 : S1024x30x512.Slices ![0, 2, 0] S1024x28x512
  concatenates_S1024x28x512_S1024x28x512_S1024x28x512_S1024x28x1536_d2 : Shape.Concatenates [S1024x28x512, S1024x28x512, S1024x28x512] S1024x28x1536 2
  bcast_S200_S1x1x200_2 : S200.BroadcastsInDim S1x1x200 (![2] : Fin 1 → Fin S1x1x200.rank)
  bcast_S1x1x200_S1024x28x200_0_1_2 : S1x1x200.BroadcastsInDim S1024x28x200 (![0, 1, 2] : Fin 3 → Fin S1024x28x200.rank)
  bcast_S_S1024x28x200 : S_.BroadcastsInDim S1024x28x200 (![] : Fin 0 → Fin S1024x28x200.rank)
  reducesTo_S1024x28x1536_S1024x28_d2 : S1024x28x1536.ReducesTo [2] S1024x28
  h_S_ : 0 < S_.numel
  bcast_S1024x28_S1024x28x1_0_1 : S1024x28.BroadcastsInDim S1024x28x1 (![0, 1] : Fin 2 → Fin S1024x28x1.rank)
  bcast_S_S1024x28x1 : S_.BroadcastsInDim S1024x28x1 (![] : Fin 0 → Fin S1024x28x1.rank)
  bcast_S1024x28x1_S1024x28x200_0_1_2 : S1024x28x1.BroadcastsInDim S1024x28x200 (![0, 1, 2] : Fin 3 → Fin S1024x28x200.rank)
  shapeCasts_S1024x28x200_S1024x14x2x200 : S1024x28x200.ShapeCasts S1024x14x2x200
  reducesTo_S1024x14x2x200_S1024x14x200_d2 : S1024x14x2x200.ReducesTo [2] S1024x14x200
  slices_S1024x14x200_S1024x12x200_0_0_0 : S1024x14x200.Slices ![0, 0, 0] S1024x12x200
  slices_S1024x14x200_S1024x12x200_0_1_0 : S1024x14x200.Slices ![0, 1, 0] S1024x12x200
  slices_S1024x14x200_S1024x12x200_0_2_0 : S1024x14x200.Slices ![0, 2, 0] S1024x12x200
  concatenates_S1024x12x200_S1024x12x200_S1024x12x200_S1024x12x600_d2 : Shape.Concatenates [S1024x12x200, S1024x12x200, S1024x12x200] S1024x12x600 2
  bcast_S300_S1x1x300_2 : S300.BroadcastsInDim S1x1x300 (![2] : Fin 1 → Fin S1x1x300.rank)
  bcast_S1x1x300_S1024x12x300_0_1_2 : S1x1x300.BroadcastsInDim S1024x12x300 (![0, 1, 2] : Fin 3 → Fin S1024x12x300.rank)
  bcast_S_S1024x12x300 : S_.BroadcastsInDim S1024x12x300 (![] : Fin 0 → Fin S1024x12x300.rank)
  reducesTo_S1024x12x600_S1024x12_d2 : S1024x12x600.ReducesTo [2] S1024x12
  bcast_S1024x12_S1024x12x1_0_1 : S1024x12.BroadcastsInDim S1024x12x1 (![0, 1] : Fin 2 → Fin S1024x12x1.rank)
  bcast_S_S1024x12x1 : S_.BroadcastsInDim S1024x12x1 (![] : Fin 0 → Fin S1024x12x1.rank)
  bcast_S1024x12x1_S1024x12x300_0_1_2 : S1024x12x1.BroadcastsInDim S1024x12x300 (![0, 1, 2] : Fin 3 → Fin S1024x12x300.rank)
  shapeCasts_S1024x12x300_S1024x6x2x300 : S1024x12x300.ShapeCasts S1024x6x2x300
  reducesTo_S1024x6x2x300_S1024x6x300_d2 : S1024x6x2x300.ReducesTo [2] S1024x6x300
  slices_S1024x6x300_S1024x4x300_0_0_0 : S1024x6x300.Slices ![0, 0, 0] S1024x4x300
  slices_S1024x6x300_S1024x4x300_0_1_0 : S1024x6x300.Slices ![0, 1, 0] S1024x4x300
  slices_S1024x6x300_S1024x4x300_0_2_0 : S1024x6x300.Slices ![0, 2, 0] S1024x4x300
  concatenates_S1024x4x300_S1024x4x300_S1024x4x300_S1024x4x900_d2 : Shape.Concatenates [S1024x4x300, S1024x4x300, S1024x4x300] S1024x4x900 2
  bcast_S1x1x300_S1024x4x300_0_1_2 : S1x1x300.BroadcastsInDim S1024x4x300 (![0, 1, 2] : Fin 3 → Fin S1024x4x300.rank)
  bcast_S_S1024x4x300 : S_.BroadcastsInDim S1024x4x300 (![] : Fin 0 → Fin S1024x4x300.rank)
  reducesTo_S1024x4x900_S1024x4_d2 : S1024x4x900.ReducesTo [2] S1024x4
  bcast_S1024x4_S1024x4x1_0_1 : S1024x4.BroadcastsInDim S1024x4x1 (![0, 1] : Fin 2 → Fin S1024x4x1.rank)
  bcast_S_S1024x4x1 : S_.BroadcastsInDim S1024x4x1 (![] : Fin 0 → Fin S1024x4x1.rank)
  bcast_S1024x4x1_S1024x4x300_0_1_2 : S1024x4x1.BroadcastsInDim S1024x4x300 (![0, 1, 2] : Fin 3 → Fin S1024x4x300.rank)
  shapeCasts_S1024x4x300_S1024x2x2x300 : S1024x4x300.ShapeCasts S1024x2x2x300
  reducesTo_S1024x2x2x300_S1024x2x300_d2 : S1024x2x2x300.ReducesTo [2] S1024x2x300
  shapeCasts_S1024x2x300_S1024x600 : S1024x2x300.ShapeCasts S1024x600
  concatenates_S1024x600_S1024x2048_S1024x2648_d1 : Shape.Concatenates [S1024x600, S1024x2048] S1024x2648 1
  transposes_S400x2648_S2648x400_1_0 : S400x2648.Transposes [1, 0] S2648x400
  bcast_S400_S1x400_1 : S400.BroadcastsInDim S1x400 (![1] : Fin 1 → Fin S1x400.rank)
  bcast_S1x400_S1024x400_0_1 : S1x400.BroadcastsInDim S1024x400 (![0, 1] : Fin 2 → Fin S1024x400.rank)
  bcast_S_S1024x400 : S_.BroadcastsInDim S1024x400 (![] : Fin 0 → Fin S1024x400.rank)
  transposes_S1x400_S400x1_1_0 : S1x400.Transposes [1, 0] S400x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  gather_S32000x512_S1024x30x1_S1024x30x512_2_0_n_n_0_2_1512_wf : GatherDims.WF S32000x512 S1024x30x1 S1024x30x512 [2] [0] [] [0] [] 2 ![1, 512]
  dot_S1024x28x1536_S200x1536_S1024x28x200_2_1_01_0_n_n_wf : DotDims.WF S1024x28x1536 S200x1536 S1024x28x200 [2] [1] [0, 1] [0] [] []
  dot_S1024x12x600_S300x600_S1024x12x300_2_1_01_0_n_n_wf : DotDims.WF S1024x12x600 S300x600 S1024x12x300 [2] [1] [0, 1] [0] [] []
  dot_S1024x4x900_S300x900_S1024x4x300_2_1_01_0_n_n_wf : DotDims.WF S1024x4x900 S300x900 S1024x4x300 [2] [1] [0, 1] [0] [] []
  dot_S1024x2648_S2648x400_S1024x400_1_0_0_1_n_n_wf : DotDims.WF S1024x2648 S2648x400 S1024x400 [1] [0] [0] [1] [] []
  dot_S1024x400_S400x1_S1024x1_1_0_0_1_n_n_wf : DotDims.WF S1024x400 S400x1 S1024x1 [1] [0] [0] [1] [] []

variable [Facts₀]

def gather_S32000x512_S1024x30x1_S1024x30x512_2_0_n_n_0_2_1512 : GatherDims S32000x512 S1024x30x1 S1024x30x512 where
  offsetDims := [2]
  collapsedSliceDims := [0]
  operandBatchingDims := []
  startIndicesBatchingDims := []
  startIndexMap := [0]
  indexVectorDim := 2
  sliceSizes := ![1, 512]
  wf := gather_S32000x512_S1024x30x1_S1024x30x512_2_0_n_n_0_2_1512_wf
def dot_S1024x28x1536_S200x1536_S1024x28x200_2_1_01_0_n_n : DotDims S1024x28x1536 S200x1536 S1024x28x200 where
  lhsContracting := [2]
  rhsContracting := [1]
  lhsNonContracting := [0, 1]
  rhsNonContracting := [0]
  lhsBatch := []
  rhsBatch := []
  wf := dot_S1024x28x1536_S200x1536_S1024x28x200_2_1_01_0_n_n_wf
def dot_S1024x12x600_S300x600_S1024x12x300_2_1_01_0_n_n : DotDims S1024x12x600 S300x600 S1024x12x300 where
  lhsContracting := [2]
  rhsContracting := [1]
  lhsNonContracting := [0, 1]
  rhsNonContracting := [0]
  lhsBatch := []
  rhsBatch := []
  wf := dot_S1024x12x600_S300x600_S1024x12x300_2_1_01_0_n_n_wf
def dot_S1024x4x900_S300x900_S1024x4x300_2_1_01_0_n_n : DotDims S1024x4x900 S300x900 S1024x4x300 where
  lhsContracting := [2]
  rhsContracting := [1]
  lhsNonContracting := [0, 1]
  rhsNonContracting := [0]
  lhsBatch := []
  rhsBatch := []
  wf := dot_S1024x4x900_S300x900_S1024x4x300_2_1_01_0_n_n_wf
def dot_S1024x2648_S2648x400_S1024x400_1_0_0_1_n_n : DotDims S1024x2648 S2648x400 S1024x400 where
  lhsContracting := [1]
  rhsContracting := [0]
  lhsNonContracting := [0]
  rhsNonContracting := [1]
  lhsBatch := []
  rhsBatch := []
  wf := dot_S1024x2648_S2648x400_S1024x400_1_0_0_1_n_n_wf
def dot_S1024x400_S400x1_S1024x1_1_0_0_1_n_n : DotDims S1024x400 S400x1 S1024x1 where
  lhsContracting := [1]
  rhsContracting := [0]
  lhsNonContracting := [0]
  rhsNonContracting := [1]
  lhsBatch := []
  rhsBatch := []
  wf := dot_S1024x400_S400x1_S1024x1_1_0_0_1_n_n_wf

class Facts : Prop extends Facts₀ where

variable [Facts]
-- ==== Proof.Spec.lean ====
/-
  The network as mathematics, one batch row at a time, on the extended reals.

  A row of the batch is a sentence of 30 embedded tokens (30 × 512) and an image vector (2048). Three convolution
  stages follow one another. A stage looks at every window of three consecutive positions: the window's value at an
  output channel is the sum over the three positions of (position's channels) · (that position's slice of the stage's
  weights), plus the bias, through the leaky rectifier; a window all of whose entries sum to zero is gated to zero;
  neighbouring windows are then pooled in pairs by their maximum. The pooled positions of the last stage, laid out
  channel-fastest, are joined with the image vector through a dense layer with the leaky rectifier and a last linear
  layer to one number.

  Each sum over a window is written here as the three sums over its three positions, one after the other (the order
  in which the positions' products are added). The one law of this file, `sum_split3` (and `sum_split2` for the dense
  layer), says that a single sum over the window's 3·C entries laid end to end is that: sums over the extended reals
  may be regrouped freely, since addition there is commutative and associative.
-/
import Idealize.ShloMosaic.Lib.ValueIdx
import Idealize.ShloMosaic.PureOps.Ideal.Laws

noncomputable section

namespace Cert.Spec

open Idealize.ShloMosaic

/-- The f32 word of zero, of the rectifier's slope (0.01 rounded to f32) and of −∞, as extended reals. -/
abbrev zeroW : EReal := Ideal.ofBits .f32 0x00000000#32
abbrev slopeW : EReal := Ideal.ofBits .f32 0x3C23D70A#32
abbrev negInfW : EReal := Ideal.ofBits .f32 0xFF800000#32

/-- The leaky rectifier: `x` where `x ≥ 0`, `slope · x` elsewhere. -/
def leaky (x : EReal) : EReal :=
  Scalar.select (Ideal.cmp .oge x zeroW) x (slopeW * x)

/-- The gate of a window: 1 where the window's sum is not zero, 0 where it is (the comparison's bit, widened to a
    32-bit integer and read as a signed integer). -/
def gate (a : EReal) : EReal :=
  ((((Ideal.cmp .one a zeroW).setWidth 32).toInt : ℝ) : EReal)

/-- The same gate with the comparison's bit read directly as an unsigned integer. -/
theorem gate_eq_toNat (a : EReal) : ((((Ideal.cmp .une a zeroW)).toNat : ℝ) : EReal) = gate a := by
  unfold gate
  have h : Ideal.cmp .une a zeroW = Ideal.cmp .one a zeroW := rfl
  rw [h]
  rcases BitVec.eq_zero_or_eq_one (Ideal.cmp .one a zeroW) with h | h <;> rw [h] <;> rfl

/-- The maximum of a pair, taken from −∞. -/
def pool (f : Fin 2 → EReal) : EReal :=
  (Finset.univ : Finset (Fin 2)).fold max negInfW f

section Stage

/-- A window's value at an output channel before the rectifier: the three positions' products summed position by
    position, then the bias. `wa`, `wb`, `wc` are the weights of the window's first, second and third position. -/
def pre (L Lw C O : ℕ) (hLw : Lw + 2 = L) (x : Fin L → Fin C → EReal) (wa wb wc : Fin C → Fin O → EReal) (b : Fin O → EReal) (l : Fin Lw) (o : Fin O) : EReal :=
  ((∑ c : Fin C, x ⟨l.val, by omega⟩ c * wa c o
    + ∑ c : Fin C, x ⟨l.val + 1, by omega⟩ c * wb c o)
    + ∑ c : Fin C, x ⟨l.val + 2, by omega⟩ c * wc c o) + b o

/-- The sum of all entries of a window. -/
def wsum (L Lw C : ℕ) (hLw : Lw + 2 = L) (x : Fin L → Fin C → EReal) (l : Fin Lw) : EReal :=
  (∑ c : Fin C, x ⟨l.val, by omega⟩ c + ∑ c : Fin C, x ⟨l.val + 1, by omega⟩ c) + ∑ c : Fin C, x ⟨l.val + 2, by omega⟩ c

/-- A window's gated, rectified value. -/
def act (L Lw C O : ℕ) (hLw : Lw + 2 = L) (x : Fin L → Fin C → EReal) (wa wb wc : Fin C → Fin O → EReal) (b : Fin O → EReal) (l : Fin Lw) (o : Fin O) : EReal :=
  leaky (pre L Lw C O hLw x wa wb wc b l o) * gate (wsum L Lw C hLw x l)

/-- One stage: windows `2q` and `2q + 1` pooled. -/
def stage (L Lw Lp C O : ℕ) (hLw : Lw + 2 = L) (hLp : 2 * Lp = Lw) (x : Fin L → Fin C → EReal) (wa wb wc : Fin C → Fin O → EReal) (b : Fin O → EReal) (q : Fin Lp) (o : Fin O) : EReal :=
  pool fun r => act L Lw C O hLw x wa wb wc b ⟨2 * q.val + r.val, by have := q.isLt; have := r.isLt; omega⟩ o

end Stage

/-- The dense head on the last stage's two pooled positions (laid out position-major, channel-fastest: entry `k` of
    the 600 is channel `k % 300` of position `k / 300`) and the image vector. -/
def head (x3 : Fin 2 → Fin 300 → EReal) (img : Fin 2048 → EReal) (wmx : Fin 600 → Fin 400 → EReal)
    (wmi : Fin 2048 → Fin 400 → EReal) (bm : Fin 400 → EReal) (wo : Fin 400 → EReal) (bo : EReal) : EReal :=
  (∑ o : Fin 400,
      leaky (((∑ k : Fin 600, x3 ⟨k.val / 300, by omega⟩ ⟨k.val % 300, by omega⟩ * wmx k o)
              + ∑ k : Fin 2048, img k * wmi k o) + bm o) * wo o) + bo

/-- The network's weights, as the kernel is handed them: each stage's weights position by position, the dense
    layer's in its two parts. -/
structure Params where
  w1a : Fin 512 → Fin 200 → EReal
  w1b : Fin 512 → Fin 200 → EReal
  w1c : Fin 512 → Fin 200 → EReal
  b1 : Fin 200 → EReal
  w2a : Fin 200 → Fin 300 → EReal
  w2b : Fin 200 → Fin 300 → EReal
  w2c : Fin 200 → Fin 300 → EReal
  b2 : Fin 300 → EReal
  w3a : Fin 300 → Fin 300 → EReal
  w3b : Fin 300 → Fin 300 → EReal
  w3c : Fin 300 → Fin 300 → EReal
  b3 : Fin 300 → EReal
  wmx : Fin 600 → Fin 400 → EReal
  wmi : Fin 2048 → Fin 400 → EReal
  bm : Fin 400 → EReal
  wo : Fin 400 → EReal
  bo : EReal

/-- The three stages' outputs for one row. -/
def x1 (P : Params) (x0 : Fin 30 → Fin 512 → EReal) : Fin 14 → Fin 200 → EReal :=
  stage 30 28 14 512 200 rfl rfl x0 P.w1a P.w1b P.w1c P.b1
def x2 (P : Params) (x0 : Fin 30 → Fin 512 → EReal) : Fin 6 → Fin 300 → EReal :=
  stage 14 12 6 200 300 rfl rfl (x1 P x0) P.w2a P.w2b P.w2c P.b2
def x3 (P : Params) (x0 : Fin 30 → Fin 512 → EReal) : Fin 2 → Fin 300 → EReal :=
  stage 6 4 2 300 300 rfl rfl (x2 P x0) P.w3a P.w3b P.w3c P.b3

/-- The network's output for one row. -/
def row (P : Params) (x0 : Fin 30 → Fin 512 → EReal) (img : Fin 2048 → EReal) : EReal :=
  head (x3 P x0) img P.wmx P.wmi P.bm P.wo P.bo

/-! ## Regrouping a sum laid end to end -/

/-- A sum over `C + C + C` entries laid end to end is the three blocks' sums, one after the other. -/
theorem sum_split3 {M : Type*} [AddCommMonoid M] (C n : ℕ) (hn : n = C + C + C) (f : Fin n → M) :
    ∑ k : Fin n, f k
      = (∑ c : Fin C, f ⟨c.val, by omega⟩ + ∑ c : Fin C, f ⟨C + c.val, by omega⟩) + ∑ c : Fin C, f ⟨C + C + c.val, by omega⟩ := by
  subst hn
  rw [Fin.sum_univ_add, Fin.sum_univ_add]
  rfl

/-- A sum over `A + B` entries laid end to end is the two blocks' sums. -/
theorem sum_split2 {M : Type*} [AddCommMonoid M] (A B n : ℕ) (hn : n = A + B) (f : Fin n → M) :
    ∑ k : Fin n, f k = ∑ a : Fin A, f ⟨a.val, by omega⟩ + ∑ b : Fin B, f ⟨A + b.val, by omega⟩ := by
  subst hn
  rw [Fin.sum_univ_add]
  rfl

/-! ## The two programs' arguments as the network's weights, and the whole output -/

open Idealize.ShloMosaic.ValueIdx

/-- The weights read off the argument arrays: a stage's weight matrix holds, in row `o`, the three positions' weights
    one after the other (position `i`'s channel `c` at column `i·C + c`); the dense layer's holds the 600 stage
    features then the 2048 image features; every matrix is stored output-channel-major. -/
def paramsOf (W1 : (⟨2, ![200, 1536]⟩ : Shape).Idx → EReal) (b1 : (⟨1, ![200]⟩ : Shape).Idx → EReal)
    (W2 : (⟨2, ![300, 600]⟩ : Shape).Idx → EReal) (b2 : (⟨1, ![300]⟩ : Shape).Idx → EReal)
    (W3 : (⟨2, ![300, 900]⟩ : Shape).Idx → EReal) (b3 : (⟨1, ![300]⟩ : Shape).Idx → EReal)
    (Wm : (⟨2, ![400, 2648]⟩ : Shape).Idx → EReal) (bm : (⟨1, ![400]⟩ : Shape).Idx → EReal)
    (Wo : (⟨2, ![1, 400]⟩ : Shape).Idx → EReal) (bo : (⟨1, ![1]⟩ : Shape).Idx → EReal) : Params where
  w1a c o := W1 (ix2 o (⟨c.val, by omega⟩ : Fin 1536))
  w1b c o := W1 (ix2 o (⟨512 + c.val, by omega⟩ : Fin 1536))
  w1c c o := W1 (ix2 o (⟨1024 + c.val, by omega⟩ : Fin 1536))
  b1 o := b1 (ix1 o)
  w2a c o := W2 (ix2 o (⟨c.val, by omega⟩ : Fin 600))
  w2b c o := W2 (ix2 o (⟨200 + c.val, by omega⟩ : Fin 600))
  w2c c o := W2 (ix2 o (⟨400 + c.val, by omega⟩ : Fin 600))
  b2 o := b2 (ix1 o)
  w3a c o := W3 (ix2 o (⟨c.val, by omega⟩ : Fin 900))
  w3b c o := W3 (ix2 o (⟨300 + c.val, by omega⟩ : Fin 900))
  w3c c o := W3 (ix2 o (⟨600 + c.val, by omega⟩ : Fin 900))
  b3 o := b3 (ix1 o)
  wmx k o := Wm (ix2 o (⟨k.val, by omega⟩ : Fin 2648))
  wmi k o := Wm (ix2 o (⟨600 + k.val, by omega⟩ : Fin 2648))
  bm o := bm (ix1 o)
  wo o := Wo (ix2 (0 : Fin 1) o)
  bo := bo (ix1 (0 : Fin 1))

/-- The network's output array: row `r` from the embedded sentence `X[r]` and the image vector `img[r]`. -/
def out (X : (⟨3, ![1024, 30, 512]⟩ : Shape).Idx → EReal) (img : (⟨2, ![1024, 2048]⟩ : Shape).Idx → EReal) (P : Params) :
    (⟨2, ![1024, 1]⟩ : Shape).Idx → EReal :=
  fun i => row P (fun l c => X (ix3 (⟨(i 0).val, idx2_lt0 i⟩ : Fin 1024) l c)) (fun k => img (ix2 (⟨(i 0).val, idx2_lt0 i⟩ : Fin 1024) k))

end Cert.Spec

end
-- ==== Proof.KParams.lean ====
/-
  The network's weights as the kernel's body finds them: the blocks of its weight windows, each read entry by entry.
-/
import proofs.«117697_j48292612276233_2_alg».proof.KernelIdeal
import proofs.«117697_j48292612276233_2_alg».proof.Proof.Spec

noncomputable section

namespace Cert.KernelIdeal.KPay

open Cert.KernelIdeal Idealize.ShloMosaic Idealize.ShloMosaic.ValueIdx

/-- The weights from the body's loaded blocks: the three positions' weight blocks of each stage (input channel by
    output channel), the bias rows, the dense layer's two parts, the last layer's column and its bias. -/
def params (x2 x3 x4 : Vec Ideal S512x200 .bf16) (x5 : Vec Ideal S1x200 .f32)
    (x6 x7 x8 : Vec Ideal S200x300 .bf16) (x9 : Vec Ideal S1x300 .f32)
    (x10 x11 x12 : Vec Ideal S300x300 .bf16) (x13 : Vec Ideal S1x300 .f32)
    (x14 : Vec Ideal S600x400 .bf16) (x15 : Vec Ideal S2048x400 .bf16) (x16 : Vec Ideal S1x400 .f32)
    (x17 : Vec Ideal S400x1 .bf16) (x18 : Vec Ideal S1x1 .f32) : Cert.Spec.Params where
  w1a c o := x2 (ix2 c o)
  w1b c o := x3 (ix2 c o)
  w1c c o := x4 (ix2 c o)
  b1 o := x5 (ix2 (0 : Fin 1) o)
  w2a c o := x6 (ix2 c o)
  w2b c o := x7 (ix2 c o)
  w2c c o := x8 (ix2 c o)
  b2 o := x9 (ix2 (0 : Fin 1) o)
  w3a c o := x10 (ix2 c o)
  w3b c o := x11 (ix2 c o)
  w3c c o := x12 (ix2 c o)
  b3 o := x13 (ix2 (0 : Fin 1) o)
  wmx k o := x14 (ix2 k o)
  wmi k o := x15 (ix2 k o)
  bm o := x16 (ix2 (0 : Fin 1) o)
  wo o := x17 (ix2 o (0 : Fin 1))
  bo := x18 (ix2 (0 : Fin 1) (0 : Fin 1))

end Cert.KernelIdeal.KPay

end
-- ==== Proof.LibPlainDot.lean ====
/-
  A plain matrix product read at an index, at the ideal values.

  For the dimension numbers of an `M × K` by `K × N` product with no batch axis (`DotDims.plain M K N`: the left
  operand contracted on its columns, the right on its rows), the operand indices at the result index `(r, c)` and the
  contraction position `k` are `(r, k)` and `(k, c)`. So both the host's `dot_general` and a kernel's `tpu.matmul`
  into a zero accumulator are, at `(r, c)`, the textbook sum `∑ k, X (r, k) · W (k, c)` over the extended reals —
  whatever the extents, the element formats of the operands and the precision or schedule keys.
-/
import Idealize.ShloMosaic.Lib.ValueIdx
import Idealize.ShloMosaic.PureOps.Ideal.Laws

noncomputable section

namespace Idealize.ShloMosaic.PlainDot

open Idealize.ShloMosaic Idealize.ShloMosaic.ValueIdx

variable {φ₁ φ₂ : FTy}

/-- The plain product contracts over one axis, -/
theorem contr_rank (M K N : Nat) : (DotDims.plain M K N).contr.rank = 1 := rfl
/-- of extent `K`. -/
theorem contr_size (M K N : Nat) : (DotDims.plain M K N).contr.size ⟨0, by rw [contr_rank]; omega⟩ = K := rfl

/-- The left operand's index at result index `(r, c)` and the `k`-th contraction position is `(r, k)`. -/
theorem lhsIdx_ix2 (M K N : Nat) (r : Fin M) (c : Fin N) (k : Fin K) :
    (DotDims.plain M K N).lhsIdx (ix2 r c) ((contrEquiv1 (DotDims.plain M K N) K rfl rfl).symm k) = ix2 r k :=
  funext fun a => Fin.ext (by
    match a with
    | ⟨0, _⟩ => rfl
    | ⟨1, _⟩ => exact contrEquiv1_symm_val (DotDims.plain M K N) K rfl rfl k)

/-- The right operand's is `(k, c)`. -/
theorem rhsIdx_ix2 (M K N : Nat) (r : Fin M) (c : Fin N) (k : Fin K) :
    (DotDims.plain M K N).rhsIdx (ix2 r c) ((contrEquiv1 (DotDims.plain M K N) K rfl rfl).symm k) = ix2 k c :=
  funext fun a => Fin.ext (by
    match a with
    | ⟨0, _⟩ => exact contrEquiv1_symm_val (DotDims.plain M K N) K rfl rfl k
    | ⟨1, _⟩ => rfl)

/-- The host's plain `dot_general` at `(r, c)`: the sum over `k` of `X (r, k) · W (k, c)`. -/
theorem dotGeneral_apply (M K N : Nat) (prec : Option ContractPrecision) (sched : HostSchedule)
    (X : FVec Ideal ⟨2, ![M, K]⟩ φ₁) (W : FVec Ideal ⟨2, ![K, N]⟩ φ₂) (r : Fin M) (c : Fin N) :
    FloatOps.dotGeneral (DotDims.plain M K N) prec sched X W (ix2 r c) = ∑ k : Fin K, X (ix2 r k) * W (ix2 k c) := by
  rw [Ideal.dotGeneral_apply, ← Equiv.sum_comp (contrEquiv1 (DotDims.plain M K N) K rfl rfl).symm]
  refine Finset.sum_congr rfl fun k _ => ?_
  rw [lhsIdx_ix2, rhsIdx_ix2]

/-- A kernel's plain `tpu.matmul` into the zero accumulator at `(r, c)`: the same sum. -/
theorem matmul_zero_apply (M K N : Nat) (prec : Option ContractPrecision)
    (X : FVec Ideal ⟨2, ![M, K]⟩ φ₁) (W : FVec Ideal ⟨2, ![K, N]⟩ φ₂) (r : Fin M) (c : Fin N) :
    FloatOps.matmul (DotDims.plain M K N) prec X W (constant ⟨2, ![M, N]⟩ .f32 0x00000000#32) (ix2 r c)
      = ∑ k : Fin K, X (ix2 r k) * W (ix2 k c) := by
  rw [Ideal.matmul_constant_zero_apply, ← Equiv.sum_comp (contrEquiv1 (DotDims.plain M K N) K rfl rfl).symm]
  refine Finset.sum_congr rfl fun k _ => ?_
  rw [lhsIdx_ix2, rhsIdx_ix2]

end Idealize.ShloMosaic.PlainDot

end
-- ==== Proof.KPayLib.lean ====
/-
  The rectifier and the gate as the kernel computes them on a whole vector, read at one entry.
-/
import proofs.«117697_j48292612276233_2_alg».proof.KernelIdeal
import proofs.«117697_j48292612276233_2_alg».proof.Proof.Spec

noncomputable section

namespace Cert.KernelIdeal.KPay

open Cert.KernelIdeal Idealize.ShloMosaic Idealize.ShloMosaic.ValueIdx

/-- The leaky rectifier the kernel applies to a vector — compare with the zero splat, multiply by the slope splat,
    select — is, at each entry, the network's rectifier of that entry. -/
theorem leaky_vec {s : Shape} (v : FVec Ideal s .f32) (i : s.Idx) (B : EReal) (h : v i = B) :
    select (cmpf .oge v (broadcast s (Scalar.ofBits (F := Ideal) .f32 0x00000000#32))) v
      (mulf (broadcast s (Scalar.ofBits (F := Ideal) .f32 0x3C23D70A#32)) v) i = Cert.Spec.leaky B := by
  subst h
  rfl

/-- The gate the kernel computes from a vector of window sums — compare with the zero splat for "not equal", widen the
    bit to 32 bits, read it as a signed integer — is, at each entry, the network's gate of that entry. -/
theorem gate_vec {s : Shape} (v : FVec Ideal s .f32) (h32 : 1 < 32) (i : s.Idx) (B : EReal) (h : v i = B) :
    (sitofp .f32 (extui 32 (cmpf .one v (broadcast s (Scalar.ofBits (F := Ideal) .f32 0x00000000#32))) h32) : FVec Ideal s .f32) i
      = Cert.Spec.gate B := by
  subst h
  rfl

end Cert.KernelIdeal.KPay

end
-- ==== Proof.KPayStage1.lean ====
/-
  Stage one of the kernel at a row: the three shifted products, the bias, the rectifier, the gate and the pooling,
  read entry by entry, are the network's first stage.
-/
import proofs.«117697_j48292612276233_2_alg».proof.Proof.Gen.KernelIdeal.Skeleton
import proofs.«117697_j48292612276233_2_alg».proof.Proof.Spec
import proofs.«117697_j48292612276233_2_alg».proof.Proof.LibPlainDot
import proofs.«117697_j48292612276233_2_alg».proof.Proof.KPayLib
import Idealize.ShloMosaic.Lib.ValueLayout

noncomputable section

namespace Cert.KernelIdeal.KPay

open Cert.KernelIdeal Cert.KernelIdeal.Gen Idealize.ShloMosaic Idealize.ShloMosaic.ValueIdx

/-- One of the stage's three products: the block flattened to rows `30·p + l`, multiplied into the zero accumulator
    and laid back out by position, reads at `(p, l, o)` as the sum over the input channels. -/
theorem s1_mm (X : FVec Ideal S128x30x512 .bf16) (W : FVec Ideal S512x200 .bf16)
    (h1 : S128x30x512.ShapeCasts S3840x512) (h2 : S3840x200.ShapeCasts S128x30x200)
    (p : Fin 128) (l : Fin 30) (o : Fin 200) :
    shapeCast S128x30x200 (matmul dot_S3840x512_S512x200_S3840x200_1_0_0_1_n_n none (shapeCast S3840x512 X h1) W
        (constant (F := Ideal) S3840x200 .f32 0x00000000#32)) h2 (ix3 p l o)
      = ∑ c : Fin 512, X (ix3 p l c) * W (ix2 c o) := by
  have hr : 30 * p.val + l.val < 3840 := by have := p.isLt; have := l.isLt; omega
  refine (shapeCast_apply _ h2 (ix3 p l o) (ix2 (⟨30 * p.val + l.val, hr⟩ : Fin 3840) o) ?_).trans ?_
  · rw [Shape.rowMajor_val_two, Shape.rowMajor_val_three]
    show (30 * p.val + l.val) * 200 + o.val = (p.val * 30 + l.val) * 200 + o.val
    omega
  refine (PlainDot.matmul_zero_apply 3840 512 200 none (shapeCast S3840x512 X h1) W ⟨30 * p.val + l.val, hr⟩ o).trans ?_
  refine Finset.sum_congr rfl fun c _ => ?_
  refine congrArg (· * W (ix2 c o)) ?_
  refine shapeCast_apply X h1 _ (ix3 p l c) ?_
  rw [Shape.rowMajor_val_two, Shape.rowMajor_val_three]
  show (p.val * 30 + l.val) * 512 + c.val = (30 * p.val + l.val) * 512 + c.val
  omega

/-- The bias row, given a unit position axis and spread over rows and positions, reads at `(p, l, o)` as its entry `o`. -/
theorem s1_bias (b : FVec Ideal S1x200 .f32) (h1 : S1x200.ShapeCasts S1x1x200) (h2 : S1x1x200.Broadcasts S128x28x200)
    (p : Fin 128) (l : Fin 28) (o : Fin 200) :
    broadcastTo S128x28x200 (shapeCast S1x1x200 b h1) h2 (ix3 p l o) = b (ix2 (0 : Fin 1) o) := by
  refine (broadcastTo_apply _ h2 (ix3 p l o) (ix3 (0 : Fin 1) (0 : Fin 1) o) fun a => ?_).trans ?_
  · match a with
    | ⟨0, _⟩ => rfl
    | ⟨1, _⟩ => rfl
    | ⟨2, _⟩ => rfl
  refine shapeCast_apply b h1 _ (ix2 (0 : Fin 1) o) ?_
  rw [Shape.rowMajor_val_two, Shape.rowMajor_val_three]
  rfl

/-- The rectified pre-activation the kernel computes, at `(p, l, o)`: the network's, on row `p` of the stage's input. -/
theorem s1_act (x0 : Vec Ideal S128x30x512 .bf16) (x2 x3 x4 : Vec Ideal S512x200 .bf16) (x5 : Vec Ideal S1x200 .f32)
    (p : Fin 128) (l : Fin 28) (o : Fin 200) :
    k0_pay3 x0 x2 x3 x4 x5 (ix3 p l o)
      = Cert.Spec.leaky (Cert.Spec.pre 30 28 512 200 rfl (fun l c => x0 (ix3 p l c)) (fun c o => x2 (ix2 c o))
          (fun c o => x3 (ix2 c o)) (fun c o => x4 (ix2 c o)) (fun o => x5 (ix2 (0 : Fin 1) o)) l o) := by
  unfold k0_pay3
  have hX : ∀ (l : Fin 30) (c : Fin 512), k0_pay2 x0 (ix3 p l c) = x0 (ix3 p l c) :=
    fun l c => congrFun (shapeCast_self x0 _) _
  generalize k0_pay2 x0 = X at hX ⊢
  simp only [shapeCast_self]
  refine leaky_vec _ _ _ ?_
  unfold Cert.Spec.pre
  refine (addf_apply _ _ _).trans (congrArg₂ (· + ·) ?_ ?_)
  refine (addf_apply _ _ _).trans (congrArg₂ (· + ·) ?_ ?_)
  refine (addf_apply _ _ _).trans (congrArg₂ (· + ·) ?_ ?_)
  · refine (slice3_axis1_apply 0 _ _ p l o ⟨l.val, by omega⟩ (by simp)).trans ?_
    refine (s1_mm X x2 _ _ p _ o).trans ?_
    exact Finset.sum_congr rfl fun c _ => by rw [hX]
  · refine (slice3_axis1_apply 1 _ _ p l o ⟨l.val + 1, by omega⟩ (by simp; omega)).trans ?_
    refine (s1_mm X x3 _ _ p _ o).trans ?_
    exact Finset.sum_congr rfl fun c _ => by rw [hX]
  · refine (slice3_axis1_apply 2 _ _ p l o ⟨l.val + 2, by omega⟩ (by simp; omega)).trans ?_
    refine (s1_mm X x4 _ _ p _ o).trans ?_
    exact Finset.sum_congr rfl fun c _ => by rw [hX]
  · exact s1_bias x5 _ _ p l o

/-- The sum over the channels of the stage's input, at `(p, l)`. -/
theorem s1_chsum (X : FVec Ideal S128x30x512 .f32) (h : S128x30x512.Reduces [2] S128x30) (hφ : FKind.Formats .f32)
    (hacc : (0x00000000#32 : BitVec 32) = FKind.add.neutral .f32 hφ) (p : Fin 128) (l : Fin 30) :
    multiReduction .add [2] S128x30 X 0x00000000#32 h hφ hacc (ix2 p l) = ∑ c : Fin 512, X (ix3 p l c) := by
  refine (Ideal.multiReduction_add_single X 0x00000000#32 h hφ hacc (ix2 p l)).trans ?_
  refine Finset.sum_congr rfl fun c _ => congrArg X (funext fun a => Fin.ext ?_)
  match a with
  | ⟨0, _⟩ => rfl
  | ⟨1, _⟩ => rfl
  | ⟨2, _⟩ => rfl

/-- The gate the kernel computes, at `(p, l)`: the network's gate of the window's sum, on row `p` of the stage's input. -/
theorem s1_gate (x0 : Vec Ideal S128x30x512 .bf16) (p : Fin 128) (l : Fin 28) :
    k0_pay4 x0 (ix2 p l) = Cert.Spec.gate (Cert.Spec.wsum 30 28 512 rfl (fun l c => x0 (ix3 p l c)) l) := by
  unfold k0_pay4
  have hX : ∀ (l : Fin 30) (c : Fin 512), k0_pay2 x0 (ix3 p l c) = x0 (ix3 p l c) :=
    fun l c => congrFun (shapeCast_self x0 _) _
  generalize k0_pay2 x0 = X at hX ⊢
  refine gate_vec _ _ _ _ ?_
  unfold Cert.Spec.wsum
  refine (addf_apply _ _ _).trans (congrArg₂ (· + ·) ?_ ?_)
  refine (addf_apply _ _ _).trans (congrArg₂ (· + ·) ?_ ?_)
  · refine (slice2_axis1_apply 0 _ _ p l ⟨l.val, by omega⟩ (by simp)).trans ?_
    refine (s1_chsum _ _ _ _ p _).trans ?_
    exact Finset.sum_congr rfl fun c _ => hX _ c
  · refine (slice2_axis1_apply 1 _ _ p l ⟨l.val + 1, by omega⟩ (by simp; omega)).trans ?_
    refine (s1_chsum _ _ _ _ p _).trans ?_
    exact Finset.sum_congr rfl fun c _ => hX _ c
  · refine (slice2_axis1_apply 2 _ _ p l ⟨l.val + 2, by omega⟩ (by simp; omega)).trans ?_
    refine (s1_chsum _ _ _ _ p _).trans ?_
    exact Finset.sum_congr rfl fun c _ => hX _ c

/-- The gate, given a unit channel axis and spread over the channels, reads at `(p, l, o)` as its entry `(p, l)`. -/
theorem s1_gspread (g : FVec Ideal S128x28 .f32) (h1 : S128x28.ShapeCasts S128x28x1) (h2 : S128x28x1.Broadcasts S128x28x200)
    (p : Fin 128) (l : Fin 28) (o : Fin 200) :
    broadcastTo S128x28x200 (shapeCast S128x28x1 g h1) h2 (ix3 p l o) = g (ix2 p l) := by
  refine (broadcastTo_apply _ h2 (ix3 p l o) (ix3 p l (0 : Fin 1)) fun a => ?_).trans ?_
  · match a with
    | ⟨0, _⟩ => rfl
    | ⟨1, _⟩ => rfl
    | ⟨2, _⟩ => rfl
  refine shapeCast_apply g h1 _ (ix2 p l) ?_
  rw [Shape.rowMajor_val_two, Shape.rowMajor_val_three]
  show p.val * 28 + l.val = (p.val * 28 + l.val) * 1 + 0
  omega

/-- The maximum over the pair axis, at `(p, q, o)`: the maximum from −∞ of the two entries `(p, q, r, o)`. -/
theorem s1_max (src : FVec Ideal S128x14x2x200 .f32) (h : S128x14x2x200.Reduces [2] S128x14x200) (hφ : FKind.Formats .f32)
    (hacc : (0xFF800000#32 : BitVec 32) = FKind.maximumf.neutral .f32 hφ) (p : Fin 128) (q : Fin 14) (o : Fin 200) :
    multiReduction .maximumf [2] S128x14x200 src 0xFF800000#32 h hφ hacc (ix3 p q o)
      = Cert.Spec.pool fun r => src (ix4 p q r o) := by
  refine (Ideal.multiReduction_maximumf_single src 0xFF800000#32 h hφ hacc (ix3 p q o)).trans ?_
  unfold Cert.Spec.pool
  refine congrArg (fun f => (Finset.univ : Finset (Fin 2)).fold max Cert.Spec.negInfW f) (funext fun r => ?_)
  refine congrArg src (funext fun a => Fin.ext ?_)
  match a with
  | ⟨0, _⟩ => rfl
  | ⟨1, _⟩ => rfl
  | ⟨2, _⟩ => rfl
  | ⟨3, _⟩ => rfl

/-- The pooled value the kernel computes from an activation `A` and a gate `g`, at `(p, q, o)`: the maximum from −∞ of
    the gated activations of windows `2q` and `2q + 1`. -/
theorem s1_pool (A : FVec Ideal S128x28x200 .f32) (g : FVec Ideal S128x28 .f32) (p : Fin 128) (q : Fin 14) (o : Fin 200) :
    k0_pay5 A g (ix3 p q o)
      = Cert.Spec.pool fun r => A (ix3 p (⟨2 * q.val + r.val, by have := q.isLt; have := r.isLt; omega⟩ : Fin 28) o)
          * g (ix2 p (⟨2 * q.val + r.val, by have := q.isLt; have := r.isLt; omega⟩ : Fin 28)) := by
  unfold k0_pay5
  refine (s1_max _ _ _ _ p q o).trans ?_
  refine congrArg Cert.Spec.pool (funext fun r => ?_)
  have hl : 2 * q.val + r.val < 28 := by have := q.isLt; have := r.isLt; omega
  refine (shapeCast_apply _ _ _ (ix3 p (⟨2 * q.val + r.val, hl⟩ : Fin 28) o) ?_).trans ?_
  · rw [Shape.rowMajor_val_three, Shape.rowMajor_val_four]
    show (p.val * 28 + (2 * q.val + r.val)) * 200 + o.val = ((p.val * 14 + q.val) * 2 + r.val) * 200 + o.val
    omega
  exact congrArg (A _ * ·) (s1_gspread g _ _ p _ o)

/-- Stage one: the kernel's pooled value at `(p, q, o)` is the network's stage on row `p` of the stage's input. -/
theorem stage1 (x0 : Vec Ideal S128x30x512 .bf16) (x2 x3 x4 : Vec Ideal S512x200 .bf16) (x5 : Vec Ideal S1x200 .f32)
    (p : Fin 128) (q : Fin 14) (o : Fin 200) :
    k0_pay5 (k0_pay3 x0 x2 x3 x4 x5) (k0_pay4 x0) (ix3 p q o)
      = Cert.Spec.stage 30 28 14 512 200 rfl rfl (fun l c => x0 (ix3 p l c)) (fun c o => x2 (ix2 c o))
          (fun c o => x3 (ix2 c o)) (fun c o => x4 (ix2 c o)) (fun o => x5 (ix2 (0 : Fin 1) o)) q o := by
  refine (s1_pool _ _ p q o).trans ?_
  unfold Cert.Spec.stage Cert.Spec.act
  refine congrArg Cert.Spec.pool (funext fun r => ?_)
  exact congrArg₂ (· * ·) (s1_act x0 x2 x3 x4 x5 p _ o) (s1_gate x0 p _)

end Cert.KernelIdeal.KPay

end
-- ==== Proof.KPayStage2.lean ====
/-
  Stage two of the kernel at a row: the three shifted products, the bias, the rectifier, the gate and the pooling,
  read entry by entry, are the network's second stage on the stage before's pooled value.
-/
import proofs.«117697_j48292612276233_2_alg».proof.Proof.Gen.KernelIdeal.Skeleton
import proofs.«117697_j48292612276233_2_alg».proof.Proof.Spec
import proofs.«117697_j48292612276233_2_alg».proof.Proof.LibPlainDot
import proofs.«117697_j48292612276233_2_alg».proof.Proof.KPayLib
import Idealize.ShloMosaic.Lib.ValueLayout

noncomputable section

namespace Cert.KernelIdeal.KPay

open Cert.KernelIdeal Cert.KernelIdeal.Gen Idealize.ShloMosaic Idealize.ShloMosaic.ValueIdx

/-- One of the stage's three products: the block flattened to rows `14·p + l`, multiplied into the zero accumulator
    and laid back out by position, reads at `(p, l, o)` as the sum over the input channels. -/
theorem s2_mm (X : FVec Ideal S128x14x200 .bf16) (W : FVec Ideal S200x300 .bf16)
    (h1 : S128x14x200.ShapeCasts S1792x200) (h2 : S1792x300.ShapeCasts S128x14x300)
    (p : Fin 128) (l : Fin 14) (o : Fin 300) :
    shapeCast S128x14x300 (matmul dot_S1792x200_S200x300_S1792x300_1_0_0_1_n_n none (shapeCast S1792x200 X h1) W
        (constant (F := Ideal) S1792x300 .f32 0x00000000#32)) h2 (ix3 p l o)
      = ∑ c : Fin 200, X (ix3 p l c) * W (ix2 c o) := by
  have hr : 14 * p.val + l.val < 1792 := by have := p.isLt; have := l.isLt; omega
  refine (shapeCast_apply _ h2 (ix3 p l o) (ix2 (⟨14 * p.val + l.val, hr⟩ : Fin 1792) o) ?_).trans ?_
  · rw [Shape.rowMajor_val_two, Shape.rowMajor_val_three]
    show (14 * p.val + l.val) * 300 + o.val = (p.val * 14 + l.val) * 300 + o.val
    omega
  refine (PlainDot.matmul_zero_apply 1792 200 300 none (shapeCast S1792x200 X h1) W ⟨14 * p.val + l.val, hr⟩ o).trans ?_
  refine Finset.sum_congr rfl fun c _ => ?_
  refine congrArg (· * W (ix2 c o)) ?_
  refine shapeCast_apply X h1 _ (ix3 p l c) ?_
  rw [Shape.rowMajor_val_two, Shape.rowMajor_val_three]
  show (p.val * 14 + l.val) * 200 + c.val = (14 * p.val + l.val) * 200 + c.val
  omega

/-- The bias row, given a unit position axis and spread over rows and positions, reads at `(p, l, o)` as its entry `o`. -/
theorem s2_bias (b : FVec Ideal S1x300 .f32) (h1 : S1x300.ShapeCasts S1x1x300) (h2 : S1x1x300.Broadcasts S128x12x300)
    (p : Fin 128) (l : Fin 12) (o : Fin 300) :
    broadcastTo S128x12x300 (shapeCast S1x1x300 b h1) h2 (ix3 p l o) = b (ix2 (0 : Fin 1) o) := by
  refine (broadcastTo_apply _ h2 (ix3 p l o) (ix3 (0 : Fin 1) (0 : Fin 1) o) fun a => ?_).trans ?_
  · match a with
    | ⟨0, _⟩ => rfl
    | ⟨1, _⟩ => rfl
    | ⟨2, _⟩ => rfl
  refine shapeCast_apply b h1 _ (ix2 (0 : Fin 1) o) ?_
  rw [Shape.rowMajor_val_two, Shape.rowMajor_val_three]
  rfl

/-- The rectified pre-activation the kernel computes, at `(p, l, o)`: the network's, on row `p` of the stage's input. -/
theorem s2_act (v29 : FVec Ideal S128x28x200 .f32) (v40 : FVec Ideal S128x28 .f32) (x6 x7 x8 : Vec Ideal S200x300 .bf16) (x9 : Vec Ideal S1x300 .f32)
    (p : Fin 128) (l : Fin 12) (o : Fin 300) :
    k0_pay6 v29 v40 x6 x7 x8 x9 (ix3 p l o)
      = Cert.Spec.leaky (Cert.Spec.pre 14 12 200 300 rfl (fun l c => k0_pay5 v29 v40 (ix3 p l c)) (fun c o => x6 (ix2 c o))
          (fun c o => x7 (ix2 c o)) (fun c o => x8 (ix2 c o)) (fun o => x9 (ix2 (0 : Fin 1) o)) l o) := by
  unfold k0_pay6
  generalize k0_pay5 v29 v40 = Y
  have hX : ∀ (l : Fin 14) (c : Fin 200), (truncf .bf16 Y bitsLt_bf16_f32 : FVec Ideal S128x14x200 .bf16) (ix3 p l c) = Y (ix3 p l c) :=
    fun _ _ => rfl
  generalize (truncf .bf16 Y bitsLt_bf16_f32 : FVec Ideal S128x14x200 .bf16) = X at hX ⊢
  simp only [shapeCast_self]
  refine leaky_vec _ _ _ ?_
  unfold Cert.Spec.pre
  refine (addf_apply _ _ _).trans (congrArg₂ (· + ·) ?_ ?_)
  refine (addf_apply _ _ _).trans (congrArg₂ (· + ·) ?_ ?_)
  refine (addf_apply _ _ _).trans (congrArg₂ (· + ·) ?_ ?_)
  · refine (slice3_axis1_apply 0 _ _ p l o ⟨l.val, by omega⟩ (by simp)).trans ?_
    refine (s2_mm X x6 _ _ p _ o).trans ?_
    exact Finset.sum_congr rfl fun c _ => by rw [hX]
  · refine (slice3_axis1_apply 1 _ _ p l o ⟨l.val + 1, by omega⟩ (by simp; omega)).trans ?_
    refine (s2_mm X x7 _ _ p _ o).trans ?_
    exact Finset.sum_congr rfl fun c _ => by rw [hX]
  · refine (slice3_axis1_apply 2 _ _ p l o ⟨l.val + 2, by omega⟩ (by simp; omega)).trans ?_
    refine (s2_mm X x8 _ _ p _ o).trans ?_
    exact Finset.sum_congr rfl fun c _ => by rw [hX]
  · exact s2_bias x9 _ _ p l o

/-- The sum over the channels of the stage's input, at `(p, l)`. -/
theorem s2_chsum (X : FVec Ideal S128x14x200 .f32) (h : S128x14x200.Reduces [2] S128x14) (hφ : FKind.Formats .f32)
    (hacc : (0x00000000#32 : BitVec 32) = FKind.add.neutral .f32 hφ) (p : Fin 128) (l : Fin 14) :
    multiReduction .add [2] S128x14 X 0x00000000#32 h hφ hacc (ix2 p l) = ∑ c : Fin 200, X (ix3 p l c) := by
  refine (Ideal.multiReduction_add_single X 0x00000000#32 h hφ hacc (ix2 p l)).trans ?_
  refine Finset.sum_congr rfl fun c _ => congrArg X (funext fun a => Fin.ext ?_)
  match a with
  | ⟨0, _⟩ => rfl
  | ⟨1, _⟩ => rfl
  | ⟨2, _⟩ => rfl

/-- The gate the kernel computes, at `(p, l)`: the network's gate of the window's sum, on row `p` of the stage's input. -/
theorem s2_gate (v29 : FVec Ideal S128x28x200 .f32) (v40 : FVec Ideal S128x28 .f32) (p : Fin 128) (l : Fin 12) :
    k0_pay7 v29 v40 (ix2 p l) = Cert.Spec.gate (Cert.Spec.wsum 14 12 200 rfl (fun l c => k0_pay5 v29 v40 (ix3 p l c)) l) := by
  unfold k0_pay7
  generalize k0_pay5 v29 v40 = Y
  refine gate_vec _ _ _ _ ?_
  unfold Cert.Spec.wsum
  refine (addf_apply _ _ _).trans (congrArg₂ (· + ·) ?_ ?_)
  refine (addf_apply _ _ _).trans (congrArg₂ (· + ·) ?_ ?_)
  · refine (slice2_axis1_apply 0 _ _ p l ⟨l.val, by omega⟩ (by simp)).trans ?_
    refine (s2_chsum _ _ _ _ p _).trans ?_
    exact Finset.sum_congr rfl fun c _ => rfl
  · refine (slice2_axis1_apply 1 _ _ p l ⟨l.val + 1, by omega⟩ (by simp; omega)).trans ?_
    refine (s2_chsum _ _ _ _ p _).trans ?_
    exact Finset.sum_congr rfl fun c _ => rfl
  · refine (slice2_axis1_apply 2 _ _ p l ⟨l.val + 2, by omega⟩ (by simp; omega)).trans ?_
    refine (s2_chsum _ _ _ _ p _).trans ?_
    exact Finset.sum_congr rfl fun c _ => rfl

/-- The gate, given a unit channel axis and spread over the channels, reads at `(p, l, o)` as its entry `(p, l)`. -/
theorem s2_gspread (g : FVec Ideal S128x12 .f32) (h1 : S128x12.ShapeCasts S128x12x1) (h2 : S128x12x1.Broadcasts S128x12x300)
    (p : Fin 128) (l : Fin 12) (o : Fin 300) :
    broadcastTo S128x12x300 (shapeCast S128x12x1 g h1) h2 (ix3 p l o) = g (ix2 p l) := by
  refine (broadcastTo_apply _ h2 (ix3 p l o) (ix3 p l (0 : Fin 1)) fun a => ?_).trans ?_
  · match a with
    | ⟨0, _⟩ => rfl
    | ⟨1, _⟩ => rfl
    | ⟨2, _⟩ => rfl
  refine shapeCast_apply g h1 _ (ix2 p l) ?_
  rw [Shape.rowMajor_val_two, Shape.rowMajor_val_three]
  show p.val * 12 + l.val = (p.val * 12 + l.val) * 1 + 0
  omega

/-- The maximum over the pair axis, at `(p, q, o)`: the maximum from −∞ of the two entries `(p, q, r, o)`. -/
theorem s2_max (src : FVec Ideal S128x6x2x300 .f32) (h : S128x6x2x300.Reduces [2] S128x6x300) (hφ : FKind.Formats .f32)
    (hacc : (0xFF800000#32 : BitVec 32) = FKind.maximumf.neutral .f32 hφ) (p : Fin 128) (q : Fin 6) (o : Fin 300) :
    multiReduction .maximumf [2] S128x6x300 src 0xFF800000#32 h hφ hacc (ix3 p q o)
      = Cert.Spec.pool fun r => src (ix4 p q r o) := by
  refine (Ideal.multiReduction_maximumf_single src 0xFF800000#32 h hφ hacc (ix3 p q o)).trans ?_
  unfold Cert.Spec.pool
  refine congrArg (fun f => (Finset.univ : Finset (Fin 2)).fold max Cert.Spec.negInfW f) (funext fun r => ?_)
  refine congrArg src (funext fun a => Fin.ext ?_)
  match a with
  | ⟨0, _⟩ => rfl
  | ⟨1, _⟩ => rfl
  | ⟨2, _⟩ => rfl
  | ⟨3, _⟩ => rfl

/-- The pooled value the kernel computes from an activation `A` and a gate `g`, at `(p, q, o)`: the maximum from −∞ of
    the gated activations of windows `2q` and `2q + 1`. -/
theorem s2_pool (A : FVec Ideal S128x12x300 .f32) (g : FVec Ideal S128x12 .f32) (p : Fin 128) (q : Fin 6) (o : Fin 300) :
    k0_pay8 A g (ix3 p q o)
      = Cert.Spec.pool fun r => A (ix3 p (⟨2 * q.val + r.val, by have := q.isLt; have := r.isLt; omega⟩ : Fin 12) o)
          * g (ix2 p (⟨2 * q.val + r.val, by have := q.isLt; have := r.isLt; omega⟩ : Fin 12)) := by
  unfold k0_pay8
  refine (s2_max _ _ _ _ p q o).trans ?_
  refine congrArg Cert.Spec.pool (funext fun r => ?_)
  have hl : 2 * q.val + r.val < 12 := by have := q.isLt; have := r.isLt; omega
  refine (shapeCast_apply _ _ _ (ix3 p (⟨2 * q.val + r.val, hl⟩ : Fin 12) o) ?_).trans ?_
  · rw [Shape.rowMajor_val_three, Shape.rowMajor_val_four]
    show (p.val * 12 + (2 * q.val + r.val)) * 300 + o.val = ((p.val * 6 + q.val) * 2 + r.val) * 300 + o.val
    omega
  exact congrArg (A _ * ·) (s2_gspread g _ _ p _ o)

/-- Stage two: the kernel's pooled value at `(p, q, o)` is the network's stage on row `p` of the stage's input. -/
theorem stage2 (v29 : FVec Ideal S128x28x200 .f32) (v40 : FVec Ideal S128x28 .f32) (x6 x7 x8 : Vec Ideal S200x300 .bf16) (x9 : Vec Ideal S1x300 .f32)
    (p : Fin 128) (q : Fin 6) (o : Fin 300) :
    k0_pay8 (k0_pay6 v29 v40 x6 x7 x8 x9) (k0_pay7 v29 v40) (ix3 p q o)
      = Cert.Spec.stage 14 12 6 200 300 rfl rfl (fun l c => k0_pay5 v29 v40 (ix3 p l c)) (fun c o => x6 (ix2 c o))
          (fun c o => x7 (ix2 c o)) (fun c o => x8 (ix2 c o)) (fun o => x9 (ix2 (0 : Fin 1) o)) q o := by
  refine (s2_pool _ _ p q o).trans ?_
  unfold Cert.Spec.stage Cert.Spec.act
  refine congrArg Cert.Spec.pool (funext fun r => ?_)
  exact congrArg₂ (· * ·) (s2_act v29 v40 x6 x7 x8 x9 p _ o) (s2_gate v29 v40 p _)

end Cert.KernelIdeal.KPay

end
-- ==== Proof.KPayStage3.lean ====
/-
  Stage three of the kernel at a row: the three shifted products, the bias, the rectifier, the gate and the pooling,
  read entry by entry, are the network's third stage on the stage before's pooled value.
-/
import proofs.«117697_j48292612276233_2_alg».proof.Proof.Gen.KernelIdeal.Skeleton
import proofs.«117697_j48292612276233_2_alg».proof.Proof.Spec
import proofs.«117697_j48292612276233_2_alg».proof.Proof.LibPlainDot
import proofs.«117697_j48292612276233_2_alg».proof.Proof.KPayLib
import Idealize.ShloMosaic.Lib.ValueLayout

noncomputable section

namespace Cert.KernelIdeal.KPay

open Cert.KernelIdeal Cert.KernelIdeal.Gen Idealize.ShloMosaic Idealize.ShloMosaic.ValueIdx

/-- One of the stage's three products: the block flattened to rows `6·p + l`, multiplied into the zero accumulator
    and laid back out by position, reads at `(p, l, o)` as the sum over the input channels. -/
theorem s3_mm (X : FVec Ideal S128x6x300 .bf16) (W : FVec Ideal S300x300 .bf16)
    (h1 : S128x6x300.ShapeCasts S768x300) (h2 : S768x300.ShapeCasts S128x6x300)
    (p : Fin 128) (l : Fin 6) (o : Fin 300) :
    shapeCast S128x6x300 (matmul dot_S768x300_S300x300_S768x300_1_0_0_1_n_n none (shapeCast S768x300 X h1) W
        (constant (F := Ideal) S768x300 .f32 0x00000000#32)) h2 (ix3 p l o)
      = ∑ c : Fin 300, X (ix3 p l c) * W (ix2 c o) := by
  have hr : 6 * p.val + l.val < 768 := by have := p.isLt; have := l.isLt; omega
  refine (shapeCast_apply _ h2 (ix3 p l o) (ix2 (⟨6 * p.val + l.val, hr⟩ : Fin 768) o) ?_).trans ?_
  · rw [Shape.rowMajor_val_two, Shape.rowMajor_val_three]
    show (6 * p.val + l.val) * 300 + o.val = (p.val * 6 + l.val) * 300 + o.val
    omega
  refine (PlainDot.matmul_zero_apply 768 300 300 none (shapeCast S768x300 X h1) W ⟨6 * p.val + l.val, hr⟩ o).trans ?_
  refine Finset.sum_congr rfl fun c _ => ?_
  refine congrArg (· * W (ix2 c o)) ?_
  refine shapeCast_apply X h1 _ (ix3 p l c) ?_
  rw [Shape.rowMajor_val_two, Shape.rowMajor_val_three]
  show (p.val * 6 + l.val) * 300 + c.val = (6 * p.val + l.val) * 300 + c.val
  omega

/-- The bias row, given a unit position axis and spread over rows and positions, reads at `(p, l, o)` as its entry `o`. -/
theorem s3_bias (b : FVec Ideal S1x300 .f32) (h1 : S1x300.ShapeCasts S1x1x300) (h2 : S1x1x300.Broadcasts S128x4x300)
    (p : Fin 128) (l : Fin 4) (o : Fin 300) :
    broadcastTo S128x4x300 (shapeCast S1x1x300 b h1) h2 (ix3 p l o) = b (ix2 (0 : Fin 1) o) := by
  refine (broadcastTo_apply _ h2 (ix3 p l o) (ix3 (0 : Fin 1) (0 : Fin 1) o) fun a => ?_).trans ?_
  · match a with
    | ⟨0, _⟩ => rfl
    | ⟨1, _⟩ => rfl
    | ⟨2, _⟩ => rfl
  refine shapeCast_apply b h1 _ (ix2 (0 : Fin 1) o) ?_
  rw [Shape.rowMajor_val_two, Shape.rowMajor_val_three]
  rfl

/-- The rectified pre-activation the kernel computes, at `(p, l, o)`: the network's, on row `p` of the stage's input. -/
theorem s3_act (v74 : FVec Ideal S128x12x300 .f32) (v84 : FVec Ideal S128x12 .f32) (x10 x11 x12 : Vec Ideal S300x300 .bf16) (x13 : Vec Ideal S1x300 .f32)
    (p : Fin 128) (l : Fin 4) (o : Fin 300) :
    k0_pay9 v74 v84 x10 x11 x12 x13 (ix3 p l o)
      = Cert.Spec.leaky (Cert.Spec.pre 6 4 300 300 rfl (fun l c => k0_pay8 v74 v84 (ix3 p l c)) (fun c o => x10 (ix2 c o))
          (fun c o => x11 (ix2 c o)) (fun c o => x12 (ix2 c o)) (fun o => x13 (ix2 (0 : Fin 1) o)) l o) := by
  unfold k0_pay9
  generalize k0_pay8 v74 v84 = Y
  have hX : ∀ (l : Fin 6) (c : Fin 300), (truncf .bf16 Y bitsLt_bf16_f32 : FVec Ideal S128x6x300 .bf16) (ix3 p l c) = Y (ix3 p l c) :=
    fun _ _ => rfl
  generalize (truncf .bf16 Y bitsLt_bf16_f32 : FVec Ideal S128x6x300 .bf16) = X at hX ⊢
  simp only [shapeCast_self]
  refine leaky_vec _ _ _ ?_
  unfold Cert.Spec.pre
  refine (addf_apply _ _ _).trans (congrArg₂ (· + ·) ?_ ?_)
  refine (addf_apply _ _ _).trans (congrArg₂ (· + ·) ?_ ?_)
  refine (addf_apply _ _ _).trans (congrArg₂ (· + ·) ?_ ?_)
  · refine (slice3_axis1_apply 0 _ _ p l o ⟨l.val, by omega⟩ (by simp)).trans ?_
    refine (s3_mm X x10 _ _ p _ o).trans ?_
    exact Finset.sum_congr rfl fun c _ => by rw [hX]
  · refine (slice3_axis1_apply 1 _ _ p l o ⟨l.val + 1, by omega⟩ (by simp; omega)).trans ?_
    refine (s3_mm X x11 _ _ p _ o).trans ?_
    exact Finset.sum_congr rfl fun c _ => by rw [hX]
  · refine (slice3_axis1_apply 2 _ _ p l o ⟨l.val + 2, by omega⟩ (by simp; omega)).trans ?_
    refine (s3_mm X x12 _ _ p _ o).trans ?_
    exact Finset.sum_congr rfl fun c _ => by rw [hX]
  · exact s3_bias x13 _ _ p l o

/-- The sum over the channels of the stage's input, at `(p, l)`. -/
theorem s3_chsum (X : FVec Ideal S128x6x300 .f32) (h : S128x6x300.Reduces [2] S128x6) (hφ : FKind.Formats .f32)
    (hacc : (0x00000000#32 : BitVec 32) = FKind.add.neutral .f32 hφ) (p : Fin 128) (l : Fin 6) :
    multiReduction .add [2] S128x6 X 0x00000000#32 h hφ hacc (ix2 p l) = ∑ c : Fin 300, X (ix3 p l c) := by
  refine (Ideal.multiReduction_add_single X 0x00000000#32 h hφ hacc (ix2 p l)).trans ?_
  refine Finset.sum_congr rfl fun c _ => congrArg X (funext fun a => Fin.ext ?_)
  match a with
  | ⟨0, _⟩ => rfl
  | ⟨1, _⟩ => rfl
  | ⟨2, _⟩ => rfl

/-- The gate the kernel computes, at `(p, l)`: the network's gate of the window's sum, on row `p` of the stage's input. -/
theorem s3_gate (v74 : FVec Ideal S128x12x300 .f32) (v84 : FVec Ideal S128x12 .f32) (p : Fin 128) (l : Fin 4) :
    k0_pay10 v74 v84 (ix2 p l) = Cert.Spec.gate (Cert.Spec.wsum 6 4 300 rfl (fun l c => k0_pay8 v74 v84 (ix3 p l c)) l) := by
  unfold k0_pay10
  generalize k0_pay8 v74 v84 = Y
  refine gate_vec _ _ _ _ ?_
  unfold Cert.Spec.wsum
  refine (addf_apply _ _ _).trans (congrArg₂ (· + ·) ?_ ?_)
  refine (addf_apply _ _ _).trans (congrArg₂ (· + ·) ?_ ?_)
  · refine (slice2_axis1_apply 0 _ _ p l ⟨l.val, by omega⟩ (by simp)).trans ?_
    refine (s3_chsum _ _ _ _ p _).trans ?_
    exact Finset.sum_congr rfl fun c _ => rfl
  · refine (slice2_axis1_apply 1 _ _ p l ⟨l.val + 1, by omega⟩ (by simp; omega)).trans ?_
    refine (s3_chsum _ _ _ _ p _).trans ?_
    exact Finset.sum_congr rfl fun c _ => rfl
  · refine (slice2_axis1_apply 2 _ _ p l ⟨l.val + 2, by omega⟩ (by simp; omega)).trans ?_
    refine (s3_chsum _ _ _ _ p _).trans ?_
    exact Finset.sum_congr rfl fun c _ => rfl

/-- The gate, given a unit channel axis and spread over the channels, reads at `(p, l, o)` as its entry `(p, l)`. -/
theorem s3_gspread (g : FVec Ideal S128x4 .f32) (h1 : S128x4.ShapeCasts S128x4x1) (h2 : S128x4x1.Broadcasts S128x4x300)
    (p : Fin 128) (l : Fin 4) (o : Fin 300) :
    broadcastTo S128x4x300 (shapeCast S128x4x1 g h1) h2 (ix3 p l o) = g (ix2 p l) := by
  refine (broadcastTo_apply _ h2 (ix3 p l o) (ix3 p l (0 : Fin 1)) fun a => ?_).trans ?_
  · match a with
    | ⟨0, _⟩ => rfl
    | ⟨1, _⟩ => rfl
    | ⟨2, _⟩ => rfl
  refine shapeCast_apply g h1 _ (ix2 p l) ?_
  rw [Shape.rowMajor_val_two, Shape.rowMajor_val_three]
  show p.val * 4 + l.val = (p.val * 4 + l.val) * 1 + 0
  omega

/-- The maximum over the pair axis, at `(p, q, o)`: the maximum from −∞ of the two entries `(p, q, r, o)`. -/
theorem s3_max (src : FVec Ideal S128x2x2x300 .f32) (h : S128x2x2x300.Reduces [2] S128x2x300) (hφ : FKind.Formats .f32)
    (hacc : (0xFF800000#32 : BitVec 32) = FKind.maximumf.neutral .f32 hφ) (p : Fin 128) (q : Fin 2) (o : Fin 300) :
    multiReduction .maximumf [2] S128x2x300 src 0xFF800000#32 h hφ hacc (ix3 p q o)
      = Cert.Spec.pool fun r => src (ix4 p q r o) := by
  refine (Ideal.multiReduction_maximumf_single src 0xFF800000#32 h hφ hacc (ix3 p q o)).trans ?_
  unfold Cert.Spec.pool
  refine congrArg (fun f => (Finset.univ : Finset (Fin 2)).fold max Cert.Spec.negInfW f) (funext fun r => ?_)
  refine congrArg src (funext fun a => Fin.ext ?_)
  match a with
  | ⟨0, _⟩ => rfl
  | ⟨1, _⟩ => rfl
  | ⟨2, _⟩ => rfl
  | ⟨3, _⟩ => rfl

/-- The pooled value the kernel computes from an activation `A` and a gate `g`, at `(p, q, o)`: the maximum from −∞ of
    the gated activations of windows `2q` and `2q + 1`. -/
theorem s3_pool (A : FVec Ideal S128x4x300 .f32) (g : FVec Ideal S128x4 .f32) (p : Fin 128) (q : Fin 2) (o : Fin 300) :
    (multiReduction .maximumf [2] S128x2x300
      (shapeCast S128x2x2x300 (mulf A (broadcastTo S128x4x300 (shapeCast S128x4x1 g shapeCasts_S128x4_S128x4x1) broadcasts_S128x4x1_S128x4x300))
        shapeCasts_S128x4x300_S128x2x2x300)
      0xFF800000#32 reduces_S128x2x2x300_S128x2x300 (.inl rfl) rfl : FVec Ideal S128x2x300 .f32) (ix3 p q o)
      = Cert.Spec.pool fun r => A (ix3 p (⟨2 * q.val + r.val, by have := q.isLt; have := r.isLt; omega⟩ : Fin 4) o)
          * g (ix2 p (⟨2 * q.val + r.val, by have := q.isLt; have := r.isLt; omega⟩ : Fin 4)) := by
  refine (s3_max _ _ _ _ p q o).trans ?_
  refine congrArg Cert.Spec.pool (funext fun r => ?_)
  have hl : 2 * q.val + r.val < 4 := by have := q.isLt; have := r.isLt; omega
  refine (shapeCast_apply _ _ _ (ix3 p (⟨2 * q.val + r.val, hl⟩ : Fin 4) o) ?_).trans ?_
  · rw [Shape.rowMajor_val_three, Shape.rowMajor_val_four]
    show (p.val * 4 + (2 * q.val + r.val)) * 300 + o.val = ((p.val * 2 + q.val) * 2 + r.val) * 300 + o.val
    omega
  exact congrArg (A _ * ·) (s3_gspread g _ _ p _ o)

/-- Stage three: the kernel's pooled value at `(p, q, o)` is the network's stage on row `p` of the stage's input. -/
theorem stage3 (v74 : FVec Ideal S128x12x300 .f32) (v84 : FVec Ideal S128x12 .f32) (x10 x11 x12 : Vec Ideal S300x300 .bf16) (x13 : Vec Ideal S1x300 .f32)
    (p : Fin 128) (q : Fin 2) (o : Fin 300) :
    (multiReduction .maximumf [2] S128x2x300
      (shapeCast S128x2x2x300 (mulf (k0_pay9 v74 v84 x10 x11 x12 x13) (broadcastTo S128x4x300 (shapeCast S128x4x1 (k0_pay10 v74 v84) shapeCasts_S128x4_S128x4x1) broadcasts_S128x4x1_S128x4x300))
        shapeCasts_S128x4x300_S128x2x2x300)
      0xFF800000#32 reduces_S128x2x2x300_S128x2x300 (.inl rfl) rfl : FVec Ideal S128x2x300 .f32) (ix3 p q o)
      = Cert.Spec.stage 6 4 2 300 300 rfl rfl (fun l c => k0_pay8 v74 v84 (ix3 p l c)) (fun c o => x10 (ix2 c o))
          (fun c o => x11 (ix2 c o)) (fun c o => x12 (ix2 c o)) (fun o => x13 (ix2 (0 : Fin 1) o)) q o := by
  refine (s3_pool _ _ p q o).trans ?_
  unfold Cert.Spec.stage Cert.Spec.act
  refine congrArg Cert.Spec.pool (funext fun r => ?_)
  exact congrArg₂ (· * ·) (s3_act v74 v84 x10 x11 x12 x13 p _ o) (s3_gate v74 v84 p _)

end Cert.KernelIdeal.KPay

end
-- ==== Proof.KPayHead.lean ====
/-
  The dense head of the kernel at a row: the last stage's two pooled positions laid out as one row of 600 and the
  image row, through the dense layer, the rectifier and the last linear layer, are the network's head.
-/
import proofs.«117697_j48292612276233_2_alg».proof.Proof.Gen.KernelIdeal.Skeleton
import proofs.«117697_j48292612276233_2_alg».proof.Proof.Spec
import proofs.«117697_j48292612276233_2_alg».proof.Proof.LibPlainDot
import proofs.«117697_j48292612276233_2_alg».proof.Proof.KPayLib
import Idealize.ShloMosaic.Lib.ValueLayout

noncomputable section

namespace Cert.KernelIdeal.KPay

open Cert.KernelIdeal Cert.KernelIdeal.Gen Idealize.ShloMosaic Idealize.ShloMosaic.ValueIdx

/-- Stage three's pooled value as the kernel's last payload begins by computing it from the stage's rectified
    pre-activation `A` and gate `g`. -/
def pool3 (A : FVec Ideal S128x4x300 .f32) (g : FVec Ideal S128x4 .f32) : FVec Ideal S128x2x300 .f32 :=
  multiReduction .maximumf [2] S128x2x300
    (shapeCast S128x2x2x300 (mulf A (broadcastTo S128x4x300 (shapeCast S128x4x1 g shapeCasts_S128x4_S128x4x1) broadcasts_S128x4x1_S128x4x300))
      shapeCasts_S128x4x300_S128x2x2x300)
    0xFF800000#32 reduces_S128x2x2x300_S128x2x300 (.inl rfl) rfl

/-- The two pooled positions laid out as one row of 600, at `(p, k)`: channel `k % 300` of position `k / 300`. -/
theorem flat600 (P : FVec Ideal S128x2x300 .f32) (h : S128x2x300.ShapeCasts S128x600) (p : Fin 128) (k : Fin 600) :
    shapeCast S128x600 P h (ix2 p k)
      = P (ix3 p (⟨k.val / 300, by have := k.isLt; omega⟩ : Fin 2) (⟨k.val % 300, by omega⟩ : Fin 300)) := by
  refine shapeCast_apply P h _ _ ?_
  rw [Shape.rowMajor_val_two, Shape.rowMajor_val_three]
  show (p.val * 2 + k.val / 300) * 300 + k.val % 300 = p.val * 600 + k.val
  omega

/-- The dense head: the kernel's stored value at row `p` is the network's head on stage three's pooled row and the
    image row. -/
theorem head (v118 : FVec Ideal S128x4x300 .f32) (v128 : FVec Ideal S128x4 .f32) (x1 : Vec Ideal S128x2048 .f32)
    (x14 : Vec Ideal S600x400 .bf16) (x15 : Vec Ideal S2048x400 .bf16) (x16 : Vec Ideal S1x400 .f32)
    (x17 : Vec Ideal S400x1 .bf16) (x18 : Vec Ideal S1x1 .f32) (p : Fin 128) :
    k0_pay1 v118 v128 x1 x14 x15 x16 x17 x18 (ix2 p (0 : Fin 1))
      = Cert.Spec.head (fun q c => pool3 v118 v128 (ix3 p q c)) (fun k => x1 (ix2 p k)) (fun k o => x14 (ix2 k o))
          (fun k o => x15 (ix2 k o)) (fun o => x16 (ix2 (0 : Fin 1) o)) (fun o => x17 (ix2 o (0 : Fin 1)))
          (x18 (ix2 (0 : Fin 1) (0 : Fin 1))) := by
  unfold k0_pay1 pool3
  simp only [shapeCast_self]
  generalize (multiReduction .maximumf [2] S128x2x300
    (shapeCast S128x2x2x300 (mulf v118 (broadcastTo S128x4x300 (shapeCast S128x4x1 v128 shapeCasts_S128x4_S128x4x1) broadcasts_S128x4x1_S128x4x300))
      shapeCasts_S128x4x300_S128x2x2x300)
    0xFF800000#32 reduces_S128x2x2x300_S128x2x300 (.inl rfl) rfl : FVec Ideal S128x2x300 .f32) = P
  unfold Cert.Spec.head
  refine (addf_apply _ _ _).trans (congrArg₂ (· + ·) ?_ ?_)
  · refine (PlainDot.matmul_zero_apply (φ₁ := .bf16) (φ₂ := .bf16) 128 400 1 none _ _ p (0 : Fin 1)).trans ?_
    refine Finset.sum_congr rfl fun o _ => ?_
    refine congrArg (· * x17 (ix2 o (0 : Fin 1))) ?_
    refine (truncf_apply (φ := .f32) (ψ := .bf16) _ _ _).trans ?_
    refine leaky_vec _ _ _ ?_
    refine (addf_apply _ _ _).trans (congrArg₂ (· + ·) ?_ ?_)
    refine (addf_apply _ _ _).trans (congrArg₂ (· + ·) ?_ ?_)
    · refine (PlainDot.matmul_zero_apply (φ₁ := .bf16) (φ₂ := .bf16) 128 600 400 none _ _ p o).trans ?_
      refine Finset.sum_congr rfl fun k _ => ?_
      exact congrArg (· * x14 (ix2 k o)) ((truncf_apply (φ := .f32) (ψ := .bf16) _ _ _).trans (flat600 P _ p k))
    · refine (PlainDot.matmul_zero_apply (φ₁ := .bf16) (φ₂ := .bf16) 128 2048 400 none _ _ p o).trans ?_
      exact Finset.sum_congr rfl fun k _ => congrArg (· * x15 (ix2 k o)) (truncf_apply (φ := .f32) (ψ := .bf16) _ _ _)
    · exact broadcastTo_1b_ab_apply x16 _ p o
  · exact broadcastTo_1b_ab_apply x18 _ p (0 : Fin 1)

end Cert.KernelIdeal.KPay

end
-- ==== Proof.KPay.lean ====
/-
  The kernel's stored value at a row is the network's row function: the three stages one after the other, each the
  network's stage on the one before's pooled value, then the dense head.
-/
import proofs.«117697_j48292612276233_2_alg».proof.Proof.Gen.KernelIdeal.Skeleton
import proofs.«117697_j48292612276233_2_alg».proof.Proof.Spec
import proofs.«117697_j48292612276233_2_alg».proof.Proof.KParams
import proofs.«117697_j48292612276233_2_alg».proof.Proof.KPayStage1
import proofs.«117697_j48292612276233_2_alg».proof.Proof.KPayStage2
import proofs.«117697_j48292612276233_2_alg».proof.Proof.KPayStage3
import proofs.«117697_j48292612276233_2_alg».proof.Proof.KPayHead

noncomputable section

namespace Cert.KernelIdeal.KPay

open Cert.KernelIdeal Cert.KernelIdeal.Gen Idealize.ShloMosaic Idealize.ShloMosaic.ValueIdx

/-- The payload of the kernel's one store, at row `p` of the block: the network's output for that row's sentence and
    image vector, with the weights the body loaded. -/
theorem pay_row (x0 : Vec Ideal S128x30x512 .bf16) (x1 : Vec Ideal S128x2048 .f32) (x2 x3 x4 : Vec Ideal S512x200 .bf16)
    (x5 : Vec Ideal S1x200 .f32) (x6 x7 x8 : Vec Ideal S200x300 .bf16) (x9 : Vec Ideal S1x300 .f32)
    (x10 x11 x12 : Vec Ideal S300x300 .bf16) (x13 : Vec Ideal S1x300 .f32) (x14 : Vec Ideal S600x400 .bf16)
    (x15 : Vec Ideal S2048x400 .bf16) (x16 : Vec Ideal S1x400 .f32) (x17 : Vec Ideal S400x1 .bf16)
    (x18 : Vec Ideal S1x1 .f32) (p : Fin 128) :
    k0_pay1 (k0_pay9 (k0_pay6 (k0_pay3 x0 x2 x3 x4 x5) (k0_pay4 x0) x6 x7 x8 x9) (k0_pay7 (k0_pay3 x0 x2 x3 x4 x5) (k0_pay4 x0)) x10 x11 x12 x13)
        (k0_pay10 (k0_pay6 (k0_pay3 x0 x2 x3 x4 x5) (k0_pay4 x0) x6 x7 x8 x9) (k0_pay7 (k0_pay3 x0 x2 x3 x4 x5) (k0_pay4 x0)))
        x1 x14 x15 x16 x17 x18 (ix2 p (0 : Fin 1))
      = Cert.Spec.row (params x2 x3 x4 x5 x6 x7 x8 x9 x10 x11 x12 x13 x14 x15 x16 x17 x18) (fun l c => x0 (ix3 p l c))
          (fun k => x1 (ix2 p k)) := by
  generalize hA1 : k0_pay3 x0 x2 x3 x4 x5 = A1
  generalize hG1 : k0_pay4 x0 = G1
  generalize hA2 : k0_pay6 A1 G1 x6 x7 x8 x9 = A2
  generalize hG2 : k0_pay7 A1 G1 = G2
  generalize hA3 : k0_pay9 A2 G2 x10 x11 x12 x13 = A3
  generalize hG3 : k0_pay10 A2 G2 = G3
  refine (head A3 G3 x1 x14 x15 x16 x17 x18 p).trans ?_
  have h3 : (fun q c => pool3 A3 G3 (ix3 p q c))
      = Cert.Spec.stage 6 4 2 300 300 rfl rfl (fun l c => k0_pay8 A2 G2 (ix3 p l c)) (fun c o => x10 (ix2 c o))
          (fun c o => x11 (ix2 c o)) (fun c o => x12 (ix2 c o)) (fun o => x13 (ix2 (0 : Fin 1) o)) := by
    subst hA3 hG3
    exact funext fun q => funext fun c => stage3 A2 G2 x10 x11 x12 x13 p q c
  have h2 : (fun l c => k0_pay8 A2 G2 (ix3 p l c))
      = Cert.Spec.stage 14 12 6 200 300 rfl rfl (fun l c => k0_pay5 A1 G1 (ix3 p l c)) (fun c o => x6 (ix2 c o))
          (fun c o => x7 (ix2 c o)) (fun c o => x8 (ix2 c o)) (fun o => x9 (ix2 (0 : Fin 1) o)) := by
    subst hA2 hG2
    exact funext fun q => funext fun c => stage2 A1 G1 x6 x7 x8 x9 p q c
  have h1 : (fun l c => k0_pay5 A1 G1 (ix3 p l c))
      = Cert.Spec.stage 30 28 14 512 200 rfl rfl (fun l c => x0 (ix3 p l c)) (fun c o => x2 (ix2 c o))
          (fun c o => x3 (ix2 c o)) (fun c o => x4 (ix2 c o)) (fun o => x5 (ix2 (0 : Fin 1) o)) := by
    subst hA1 hG1
    exact funext fun q => funext fun c => stage1 x0 x2 x3 x4 x5 p q c
  rw [h3, h2, h1]
  rfl

end Cert.KernelIdeal.KPay

end
-- ==== Proof.KBlocks.lean ====
/-
  From the blocks to the whole output array.

  The grid has eight points; point `t` is handed rows 128·t … 128·t + 127 of the embedded sentences and of the image
  vectors, and every weight array whole, and writes back rows 128·t … 128·t + 127 of the output column. Given that the
  body's stored value at row `p` of its block is the network's row function of row `p` of its input blocks
  (`PayRow`, proved apart), what point `t` writes back is block `t` of ONE function of the arrays as the region finds
  them — the network's output array `Cert.Spec.out` —, the eight blocks cover the column, so the array after the run is
  that function.
-/
import proofs.«117697_j48292612276233_2_alg».proof.Proof.Gen.KernelIdeal.Value
import proofs.«117697_j48292612276233_2_alg».proof.Proof.Spec
import proofs.«117697_j48292612276233_2_alg».proof.Proof.KParams

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-- The body's stored value, row by row, is the network's row function of the body's loaded blocks. -/
def PayRow : Prop :=
  ∀ (x0 : Vec Ideal S128x30x512 .bf16) (x1 : Vec Ideal S128x2048 .f32) (x2 x3 x4 : Vec Ideal S512x200 .bf16) (x5 : Vec Ideal S1x200 .f32)
    (x6 x7 x8 : Vec Ideal S200x300 .bf16) (x9 : Vec Ideal S1x300 .f32) (x10 x11 x12 : Vec Ideal S300x300 .bf16) (x13 : Vec Ideal S1x300 .f32)
    (x14 : Vec Ideal S600x400 .bf16) (x15 : Vec Ideal S2048x400 .bf16) (x16 : Vec Ideal S1x400 .f32) (x17 : Vec Ideal S400x1 .bf16)
    (x18 : Vec Ideal S1x1 .f32) (p : Fin 128),
    k0_pay1 (k0_pay9 (k0_pay6 (k0_pay3 x0 x2 x3 x4 x5) (k0_pay4 x0) x6 x7 x8 x9) (k0_pay7 (k0_pay3 x0 x2 x3 x4 x5) (k0_pay4 x0)) x10 x11 x12 x13)
        (k0_pay10 (k0_pay6 (k0_pay3 x0 x2 x3 x4 x5) (k0_pay4 x0) x6 x7 x8 x9) (k0_pay7 (k0_pay3 x0 x2 x3 x4 x5) (k0_pay4 x0)))
        x1 x14 x15 x16 x17 x18 (ix2 p (0 : Fin 1))
      = Cert.Spec.row (KPay.params x2 x3 x4 x5 x6 x7 x8 x9 x10 x11 x12 x13 x14 x15 x16 x17 x18) (fun l c => x0 (ix3 p l c)) (fun k => x1 (ix2 p k))

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The output array as one function of the arrays the region finds: the network's output of the embedded sentences,
    the image vectors and the weight arrays. -/
def G (c : Dev nD) : S1024x1.Idx → Elt Ideal .f32 :=
  Cert.Spec.out (V m c main_v7) (V m c main_arg0)
    (KPay.params (V m c main_v10) (V m c main_v11) (V m c main_v12) (V m c main_v30) (V m c main_v15) (V m c main_v16) (V m c main_v17)
      (V m c main_v31) (V m c main_v20) (V m c main_v21) (V m c main_v22) (V m c main_v32) (V m c main_v25) (V m c main_v27) (V m c main_v33)
      (V m c main_v29) (V m c main_v34))

/-! ## The index maps, decided over the eight points -/

/-- The two row-blocked inputs move with the output's block; nothing else moves. -/
theorem idx_rows : ∀ t : Fin cfg0.N, win0_0.index t (0 : Fin 3) = win0_19.index t (0 : Fin 2)
    ∧ win0_0.index t (1 : Fin 3) = 0 ∧ win0_0.index t (2 : Fin 3) = 0
    ∧ win0_1.index t (0 : Fin 2) = win0_19.index t (0 : Fin 2) ∧ win0_1.index t (1 : Fin 2) = 0
    ∧ win0_19.index t (1 : Fin 2) = 0 ∧ win0_19.index t (0 : Fin 2) ≤ 7 :=
  (by decide +kernel : ∀ t : Fin grid0.N, _)

theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)
theorem idx_w13 : ∀ t : Fin cfg0.N, win0_13.index t (0 : Fin 2) = 0 ∧ win0_13.index t (1 : Fin 2) = 0 :=
  (by decide +kernel : ∀ t : Fin grid0.N, _)
theorem idx_w14 : ∀ t : Fin cfg0.N, win0_14.index t (0 : Fin 2) = 0 ∧ win0_14.index t (1 : Fin 2) = 0 :=
  (by decide +kernel : ∀ t : Fin grid0.N, _)
theorem idx_w15 : ∀ t : Fin cfg0.N, win0_15.index t (0 : Fin 2) = 0 ∧ win0_15.index t (1 : Fin 2) = 0 :=
  (by decide +kernel : ∀ t : Fin grid0.N, _)
theorem idx_w16 : ∀ t : Fin cfg0.N, win0_16.index t (0 : Fin 2) = 0 ∧ win0_16.index t (1 : Fin 2) = 0 :=
  (by decide +kernel : ∀ t : Fin grid0.N, _)
theorem idx_w17 : ∀ t : Fin cfg0.N, win0_17.index t (0 : Fin 2) = 0 ∧ win0_17.index t (1 : Fin 2) = 0 :=
  (by decide +kernel : ∀ t : Fin grid0.N, _)
theorem idx_w18 : ∀ t : Fin cfg0.N, win0_18.index t (0 : Fin 2) = 0 ∧ win0_18.index t (1 : Fin 2) = 0 :=
  (by decide +kernel : ∀ t : Fin grid0.N, _)

/-- Every block of the column is some point's. -/
theorem idx_onto : ∀ q0 : Fin 8, ∃ t : Fin cfg0.N, win0_19.index t = ![q0.val, 0] :=
  (by decide +kernel : ∀ q0 : Fin 8, ∃ t : Fin grid0.N, win0_19.index t = ![q0.val, 0])

/-! ## The input blocks read where the output's block says -/

theorem whole2 (c : Dev nD) (t : Fin cfg0.N) : iblk m c 2 t = V m c main_v10 := by
  funext y
  show V m c main_v10 (((cfg0.win 2).blk t).view.emb y) = V m c main_v10 y
  refine congrArg _ (funext fun a => Fin.ext ?_)
  match a with
  | ⟨0, _⟩ => show win0_2.index t (0 : Fin 2) * 512 + 1 * (y 0).val = (y 0).val; have := (idx_w2 t).1; omega
  | ⟨1, _⟩ => show win0_2.index t (1 : Fin 2) * 200 + 1 * (y 1).val = (y 1).val; have := (idx_w2 t).2; omega

theorem whole3 (c : Dev nD) (t : Fin cfg0.N) : iblk m c 3 t = V m c main_v11 := by
  funext y
  show V m c main_v11 (((cfg0.win 3).blk t).view.emb y) = V m c main_v11 y
  refine congrArg _ (funext fun a => Fin.ext ?_)
  match a with
  | ⟨0, _⟩ => show win0_3.index t (0 : Fin 2) * 512 + 1 * (y 0).val = (y 0).val; have := (idx_w3 t).1; omega
  | ⟨1, _⟩ => show win0_3.index t (1 : Fin 2) * 200 + 1 * (y 1).val = (y 1).val; have := (idx_w3 t).2; omega

theorem whole4 (c : Dev nD) (t : Fin cfg0.N) : iblk m c 4 t = V m c main_v12 := by
  funext y
  show V m c main_v12 (((cfg0.win 4).blk t).view.emb y) = V m c main_v12 y
  refine congrArg _ (funext fun a => Fin.ext ?_)
  match a with
  | ⟨0, _⟩ => show win0_4.index t (0 : Fin 2) * 512 + 1 * (y 0).val = (y 0).val; have := (idx_w4 t).1; omega
  | ⟨1, _⟩ => show win0_4.index t (1 : Fin 2) * 200 + 1 * (y 1).val = (y 1).val; have := (idx_w4 t).2; omega

theorem whole5 (c : Dev nD) (t : Fin cfg0.N) : iblk m c 5 t = V m c main_v30 := by
  funext y
  show V m c main_v30 (((cfg0.win 5).blk t).view.emb y) = V m c main_v30 y
  refine congrArg _ (funext fun a => Fin.ext ?_)
  match a with
  | ⟨0, _⟩ => show win0_5.index t (0 : Fin 2) * 1 + 1 * (y 0).val = (y 0).val; have := (idx_w5 t).1; omega
  | ⟨1, _⟩ => show win0_5.index t (1 : Fin 2) * 200 + 1 * (y 1).val = (y 1).val; have := (idx_w5 t).2; omega

theorem whole6 (c : Dev nD) (t : Fin cfg0.N) : iblk m c 6 t = V m c main_v15 := by
  funext y
  show V m c main_v15 (((cfg0.win 6).blk t).view.emb y) = V m c main_v15 y
  refine congrArg _ (funext fun a => Fin.ext ?_)
  match a with
  | ⟨0, _⟩ => show win0_6.index t (0 : Fin 2) * 200 + 1 * (y 0).val = (y 0).val; have := (idx_w6 t).1; omega
  | ⟨1, _⟩ => show win0_6.index t (1 : Fin 2) * 300 + 1 * (y 1).val = (y 1).val; have := (idx_w6 t).2; omega

theorem whole7 (c : Dev nD) (t : Fin cfg0.N) : iblk m c 7 t = V m c main_v16 := by
  funext y
  show V m c main_v16 (((cfg0.win 7).blk t).view.emb y) = V m c main_v16 y
  refine congrArg _ (funext fun a => Fin.ext ?_)
  match a with
  | ⟨0, _⟩ => show win0_7.index t (0 : Fin 2) * 200 + 1 * (y 0).val = (y 0).val; have := (idx_w7 t).1; omega
  | ⟨1, _⟩ => show win0_7.index t (1 : Fin 2) * 300 + 1 * (y 1).val = (y 1).val; have := (idx_w7 t).2; omega

theorem whole8 (c : Dev nD) (t : Fin cfg0.N) : iblk m c 8 t = V m c main_v17 := by
  funext y
  show V m c main_v17 (((cfg0.win 8).blk t).view.emb y) = V m c main_v17 y
  refine congrArg _ (funext fun a => Fin.ext ?_)
  match a with
  | ⟨0, _⟩ => show win0_8.index t (0 : Fin 2) * 200 + 1 * (y 0).val = (y 0).val; have := (idx_w8 t).1; omega
  | ⟨1, _⟩ => show win0_8.index t (1 : Fin 2) * 300 + 1 * (y 1).val = (y 1).val; have := (idx_w8 t).2; omega

theorem whole9 (c : Dev nD) (t : Fin cfg0.N) : iblk m c 9 t = V m c main_v31 := by
  funext y
  show V m c main_v31 (((cfg0.win 9).blk t).view.emb y) = V m c main_v31 y
  refine congrArg _ (funext fun a => Fin.ext ?_)
  match a with
  | ⟨0, _⟩ => show win0_9.index t (0 : Fin 2) * 1 + 1 * (y 0).val = (y 0).val; have := (idx_w9 t).1; omega
  | ⟨1, _⟩ => show win0_9.index t (1 : Fin 2) * 300 + 1 * (y 1).val = (y 1).val; have := (idx_w9 t).2; omega

theorem whole10 (c : Dev nD) (t : Fin cfg0.N) : iblk m c 10 t = V m c main_v20 := by
  funext y
  show V m c main_v20 (((cfg0.win 10).blk t).view.emb y) = V m c main_v20 y
  refine congrArg _ (funext fun a => Fin.ext ?_)
  match a with
  | ⟨0, _⟩ => show win0_10.index t (0 : Fin 2) * 300 + 1 * (y 0).val = (y 0).val; have := (idx_w10 t).1; omega
  | ⟨1, _⟩ => show win0_10.index t (1 : Fin 2) * 300 + 1 * (y 1).val = (y 1).val; have := (idx_w10 t).2; omega

theorem whole11 (c : Dev nD) (t : Fin cfg0.N) : iblk m c 11 t = V m c main_v21 := by
  funext y
  show V m c main_v21 (((cfg0.win 11).blk t).view.emb y) = V m c main_v21 y
  refine congrArg _ (funext fun a => Fin.ext ?_)
  match a with
  | ⟨0, _⟩ => show win0_11.index t (0 : Fin 2) * 300 + 1 * (y 0).val = (y 0).val; have := (idx_w11 t).1; omega
  | ⟨1, _⟩ => show win0_11.index t (1 : Fin 2) * 300 + 1 * (y 1).val = (y 1).val; have := (idx_w11 t).2; omega

theorem whole12 (c : Dev nD) (t : Fin cfg0.N) : iblk m c 12 t = V m c main_v22 := by
  funext y
  show V m c main_v22 (((cfg0.win 12).blk t).view.emb y) = V m c main_v22 y
  refine congrArg _ (funext fun a => Fin.ext ?_)
  match a with
  | ⟨0, _⟩ => show win0_12.index t (0 : Fin 2) * 300 + 1 * (y 0).val = (y 0).val; have := (idx_w12 t).1; omega
  | ⟨1, _⟩ => show win0_12.index t (1 : Fin 2) * 300 + 1 * (y 1).val = (y 1).val; have := (idx_w12 t).2; omega

theorem whole13 (c : Dev nD) (t : Fin cfg0.N) : iblk m c 13 t = V m c main_v32 := by
  funext y
  show V m c main_v32 (((cfg0.win 13).blk t).view.emb y) = V m c main_v32 y
  refine congrArg _ (funext fun a => Fin.ext ?_)
  match a with
  | ⟨0, _⟩ => show win0_13.index t (0 : Fin 2) * 1 + 1 * (y 0).val = (y 0).val; have := (idx_w13 t).1; omega
  | ⟨1, _⟩ => show win0_13.index t (1 : Fin 2) * 300 + 1 * (y 1).val = (y 1).val; have := (idx_w13 t).2; omega

theorem whole14 (c : Dev nD) (t : Fin cfg0.N) : iblk m c 14 t = V m c main_v25 := by
  funext y
  show V m c main_v25 (((cfg0.win 14).blk t).view.emb y) = V m c main_v25 y
  refine congrArg _ (funext fun a => Fin.ext ?_)
  match a with
  | ⟨0, _⟩ => show win0_14.index t (0 : Fin 2) * 600 + 1 * (y 0).val = (y 0).val; have := (idx_w14 t).1; omega
  | ⟨1, _⟩ => show win0_14.index t (1 : Fin 2) * 400 + 1 * (y 1).val = (y 1).val; have := (idx_w14 t).2; omega

theorem whole15 (c : Dev nD) (t : Fin cfg0.N) : iblk m c 15 t = V m c main_v27 := by
  funext y
  show V m c main_v27 (((cfg0.win 15).blk t).view.emb y) = V m c main_v27 y
  refine congrArg _ (funext fun a => Fin.ext ?_)
  match a with
  | ⟨0, _⟩ => show win0_15.index t (0 : Fin 2) * 2048 + 1 * (y 0).val = (y 0).val; have := (idx_w15 t).1; omega
  | ⟨1, _⟩ => show win0_15.index t (1 : Fin 2) * 400 + 1 * (y 1).val = (y 1).val; have := (idx_w15 t).2; omega

theorem whole16 (c : Dev nD) (t : Fin cfg0.N) : iblk m c 16 t = V m c main_v33 := by
  funext y
  show V m c main_v33 (((cfg0.win 16).blk t).view.emb y) = V m c main_v33 y
  refine congrArg _ (funext fun a => Fin.ext ?_)
  match a with
  | ⟨0, _⟩ => show win0_16.index t (0 : Fin 2) * 1 + 1 * (y 0).val = (y 0).val; have := (idx_w16 t).1; omega
  | ⟨1, _⟩ => show win0_16.index t (1 : Fin 2) * 400 + 1 * (y 1).val = (y 1).val; have := (idx_w16 t).2; omega

theorem whole17 (c : Dev nD) (t : Fin cfg0.N) : iblk m c 17 t = V m c main_v29 := by
  funext y
  show V m c main_v29 (((cfg0.win 17).blk t).view.emb y) = V m c main_v29 y
  refine congrArg _ (funext fun a => Fin.ext ?_)
  match a with
  | ⟨0, _⟩ => show win0_17.index t (0 : Fin 2) * 400 + 1 * (y 0).val = (y 0).val; have := (idx_w17 t).1; omega
  | ⟨1, _⟩ => show win0_17.index t (1 : Fin 2) * 1 + 1 * (y 1).val = (y 1).val; have := (idx_w17 t).2; omega

theorem whole18 (c : Dev nD) (t : Fin cfg0.N) : iblk m c 18 t = V m c main_v34 := by
  funext y
  show V m c main_v34 (((cfg0.win 18).blk t).view.emb y) = V m c main_v34 y
  refine congrArg _ (funext fun a => Fin.ext ?_)
  match a with
  | ⟨0, _⟩ => show win0_18.index t (0 : Fin 2) * 1 + 1 * (y 0).val = (y 0).val; have := (idx_w18 t).1; omega
  | ⟨1, _⟩ => show win0_18.index t (1 : Fin 2) * 1 + 1 * (y 1).val = (y 1).val; have := (idx_w18 t).2; omega

/-- Row `p` of point `t`'s block of the embedded sentences is row `128·(block index) + p` of the array. -/
theorem rows0 (c : Dev nD) (t : Fin cfg0.N) (p : Fin 128) (l : Fin 30) (ch : Fin 512) (r : Fin 1024)
    (hr : r.val = win0_19.index t (0 : Fin 2) * 128 + p.val) :
    iblk m c 0 t (ix3 p l ch) = V m c main_v7 (ix3 r l ch) := by
  show V m c main_v7 (((cfg0.win 0).blk t).view.emb (ix3 p l ch)) = V m c main_v7 (ix3 r l ch)
  refine congrArg _ (funext fun a => Fin.ext ?_)
  obtain ⟨e0, e1, e2, -, -, -, -⟩ := idx_rows t
  match a with
  | ⟨0, _⟩ => show win0_0.index t (0 : Fin 3) * 128 + 1 * p.val = r.val; omega
  | ⟨1, _⟩ => show win0_0.index t (1 : Fin 3) * 30 + 1 * l.val = l.val; omega
  | ⟨2, _⟩ => show win0_0.index t (2 : Fin 3) * 512 + 1 * ch.val = ch.val; omega

/-- The same for the image vectors. -/
theorem rows1 (c : Dev nD) (t : Fin cfg0.N) (p : Fin 128) (k : Fin 2048) (r : Fin 1024)
    (hr : r.val = win0_19.index t (0 : Fin 2) * 128 + p.val) :
    iblk m c 1 t (ix2 p k) = V m c main_arg0 (ix2 r k) := by
  show V m c main_arg0 (((cfg0.win 1).blk t).view.emb (ix2 p k)) = V m c main_arg0 (ix2 r k)
  refine congrArg _ (funext fun a => Fin.ext ?_)
  obtain ⟨-, -, -, e3, e4, -, -⟩ := idx_rows t
  match a with
  | ⟨0, _⟩ => show win0_1.index t (0 : Fin 2) * 128 + 1 * p.val = r.val; omega
  | ⟨1, _⟩ => show win0_1.index t (1 : Fin 2) * 2048 + 1 * k.val = k.val; omega

/-! ## What a point writes back, the cover, the array -/

/-- What point `t` writes back is block `t` of `G`. -/
theorem flushed_eq (hpay : PayRow) (c : Dev nD) (t : Fin cfg0.N) :
    (dats m 0 c).flushed 19 t = ((cfg0.win 19).blk t).view.read (Elt Ideal) (G m c) := by
  rw [Value.flushed19]
  unfold out0_19
  rw [View.canon_unit_zero hz2]
  simp only [View.ld_unit_zero (S := S128x30x512) hz3, View.ld_unit_zero (S := S128x2048) hz2, View.ld_unit_zero (S := S512x200) hz2,
    View.ld_unit_zero (S := S1x200) hz2, View.ld_unit_zero (S := S200x300) hz2, View.ld_unit_zero (S := S1x300) hz2,
    View.ld_unit_zero (S := S300x300) hz2, View.ld_unit_zero (S := S600x400) hz2, View.ld_unit_zero (S := S2048x400) hz2,
    View.ld_unit_zero (S := S1x400) hz2, View.ld_unit_zero (S := S400x1) hz2, View.ld_unit_zero (S := S1x1) hz2]
  funext j
  obtain ⟨p, z, rfl⟩ : ∃ (p : Fin 128) (z : Fin 1), j = ix2 p z := ⟨j 0, j 1, eq_ix2 j⟩
  obtain rfl : z = 0 := Subsingleton.elim _ _
  show k0_pay1 (F := Ideal) _ _ _ _ _ _ _ _ (ix2 p (0 : Fin 1)) = G m c (((cfg0.win 19).blk t).view.emb (ix2 p (0 : Fin 1)))
  refine (hpay (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)
    (iblk m c 16 t) (iblk m c 17 t) (iblk m c 18 t) p).trans ?_
  rw [whole2, whole3, whole4, whole5, whole6, whole7, whole8, whole9, whole10, whole11, whole12, whole13, whole14, whole15, whole16,
    whole17, whole18]
  unfold G Cert.Spec.out
  have hr : (((cfg0.win 19).blk t).view.emb (ix2 p (0 : Fin 1)) 0).val = win0_19.index t (0 : Fin 2) * 128 + p.val := by
    show win0_19.index t (0 : Fin 2) * 128 + 1 * p.val = _
    omega
  exact congr (congrArg (Cert.Spec.row _) (funext fun l => funext fun ch => rows0 m c t p l ch _ hr)) (funext fun k => rows1 m c t p k _ hr)

/-- An index of the column is in point `t`'s block iff its row is in the block's range. -/
theorem mem_blk (t : Fin cfg0.N) (i : S1024x1.Idx) :
    i ∈ ((cfg0.win 19).blk t).view.set ↔ ∀ a : Fin 2, win0_19.index t a * S128x1.size a ≤ (i a).val ∧ (i a).val < win0_19.index t a * S128x1.size a + S128x1.size a := by
  show i ∈ ((View.whole main_v35).slice (win0_19.rect t)).set ↔ _
  rw [View.set_slice_whole, Rect.mem_set_unit]
  exact Iff.rfl

/-- Every row of the column is in some point's block: row `r` in the block of point `r / 128`. -/
theorem cover (i : S1024x1.Idx) : ∃ t : Fin cfg0.N, (cfg0.win 19).flush t = true ∧ i ∈ ((cfg0.win 19).blk t).view.set := by
  have hi0 : (i 0).val < 1024 := (i 0).isLt
  have hi1 : (i 1).val < 1 := (i 1).isLt
  obtain ⟨t, ht⟩ := idx_onto ⟨(i 0).val / 128, by omega⟩
  have q0 : win0_19.index t (0 : Fin 2) = (i 0).val / 128 := congrFun ht 0
  have q1 : win0_19.index t (1 : Fin 2) = 0 := congrFun ht 1
  refine ⟨t, flush0_19 t, ?_⟩
  rw [mem_blk]
  intro a
  match a with
  | ⟨0, _⟩ => show win0_19.index t (0 : Fin 2) * 128 ≤ (i 0).val ∧ (i 0).val < win0_19.index t (0 : Fin 2) * 128 + 128; omega
  | ⟨1, _⟩ => show win0_19.index t (1 : Fin 2) * 1 ≤ (i 1).val ∧ (i 1).val < win0_19.index t (1 : Fin 2) * 1 + 1; omega

/-- The output array after the run is `G`. -/
theorem final (hpay : PayRow) (c : Dev nD) : (dats m 0 c).arrAt 19 cfg0.N = G m c :=
  (dats m 0 c).arrAt_eq_of_cover 19 (G m c) (fun t _ => flushed_eq m hpay c t) (cover)

end Cert.KernelIdeal.KValue

end
-- ==== Proof.KHost.lean ====
/-
  What the region finds in the arrays the host computes before it: the embedded sentences (the token lookup, then a
  change of float format, which is the identity on the extended reals) and each weight array — a stage's weight matrix
  transposed and cut into its three positions' blocks, the dense layer's matrix transposed and cut into its two parts,
  the last layer's row transposed to a column, each bias vector recast as a one-row matrix. Read entry by entry these
  are the network's weights `Cert.Spec.paramsOf` of the argument arrays.
-/
import proofs.«117697_j48292612276233_2_alg».proof.Proof.Gen.KernelIdeal.Value
import proofs.«117697_j48292612276233_2_alg».proof.Proof.Spec
import proofs.«117697_j48292612276233_2_alg».proof.Proof.KParams
import Idealize.ShloMosaic.Lib.StableHlo.Run
import Idealize.ShloMosaic.Lib.ValueLayout

noncomputable section

namespace Cert.KernelIdeal.KHost

open Cert.KernelIdeal Idealize.ShloMosaic Idealize.ShloMosaic.TcCoe Idealize.SL.Sem Idealize.ShloMosaic.StableHlo
open Idealize.ShloMosaic.ValueIdx
open Facts₀ Facts

variable (m : (ℓ : Loc nD τ sig) → Buf (Elt Ideal) ℓ)

/-- The embedded sentences as the kernel's program computes them: a negative token number is taken from the table's
    end, each token's row is looked up, and the rows are narrowed to bf16 (the identity at the ideal values). -/
def embedK (a1 : IVec S1024x30 32) (a2 : FVec Ideal S32000x512 .f32) : FVec Ideal S1024x30x512 .bf16 :=
  have c : IVec S_ 32 := constantI S_ 32 0#32
  have v0 : IVec S1024x30 32 := broadcastInDim S1024x30 ![] bcast_S_S1024x30 c
  have v1 : IVec S1024x30 1 := cmpi .slt a1 v0
  have c_0 : IVec S_ 32 := constantI S_ 32 32000#32
  have v2 : IVec S1024x30 32 := broadcastInDim S1024x30 ![] bcast_S_S1024x30 c_0
  have v3 : IVec S1024x30 32 := addi a1 v2
  have v4 : IVec S1024x30 32 := select v1 v3 a1
  have v5 : IVec S1024x30x1 32 := broadcastInDim S1024x30x1 ![0, 1] bcast_S1024x30_S1024x30x1_0_1 v4
  truncf .bf16 (Host.gather gather_S32000x512_S1024x30x1_S1024x30x512_2_0_n_n_0_2_1512 a2 v5) bitsLt_bf16_f32

theorem V_v7 (c : Dev nD) : Gen.V m c main_v7 = embedK (m ((c : Thread nD τ).loc main_arg1)) (m ((c : Thread nD τ).loc main_arg2)) := by
  dsimp only [Gen.V, Gen.hostOps0]
  after_results
  all_goals rfl

theorem V_v10 (c : Dev nD) : Gen.V m c main_v10 = (extractStridedSlice S512x200 ![0, 0] (truncf (F := Ideal) .bf16 (transpose S1536x200 [1, 0] (m ((c : Thread nD τ).loc main_arg3)) transposes_S200x1536_S1536x200_1_0) bitsLt_bf16_f32) slices_S1536x200_S512x200_0_0 : FVec Ideal S512x200 .bf16) := by
  dsimp only [Gen.V, Gen.hostOps0]
  after_results
  all_goals rfl

theorem V_v11 (c : Dev nD) : Gen.V m c main_v11 = (extractStridedSlice S512x200 ![512, 0] (truncf (F := Ideal) .bf16 (transpose S1536x200 [1, 0] (m ((c : Thread nD τ).loc main_arg3)) transposes_S200x1536_S1536x200_1_0) bitsLt_bf16_f32) slices_S1536x200_S512x200_512_0 : FVec Ideal S512x200 .bf16) := by
  dsimp only [Gen.V, Gen.hostOps0]
  after_results
  all_goals rfl

theorem V_v12 (c : Dev nD) : Gen.V m c main_v12 = (extractStridedSlice S512x200 ![1024, 0] (truncf (F := Ideal) .bf16 (transpose S1536x200 [1, 0] (m ((c : Thread nD τ).loc main_arg3)) transposes_S200x1536_S1536x200_1_0) bitsLt_bf16_f32) slices_S1536x200_S512x200_1024_0 : FVec Ideal S512x200 .bf16) := by
  dsimp only [Gen.V, Gen.hostOps0]
  after_results
  all_goals rfl

theorem V_v15 (c : Dev nD) : Gen.V m c main_v15 = (extractStridedSlice S200x300 ![0, 0] (truncf (F := Ideal) .bf16 (transpose S600x300 [1, 0] (m ((c : Thread nD τ).loc main_arg5)) transposes_S300x600_S600x300_1_0) bitsLt_bf16_f32) slices_S600x300_S200x300_0_0 : FVec Ideal S200x300 .bf16) := by
  dsimp only [Gen.V, Gen.hostOps0]
  after_results
  all_goals rfl

theorem V_v16 (c : Dev nD) : Gen.V m c main_v16 = (extractStridedSlice S200x300 ![200, 0] (truncf (F := Ideal) .bf16 (transpose S600x300 [1, 0] (m ((c : Thread nD τ).loc main_arg5)) transposes_S300x600_S600x300_1_0) bitsLt_bf16_f32) slices_S600x300_S200x300_200_0 : FVec Ideal S200x300 .bf16) := by
  dsimp only [Gen.V, Gen.hostOps0]
  after_results
  all_goals rfl

theorem V_v17 (c : Dev nD) : Gen.V m c main_v17 = (extractStridedSlice S200x300 ![400, 0] (truncf (F := Ideal) .bf16 (transpose S600x300 [1, 0] (m ((c : Thread nD τ).loc main_arg5)) transposes_S300x600_S600x300_1_0) bitsLt_bf16_f32) slices_S600x300_S200x300_400_0 : FVec Ideal S200x300 .bf16) := by
  dsimp only [Gen.V, Gen.hostOps0]
  after_results
  all_goals rfl

theorem V_v20 (c : Dev nD) : Gen.V m c main_v20 = (extractStridedSlice S300x300 ![0, 0] (truncf (F := Ideal) .bf16 (transpose S900x300 [1, 0] (m ((c : Thread nD τ).loc main_arg7)) transposes_S300x900_S900x300_1_0) bitsLt_bf16_f32) slices_S900x300_S300x300_0_0 : FVec Ideal S300x300 .bf16) := by
  dsimp only [Gen.V, Gen.hostOps0]
  after_results
  all_goals rfl

theorem V_v21 (c : Dev nD) : Gen.V m c main_v21 = (extractStridedSlice S300x300 ![300, 0] (truncf (F := Ideal) .bf16 (transpose S900x300 [1, 0] (m ((c : Thread nD τ).loc main_arg7)) transposes_S300x900_S900x300_1_0) bitsLt_bf16_f32) slices_S900x300_S300x300_300_0 : FVec Ideal S300x300 .bf16) := by
  dsimp only [Gen.V, Gen.hostOps0]
  after_results
  all_goals rfl

theorem V_v22 (c : Dev nD) : Gen.V m c main_v22 = (extractStridedSlice S300x300 ![600, 0] (truncf (F := Ideal) .bf16 (transpose S900x300 [1, 0] (m ((c : Thread nD τ).loc main_arg7)) transposes_S300x900_S900x300_1_0) bitsLt_bf16_f32) slices_S900x300_S300x300_600_0 : FVec Ideal S300x300 .bf16) := by
  dsimp only [Gen.V, Gen.hostOps0]
  after_results
  all_goals rfl

theorem V_v25 (c : Dev nD) : Gen.V m c main_v25 = (truncf (F := Ideal) .bf16 (extractStridedSlice S600x400 ![0, 0] (transpose S2648x400 [1, 0] (m ((c : Thread nD τ).loc main_arg9)) transposes_S400x2648_S2648x400_1_0) slices_S2648x400_S600x400_0_0) bitsLt_bf16_f32 : FVec Ideal S600x400 .bf16) := by
  dsimp only [Gen.V, Gen.hostOps0]
  after_results
  all_goals rfl

theorem V_v27 (c : Dev nD) : Gen.V m c main_v27 = (truncf (F := Ideal) .bf16 (extractStridedSlice S2048x400 ![600, 0] (transpose S2648x400 [1, 0] (m ((c : Thread nD τ).loc main_arg9)) transposes_S400x2648_S2648x400_1_0) slices_S2648x400_S2048x400_600_0) bitsLt_bf16_f32 : FVec Ideal S2048x400 .bf16) := by
  dsimp only [Gen.V, Gen.hostOps0]
  after_results
  all_goals rfl

theorem V_v29 (c : Dev nD) : Gen.V m c main_v29 = (truncf (F := Ideal) .bf16 (transpose S400x1 [1, 0] (m ((c : Thread nD τ).loc main_arg11)) transposes_S1x400_S400x1_1_0) bitsLt_bf16_f32 : FVec Ideal S400x1 .bf16) := by
  dsimp only [Gen.V, Gen.hostOps0]
  after_results
  all_goals rfl

theorem V_v30 (c : Dev nD) : Gen.V m c main_v30 = (shapeCast S1x200 (m ((c : Thread nD τ).loc main_arg4)) shapeCasts_S200_S1x200 : FVec Ideal S1x200 .f32) := by
  dsimp only [Gen.V, Gen.hostOps0]
  after_results
  all_goals rfl

theorem V_v31 (c : Dev nD) : Gen.V m c main_v31 = (shapeCast S1x300 (m ((c : Thread nD τ).loc main_arg6)) shapeCasts_S300_S1x300 : FVec Ideal S1x300 .f32) := by
  dsimp only [Gen.V, Gen.hostOps0]
  after_results
  all_goals rfl

theorem V_v32 (c : Dev nD) : Gen.V m c main_v32 = (shapeCast S1x300 (m ((c : Thread nD τ).loc main_arg8)) shapeCasts_S300_S1x300 : FVec Ideal S1x300 .f32) := by
  dsimp only [Gen.V, Gen.hostOps0]
  after_results
  all_goals rfl

theorem V_v33 (c : Dev nD) : Gen.V m c main_v33 = (shapeCast S1x400 (m ((c : Thread nD τ).loc main_arg10)) shapeCasts_S400_S1x400 : FVec Ideal S1x400 .f32) := by
  dsimp only [Gen.V, Gen.hostOps0]
  after_results
  all_goals rfl

theorem V_v34 (c : Dev nD) : Gen.V m c main_v34 = (shapeCast S1x1 (m ((c : Thread nD τ).loc main_arg12)) shapeCasts_S1_S1x1 : FVec Ideal S1x1 .f32) := by
  dsimp only [Gen.V, Gen.hostOps0]
  after_results
  all_goals rfl

/-! ## The weight arrays entry by entry -/

/-- A stage's weights for one position: the weight matrix transposed, narrowed (the identity) and cut along its rows from
    `off`, at input channel `ci` and output channel `o`, is the matrix at `(o, off + ci)`. -/
theorem cut_transpose_apply {O K C : ℕ} (off : ℕ) (W : (⟨2, ![O, K]⟩ : Shape).Idx → EReal)
    (ht : (⟨2, ![O, K]⟩ : Shape).Transposes [1, 0] ⟨2, ![K, O]⟩) (hb : FTy.bf16.bits < FTy.f32.bits)
    (hs : (⟨2, ![K, O]⟩ : Shape).Slices ![off, 0] ⟨2, ![C, O]⟩) (ci : Fin C) (o : Fin O) (k : Fin K) (hk : k.val = off + ci.val) :
    extractStridedSlice ⟨2, ![C, O]⟩ ![off, 0] (truncf (F := Ideal) (φ := .f32) .bf16 (transpose ⟨2, ![K, O]⟩ [1, 0] W ht) hb) hs (ix2 ci o)
      = W (ix2 o k) :=
  (slice2_axis0_apply off _ hs ci o k hk).trans (transpose_ix2_apply W ht k o)

/-- The dense layer's two parts: the matrix transposed, cut along its rows from `off`, then narrowed. -/
theorem transpose_cut_apply {O K C : ℕ} (off : ℕ) (W : (⟨2, ![O, K]⟩ : Shape).Idx → EReal)
    (ht : (⟨2, ![O, K]⟩ : Shape).Transposes [1, 0] ⟨2, ![K, O]⟩) (hb : FTy.bf16.bits < FTy.f32.bits)
    (hs : (⟨2, ![K, O]⟩ : Shape).Slices ![off, 0] ⟨2, ![C, O]⟩) (ci : Fin C) (o : Fin O) (k : Fin K) (hk : k.val = off + ci.val) :
    truncf (F := Ideal) (φ := .f32) .bf16 (extractStridedSlice ⟨2, ![C, O]⟩ ![off, 0] (transpose ⟨2, ![K, O]⟩ [1, 0] W ht) hs) hb (ix2 ci o)
      = W (ix2 o k) :=
  (slice2_axis0_apply off _ hs ci o k hk).trans (transpose_ix2_apply W ht k o)

theorem w_v10 (c : Dev nD) (ci : Fin 512) (o : Fin 200) :
    Gen.V m c main_v10 (ix2 ci o) = (m ((c : Thread nD τ).loc main_arg3)) (ix2 o (⟨ci.val, by omega⟩ : Fin 1536)) := by
  rw [V_v10]
  exact cut_transpose_apply 0 _ _ _ _ ci o _ (Nat.zero_add _).symm

theorem w_v11 (c : Dev nD) (ci : Fin 512) (o : Fin 200) :
    Gen.V m c main_v11 (ix2 ci o) = (m ((c : Thread nD τ).loc main_arg3)) (ix2 o (⟨512 + ci.val, by omega⟩ : Fin 1536)) := by
  rw [V_v11]
  exact cut_transpose_apply 512 _ _ _ _ ci o _ rfl

theorem w_v12 (c : Dev nD) (ci : Fin 512) (o : Fin 200) :
    Gen.V m c main_v12 (ix2 ci o) = (m ((c : Thread nD τ).loc main_arg3)) (ix2 o (⟨1024 + ci.val, by omega⟩ : Fin 1536)) := by
  rw [V_v12]
  exact cut_transpose_apply 1024 _ _ _ _ ci o _ rfl
theorem w_v15 (c : Dev nD) (ci : Fin 200) (o : Fin 300) :
    Gen.V m c main_v15 (ix2 ci o) = (m ((c : Thread nD τ).loc main_arg5)) (ix2 o (⟨ci.val, by omega⟩ : Fin 600)) := by
  rw [V_v15]
  exact cut_transpose_apply 0 _ _ _ _ ci o _ (Nat.zero_add _).symm

theorem w_v16 (c : Dev nD) (ci : Fin 200) (o : Fin 300) :
    Gen.V m c main_v16 (ix2 ci o) = (m ((c : Thread nD τ).loc main_arg5)) (ix2 o (⟨200 + ci.val, by omega⟩ : Fin 600)) := by
  rw [V_v16]
  exact cut_transpose_apply 200 _ _ _ _ ci o _ rfl

theorem w_v17 (c : Dev nD) (ci : Fin 200) (o : Fin 300) :
    Gen.V m c main_v17 (ix2 ci o) = (m ((c : Thread nD τ).loc main_arg5)) (ix2 o (⟨400 + ci.val, by omega⟩ : Fin 600)) := by
  rw [V_v17]
  exact cut_transpose_apply 400 _ _ _ _ ci o _ rfl
theorem w_v20 (c : Dev nD) (ci : Fin 300) (o : Fin 300) :
    Gen.V m c main_v20 (ix2 ci o) = (m ((c : Thread nD τ).loc main_arg7)) (ix2 o (⟨ci.val, by omega⟩ : Fin 900)) := by
  rw [V_v20]
  exact cut_transpose_apply 0 _ _ _ _ ci o _ (Nat.zero_add _).symm

theorem w_v21 (c : Dev nD) (ci : Fin 300) (o : Fin 300) :
    Gen.V m c main_v21 (ix2 ci o) = (m ((c : Thread nD τ).loc main_arg7)) (ix2 o (⟨300 + ci.val, by omega⟩ : Fin 900)) := by
  rw [V_v21]
  exact cut_transpose_apply 300 _ _ _ _ ci o _ rfl

theorem w_v22 (c : Dev nD) (ci : Fin 300) (o : Fin 300) :
    Gen.V m c main_v22 (ix2 ci o) = (m ((c : Thread nD τ).loc main_arg7)) (ix2 o (⟨600 + ci.val, by omega⟩ : Fin 900)) := by
  rw [V_v22]
  exact cut_transpose_apply 600 _ _ _ _ ci o _ rfl

theorem w_v25 (c : Dev nD) (k : Fin 600) (o : Fin 400) :
    Gen.V m c main_v25 (ix2 k o) = (m ((c : Thread nD τ).loc main_arg9)) (ix2 o (⟨k.val, by omega⟩ : Fin 2648)) := by
  rw [V_v25]
  exact transpose_cut_apply 0 _ _ _ _ k o _ (Nat.zero_add _).symm

theorem w_v27 (c : Dev nD) (k : Fin 2048) (o : Fin 400) :
    Gen.V m c main_v27 (ix2 k o) = (m ((c : Thread nD τ).loc main_arg9)) (ix2 o (⟨600 + k.val, by omega⟩ : Fin 2648)) := by
  rw [V_v27]
  exact transpose_cut_apply 600 _ _ _ _ k o _ rfl

theorem w_v29 (c : Dev nD) (o : Fin 400) :
    Gen.V m c main_v29 (ix2 o (0 : Fin 1)) = (m ((c : Thread nD τ).loc main_arg11)) (ix2 (0 : Fin 1) o) := by
  rw [V_v29]
  exact transpose_ix2_apply _ _ o 0

theorem w_v30 (c : Dev nD) (o : Fin 200) :
    Gen.V m c main_v30 (ix2 (0 : Fin 1) o) = (m ((c : Thread nD τ).loc main_arg4)) (ix1 o) := by
  rw [V_v30]
  exact shapeCast_a_1a_apply _ _ 0 o

theorem w_v31 (c : Dev nD) (o : Fin 300) :
    Gen.V m c main_v31 (ix2 (0 : Fin 1) o) = (m ((c : Thread nD τ).loc main_arg6)) (ix1 o) := by
  rw [V_v31]
  exact shapeCast_a_1a_apply _ _ 0 o

theorem w_v32 (c : Dev nD) (o : Fin 300) :
    Gen.V m c main_v32 (ix2 (0 : Fin 1) o) = (m ((c : Thread nD τ).loc main_arg8)) (ix1 o) := by
  rw [V_v32]
  exact shapeCast_a_1a_apply _ _ 0 o

theorem w_v33 (c : Dev nD) (o : Fin 400) :
    Gen.V m c main_v33 (ix2 (0 : Fin 1) o) = (m ((c : Thread nD τ).loc main_arg10)) (ix1 o) := by
  rw [V_v33]
  exact shapeCast_a_1a_apply _ _ 0 o

theorem w_v34 (c : Dev nD) (o : Fin 1) :
    Gen.V m c main_v34 (ix2 (0 : Fin 1) o) = (m ((c : Thread nD τ).loc main_arg12)) (ix1 o) := by
  rw [V_v34]
  exact shapeCast_a_1a_apply _ _ 0 o

/-! ## The weights the region finds are the network's weights of the argument arrays -/

/-- Two weight records with the same seventeen fields are one. -/
theorem params_ext (P Q : Cert.Spec.Params) (h1 : P.w1a = Q.w1a) (h2 : P.w1b = Q.w1b) (h3 : P.w1c = Q.w1c) (h4 : P.b1 = Q.b1)
    (h5 : P.w2a = Q.w2a) (h6 : P.w2b = Q.w2b) (h7 : P.w2c = Q.w2c) (h8 : P.b2 = Q.b2)
    (h9 : P.w3a = Q.w3a) (h10 : P.w3b = Q.w3b) (h11 : P.w3c = Q.w3c) (h12 : P.b3 = Q.b3)
    (h13 : P.wmx = Q.wmx) (h14 : P.wmi = Q.wmi) (h15 : P.bm = Q.bm) (h16 : P.wo = Q.wo) (h17 : P.bo = Q.bo) : P = Q := by
  cases P; cases Q
  simp only [Cert.Spec.Params.mk.injEq]
  exact ⟨h1, h2, h3, h4, h5, h6, h7, h8, h9, h10, h11, h12, h13, h14, h15, h16, h17⟩

set_option maxHeartbeats 4000000 in
theorem params_eq (c : Dev nD) :
    KPay.params (Gen.V m c main_v10) (Gen.V m c main_v11) (Gen.V m c main_v12) (Gen.V m c main_v30) (Gen.V m c main_v15) (Gen.V m c main_v16)
      (Gen.V m c main_v17) (Gen.V m c main_v31) (Gen.V m c main_v20) (Gen.V m c main_v21) (Gen.V m c main_v22) (Gen.V m c main_v32)
      (Gen.V m c main_v25) (Gen.V m c main_v27) (Gen.V m c main_v33) (Gen.V m c main_v29) (Gen.V m c main_v34)
    = Cert.Spec.paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine params_ext _ _ ?_ ?_ ?_ ?_ ?_ ?_ ?_ ?_ ?_ ?_ ?_ ?_ ?_ ?_ ?_ ?_ ?_
  · exact funext fun ci => funext fun o => w_v10 m c ci o
  · exact funext fun ci => funext fun o => w_v11 m c ci o
  · exact funext fun ci => funext fun o => w_v12 m c ci o
  · exact funext fun o => w_v30 m c o
  · exact funext fun ci => funext fun o => w_v15 m c ci o
  · exact funext fun ci => funext fun o => w_v16 m c ci o
  · exact funext fun ci => funext fun o => w_v17 m c ci o
  · exact funext fun o => w_v31 m c o
  · exact funext fun ci => funext fun o => w_v20 m c ci o
  · exact funext fun ci => funext fun o => w_v21 m c ci o
  · exact funext fun ci => funext fun o => w_v22 m c ci o
  · exact funext fun o => w_v32 m c o
  · exact funext fun k => funext fun o => w_v25 m c k o
  · exact funext fun k => funext fun o => w_v27 m c k o
  · exact funext fun o => w_v33 m c o
  · exact funext fun o => w_v29 m c o
  · exact w_v34 m c 0

end Cert.KernelIdeal.KHost

end
-- ==== Proof.KRun.lean ====
/-
  The kernel's run, read: after every weakly fair execution the output array holds the network's output
  `Cert.Spec.out` of the embedded sentences, the image vectors and the network's weights read off the argument arrays,
  and the arguments are unchanged. The frame run leaves the output array block by block; the blocks are one function of
  the arrays the region finds; and those arrays are the host's re-layings of the arguments.
-/
import proofs.«117697_j48292612276233_2_alg».proof.Proof.KBlocks
import proofs.«117697_j48292612276233_2_alg».proof.Proof.KHost

noncomputable section

namespace Cert.KernelIdeal.KValue

open Cert.KernelIdeal Idealize.ShloMosaic Idealize.ShloMosaic.TcCoe Idealize.SL.Sem

variable (m : (ℓ : Loc nD τ sig) → Buf (Elt Ideal) ℓ) (ρ : Dev nD → PrngReg)

/-- The output array's function in terms of the argument arrays. -/
theorem G_eq (c : Dev nD) :
    G m c = Cert.Spec.out (KHost.embedK (m ((c : Thread nD τ).loc main_arg1)) (m ((c : Thread nD τ).loc main_arg2))) (m ((c : Thread nD τ).loc main_arg0))
      (Cert.Spec.paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  unfold G
  rw [KHost.params_eq, KHost.V_v7, Gen.V_main_arg0]

/-- The kernel's run with the output array named. -/
theorem run (hpay : PayRow) : θ_run defs (onTc (τ := τ) (main (F := Ideal))) ⟨m, fun _ => 0, ρ⟩ fun r => ∀ c : Dev nD,
      r.2.mem ((c : Thread nD τ).loc main_v35) = Cert.Spec.out (KHost.embedK (m ((c : Thread nD τ).loc main_arg1)) (m ((c : Thread nD τ).loc main_arg2))) (m ((c : Thread nD τ).loc main_arg0))
        (Cert.Spec.paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨((h c).1.trans (final m hpay c)).trans (G_eq m c), (h c).2⟩) (Value.run_blocks m ρ)

end Cert.KernelIdeal.KValue

end
-- ==== Proof.RefTerm.lean ====
/-
  The reference's result as one term of its arguments: the operations of its @main, in order, each applied to the
  values before it — the token lookup, the three stages, the dense head. Nothing is proved here; the run proves that
  the program ends at this term, and the reading proves what the term is at an index.
-/
import proofs.«117697_j48292612276233_2_alg».proof.ReferenceIdeal

noncomputable section

namespace Cert.ReferenceIdeal.RefValue

open Cert.ReferenceIdeal Idealize.ShloMosaic
open Facts₀ Facts

variable {F : FTy → Type} [FloatOps F] [Facts]

/-- The embedded sentences: a negative token number is taken from the table's end, then each token's row is looked up. -/
def embed (a1 : IVec S1024x30 32) (a2 : FVec F S32000x512 .f32) : FVec F S1024x30x512 .f32 :=
  have c : IVec S_ 32 := constantI S_ 32 0#32
  have v0 : IVec S1024x30 32 := broadcastInDim S1024x30 ![] bcast_S_S1024x30 c
  have v1 : IVec S1024x30 1 := cmpi .slt a1 v0
  have c_0 : IVec S_ 32 := constantI S_ 32 32000#32
  have v2 : IVec S1024x30 32 := broadcastInDim S1024x30 ![] bcast_S_S1024x30 c_0
  have v3 : IVec S1024x30 32 := addi a1 v2
  have v4 : IVec S1024x30 32 := select v1 v3 a1
  have v5 : IVec S1024x30x1 32 := broadcastInDim S1024x30x1 ![0, 1] bcast_S1024x30_S1024x30x1_0_1 v4
  Host.gather gather_S32000x512_S1024x30x1_S1024x30x512_2_0_n_n_0_2_1512 a2 v5

/-- The leaky rectifier on a whole `S1024x28x200` array, as the reference spells it: compare with a zero splat, multiply by the
    slope's splat, select. -/
def leaky1 (x : FVec F S1024x28x200 .f32) : FVec F S1024x28x200 .f32 :=
  have cst : FVec F S_ .f32 := constant S_ .f32 0x00000000#32
  have v0 : FVec F S1024x28x200 .f32 := broadcastInDim S1024x28x200 ![] bcast_S_S1024x28x200 cst
  have v1 : IVec S1024x28x200 1 := cmpf .oge x v0
  have cst_0 : FVec F S_ .f32 := constant S_ .f32 0x3C23D70A#32
  have v2 : FVec F S1024x28x200 .f32 := broadcastInDim S1024x28x200 ![] bcast_S_S1024x28x200 cst_0
  have v3 : FVec F S1024x28x200 .f32 := mulf v2 x
  select v1 x v3

/-- The reference's windows of three consecutive positions, laid end to end along the channel axis. -/
def windows1 (x : FVec F S1024x30x512 .f32) : FVec F S1024x28x1536 .f32 :=
  have s0 : FVec F S1024x28x512 .f32 := extractStridedSlice S1024x28x512 ![0, 0, 0] x slices_S1024x30x512_S1024x28x512_0_0_0
  have s1 : FVec F S1024x28x512 .f32 := extractStridedSlice S1024x28x512 ![0, 1, 0] x slices_S1024x30x512_S1024x28x512_0_1_0
  have s2 : FVec F S1024x28x512 .f32 := extractStridedSlice S1024x28x512 ![0, 2, 0] x slices_S1024x30x512_S1024x28x512_0_2_0
  concatenate S1024x28x1536 2 [⟨S1024x28x512, s0⟩, ⟨S1024x28x512, s1⟩, ⟨S1024x28x512, s2⟩] concatenates_S1024x28x512_S1024x28x512_S1024x28x512_S1024x28x1536_d2

/-- One stage of the reference on whole arrays: the windows against the weights, the bias, the rectifier, the gate of
    the windows' sums, the pairwise maximum. -/
def conv1 (x : FVec F S1024x30x512 .f32) (W : FVec F S200x1536 .f32) (b : FVec F S200 .f32) : FVec F S1024x14x200 .f32 :=
  have win : FVec F S1024x28x1536 .f32 := windows1 x
  have d : FVec F S1024x28x200 .f32 := Host.dotGeneral dot_S1024x28x1536_S200x1536_S1024x28x200_2_1_01_0_n_n none win W
  have b3 : FVec F S1x1x200 .f32 := broadcastInDim S1x1x200 ![2] bcast_S200_S1x1x200_2 b
  have bb : FVec F S1024x28x200 .f32 := broadcastInDim S1024x28x200 ![0, 1, 2] bcast_S1x1x200_S1024x28x200_0_1_2 b3
  have pre : FVec F S1024x28x200 .f32 := addf d bb
  have y : FVec F S1024x28x200 .f32 := leaky1 pre
  have cst : FVec F S_ .f32 := constant S_ .f32 0x00000000#32
  have ws : FVec F S1024x28 .f32 := Host.reduceAdd win cst reducesTo_S1024x28x1536_S1024x28_d2 h_S_
  have ws3 : FVec F S1024x28x1 .f32 := broadcastInDim S1024x28x1 ![0, 1] bcast_S1024x28_S1024x28x1_0_1 ws
  have cst_1 : FVec F S_ .f32 := constant S_ .f32 0x00000000#32
  have z3 : FVec F S1024x28x1 .f32 := broadcastInDim S1024x28x1 ![] bcast_S_S1024x28x1 cst_1
  have ne : IVec S1024x28x1 1 := cmpf .une ws3 z3
  have g : FVec F S1024x28x1 .f32 := uitofp .f32 ne
  have gb : FVec F S1024x28x200 .f32 := broadcastInDim S1024x28x200 ![0, 1, 2] bcast_S1024x28x1_S1024x28x200_0_1_2 g
  have yg : FVec F S1024x28x200 .f32 := mulf y gb
  have y4 : FVec F S1024x14x2x200 .f32 := shapeCast S1024x14x2x200 yg shapeCasts_S1024x28x200_S1024x14x2x200
  have cst_2 : FVec F S_ .f32 := constant S_ .f32 0xFF800000#32
  Host.reduce FloatOps.maximumf y4 cst_2 reducesTo_S1024x14x2x200_S1024x14x200_d2 h_S_

/-- The leaky rectifier on a whole `S1024x12x300` array, as the reference spells it: compare with a zero splat, multiply by the
    slope's splat, select. -/
def leaky2 (x : FVec F S1024x12x300 .f32) : FVec F S1024x12x300 .f32 :=
  have cst : FVec F S_ .f32 := constant S_ .f32 0x00000000#32
  have v0 : FVec F S1024x12x300 .f32 := broadcastInDim S1024x12x300 ![] bcast_S_S1024x12x300 cst
  have v1 : IVec S1024x12x300 1 := cmpf .oge x v0
  have cst_0 : FVec F S_ .f32 := constant S_ .f32 0x3C23D70A#32
  have v2 : FVec F S1024x12x300 .f32 := broadcastInDim S1024x12x300 ![] bcast_S_S1024x12x300 cst_0
  have v3 : FVec F S1024x12x300 .f32 := mulf v2 x
  select v1 x v3

/-- The reference's windows of three consecutive positions, laid end to end along the channel axis. -/
def windows2 (x : FVec F S1024x14x200 .f32) : FVec F S1024x12x600 .f32 :=
  have s0 : FVec F S1024x12x200 .f32 := extractStridedSlice S1024x12x200 ![0, 0, 0] x slices_S1024x14x200_S1024x12x200_0_0_0
  have s1 : FVec F S1024x12x200 .f32 := extractStridedSlice S1024x12x200 ![0, 1, 0] x slices_S1024x14x200_S1024x12x200_0_1_0
  have s2 : FVec F S1024x12x200 .f32 := extractStridedSlice S1024x12x200 ![0, 2, 0] x slices_S1024x14x200_S1024x12x200_0_2_0
  concatenate S1024x12x600 2 [⟨S1024x12x200, s0⟩, ⟨S1024x12x200, s1⟩, ⟨S1024x12x200, s2⟩] concatenates_S1024x12x200_S1024x12x200_S1024x12x200_S1024x12x600_d2

/-- One stage of the reference on whole arrays: the windows against the weights, the bias, the rectifier, the gate of
    the windows' sums, the pairwise maximum. -/
def conv2 (x : FVec F S1024x14x200 .f32) (W : FVec F S300x600 .f32) (b : FVec F S300 .f32) : FVec F S1024x6x300 .f32 :=
  have win : FVec F S1024x12x600 .f32 := windows2 x
  have d : FVec F S1024x12x300 .f32 := Host.dotGeneral dot_S1024x12x600_S300x600_S1024x12x300_2_1_01_0_n_n none win W
  have b3 : FVec F S1x1x300 .f32 := broadcastInDim S1x1x300 ![2] bcast_S300_S1x1x300_2 b
  have bb : FVec F S1024x12x300 .f32 := broadcastInDim S1024x12x300 ![0, 1, 2] bcast_S1x1x300_S1024x12x300_0_1_2 b3
  have pre : FVec F S1024x12x300 .f32 := addf d bb
  have y : FVec F S1024x12x300 .f32 := leaky2 pre
  have cst : FVec F S_ .f32 := constant S_ .f32 0x00000000#32
  have ws : FVec F S1024x12 .f32 := Host.reduceAdd win cst reducesTo_S1024x12x600_S1024x12_d2 h_S_
  have ws3 : FVec F S1024x12x1 .f32 := broadcastInDim S1024x12x1 ![0, 1] bcast_S1024x12_S1024x12x1_0_1 ws
  have cst_1 : FVec F S_ .f32 := constant S_ .f32 0x00000000#32
  have z3 : FVec F S1024x12x1 .f32 := broadcastInDim S1024x12x1 ![] bcast_S_S1024x12x1 cst_1
  have ne : IVec S1024x12x1 1 := cmpf .une ws3 z3
  have g : FVec F S1024x12x1 .f32 := uitofp .f32 ne
  have gb : FVec F S1024x12x300 .f32 := broadcastInDim S1024x12x300 ![0, 1, 2] bcast_S1024x12x1_S1024x12x300_0_1_2 g
  have yg : FVec F S1024x12x300 .f32 := mulf y gb
  have y4 : FVec F S1024x6x2x300 .f32 := shapeCast S1024x6x2x300 yg shapeCasts_S1024x12x300_S1024x6x2x300
  have cst_2 : FVec F S_ .f32 := constant S_ .f32 0xFF800000#32
  Host.reduce FloatOps.maximumf y4 cst_2 reducesTo_S1024x6x2x300_S1024x6x300_d2 h_S_

/-- The leaky rectifier on a whole `S1024x4x300` array, as the reference spells it: compare with a zero splat, multiply by the
    slope's splat, select. -/
def leaky3 (x : FVec F S1024x4x300 .f32) : FVec F S1024x4x300 .f32 :=
  have cst : FVec F S_ .f32 := constant S_ .f32 0x00000000#32
  have v0 : FVec F S1024x4x300 .f32 := broadcastInDim S1024x4x300 ![] bcast_S_S1024x4x300 cst
  have v1 : IVec S1024x4x300 1 := cmpf .oge x v0
  have cst_0 : FVec F S_ .f32 := constant S_ .f32 0x3C23D70A#32
  have v2 : FVec F S1024x4x300 .f32 := broadcastInDim S1024x4x300 ![] bcast_S_S1024x4x300 cst_0
  have v3 : FVec F S1024x4x300 .f32 := mulf v2 x
  select v1 x v3

/-- The reference's windows of three consecutive positions, laid end to end along the channel axis. -/
def windows3 (x : FVec F S1024x6x300 .f32) : FVec F S1024x4x900 .f32 :=
  have s0 : FVec F S1024x4x300 .f32 := extractStridedSlice S1024x4x300 ![0, 0, 0] x slices_S1024x6x300_S1024x4x300_0_0_0
  have s1 : FVec F S1024x4x300 .f32 := extractStridedSlice S1024x4x300 ![0, 1, 0] x slices_S1024x6x300_S1024x4x300_0_1_0
  have s2 : FVec F S1024x4x300 .f32 := extractStridedSlice S1024x4x300 ![0, 2, 0] x slices_S1024x6x300_S1024x4x300_0_2_0
  concatenate S1024x4x900 2 [⟨S1024x4x300, s0⟩, ⟨S1024x4x300, s1⟩, ⟨S1024x4x300, s2⟩] concatenates_S1024x4x300_S1024x4x300_S1024x4x300_S1024x4x900_d2

/-- One stage of the reference on whole arrays: the windows against the weights, the bias, the rectifier, the gate of
    the windows' sums, the pairwise maximum. -/
def conv3 (x : FVec F S1024x6x300 .f32) (W : FVec F S300x900 .f32) (b : FVec F S300 .f32) : FVec F S1024x2x300 .f32 :=
  have win : FVec F S1024x4x900 .f32 := windows3 x
  have d : FVec F S1024x4x300 .f32 := Host.dotGeneral dot_S1024x4x900_S300x900_S1024x4x300_2_1_01_0_n_n none win W
  have b3 : FVec F S1x1x300 .f32 := broadcastInDim S1x1x300 ![2] bcast_S300_S1x1x300_2 b
  have bb : FVec F S1024x4x300 .f32 := broadcastInDim S1024x4x300 ![0, 1, 2] bcast_S1x1x300_S1024x4x300_0_1_2 b3
  have pre : FVec F S1024x4x300 .f32 := addf d bb
  have y : FVec F S1024x4x300 .f32 := leaky3 pre
  have cst : FVec F S_ .f32 := constant S_ .f32 0x00000000#32
  have ws : FVec F S1024x4 .f32 := Host.reduceAdd win cst reducesTo_S1024x4x900_S1024x4_d2 h_S_
  have ws3 : FVec F S1024x4x1 .f32 := broadcastInDim S1024x4x1 ![0, 1] bcast_S1024x4_S1024x4x1_0_1 ws
  have cst_1 : FVec F S_ .f32 := constant S_ .f32 0x00000000#32
  have z3 : FVec F S1024x4x1 .f32 := broadcastInDim S1024x4x1 ![] bcast_S_S1024x4x1 cst_1
  have ne : IVec S1024x4x1 1 := cmpf .une ws3 z3
  have g : FVec F S1024x4x1 .f32 := uitofp .f32 ne
  have gb : FVec F S1024x4x300 .f32 := broadcastInDim S1024x4x300 ![0, 1, 2] bcast_S1024x4x1_S1024x4x300_0_1_2 g
  have yg : FVec F S1024x4x300 .f32 := mulf y gb
  have y4 : FVec F S1024x2x2x300 .f32 := shapeCast S1024x2x2x300 yg shapeCasts_S1024x4x300_S1024x2x2x300
  have cst_2 : FVec F S_ .f32 := constant S_ .f32 0xFF800000#32
  Host.reduce FloatOps.maximumf y4 cst_2 reducesTo_S1024x2x2x300_S1024x2x300_d2 h_S_

/-- The leaky rectifier on the dense layer's `S1024x400` array. -/
def leaky4 (x : FVec F S1024x400 .f32) : FVec F S1024x400 .f32 :=
  have cst : FVec F S_ .f32 := constant S_ .f32 0x00000000#32
  have v0 : FVec F S1024x400 .f32 := broadcastInDim S1024x400 ![] bcast_S_S1024x400 cst
  have v1 : IVec S1024x400 1 := cmpf .oge x v0
  have cst_0 : FVec F S_ .f32 := constant S_ .f32 0x3C23D70A#32
  have v2 : FVec F S1024x400 .f32 := broadcastInDim S1024x400 ![] bcast_S_S1024x400 cst_0
  have v3 : FVec F S1024x400 .f32 := mulf v2 x
  select v1 x v3

/-- The dense head on whole arrays: the last stage flattened and joined with the image vectors, the dense layer with
    its bias and rectifier, the last linear layer with its bias. -/
def head (x3 : FVec F S1024x2x300 .f32) (a0 : FVec F S1024x2048 .f32) (Wm : FVec F S400x2648 .f32) (bm : FVec F S400 .f32)
    (Wo : FVec F S1x400 .f32) (bo : FVec F S1 .f32) : FVec F S1024x1 .f32 :=
  have v61 : FVec F S1024x600 .f32 := shapeCast S1024x600 x3 shapeCasts_S1024x2x300_S1024x600
  have v62 : FVec F S1024x2648 .f32 := concatenate S1024x2648 1 [⟨S1024x600, v61⟩, ⟨S1024x2048, a0⟩] concatenates_S1024x600_S1024x2048_S1024x2648_d1
  have v63 : FVec F S2648x400 .f32 := transpose S2648x400 [1, 0] Wm transposes_S400x2648_S2648x400_1_0
  have v64 : FVec F S1024x400 .f32 := Host.dotGeneral dot_S1024x2648_S2648x400_S1024x400_1_0_0_1_n_n none v62 v63
  have v65 : FVec F S1x400 .f32 := broadcastInDim S1x400 ![1] bcast_S400_S1x400_1 bm
  have v66 : FVec F S1024x400 .f32 := broadcastInDim S1024x400 ![0, 1] bcast_S1x400_S1024x400_0_1 v65
  have v67 : FVec F S1024x400 .f32 := addf v64 v66
  have v68 : FVec F S1024x400 .f32 := leaky4 v67
  have v69 : FVec F S400x1 .f32 := transpose S400x1 [1, 0] Wo transposes_S1x400_S400x1_1_0
  have v70 : FVec F S1024x1 .f32 := Host.dotGeneral dot_S1024x400_S400x1_S1024x1_1_0_0_1_n_n none v68 v69
  have v71 : FVec F S1x1 .f32 := broadcastInDim S1x1 ![1] bcast_S1_S1x1_1 bo
  have v72 : FVec F S1024x1 .f32 := broadcastInDim S1024x1 ![0, 1] bcast_S1x1_S1024x1_0_1 v71
  addf v70 v72

/-- The reference's result of its thirteen arguments, in @main's order. -/
def result (a0 : FVec F S1024x2048 .f32) (a1 : IVec S1024x30 32) (a2 : FVec F S32000x512 .f32)
    (a3 : FVec F S200x1536 .f32) (a4 : FVec F S200 .f32) (a5 : FVec F S300x600 .f32) (a6 : FVec F S300 .f32)
    (a7 : FVec F S300x900 .f32) (a8 : FVec F S300 .f32) (a9 : FVec F S400x2648 .f32) (a10 : FVec F S400 .f32)
    (a11 : FVec F S1x400 .f32) (a12 : FVec F S1 .f32) : FVec F S1024x1 .f32 :=
  head (conv3 (conv2 (conv1 (embed a1 a2) a3 a4) a5 a6) a7 a8) a0 a9 a10 a11 a12

end Cert.ReferenceIdeal.RefValue

end
-- ==== Proof.RefRunOps.lean ====
/-
  The reference program's @main as the list of its 109 host operations, in order: the 86 statements of its two
  windows, each of the four calls of the rectifier replaced by the seven operations of the called function's body
  (six of its own and the one of the selection it calls in turn) over that call's buffers. The same list is also
  given in six consecutive stretches — the token lookup, the three stages (the third cut where @main's first
  window ends) and the dense head — with, for each stretch, the buffers it writes: a buffer a stretch does not
  write keeps its contents through it.

  Each of the four concatenations is given a name that takes its arrays as separate arguments: by definition it is the
  concatenation of the list of those arrays.
-/
import proofs.«117697_j48292612276233_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- Three arrays laid end to end along axis 2, the arrays given as separate arguments. -/
abbrev cat_main_v10 (u0 : FVec F S1024x28x512 .f32) (u1 : FVec F S1024x28x512 .f32) (u2 : FVec F S1024x28x512 .f32) : FVec F S1024x28x1536 .f32 :=
  concatenate S1024x28x1536 2 [⟨S1024x28x512, u0⟩, ⟨S1024x28x512, u1⟩, ⟨S1024x28x512, u2⟩] concatenates_S1024x28x512_S1024x28x512_S1024x28x512_S1024x28x1536_d2

/-- Three arrays laid end to end along axis 2, the arrays given as separate arguments. -/
abbrev cat_main_v28 (u0 : FVec F S1024x12x200 .f32) (u1 : FVec F S1024x12x200 .f32) (u2 : FVec F S1024x12x200 .f32) : FVec F S1024x12x600 .f32 :=
  concatenate S1024x12x600 2 [⟨S1024x12x200, u0⟩, ⟨S1024x12x200, u1⟩, ⟨S1024x12x200, u2⟩] concatenates_S1024x12x200_S1024x12x200_S1024x12x200_S1024x12x600_d2

/-- Three arrays laid end to end along axis 2, the arrays given as separate arguments. -/
abbrev cat_main_v46 (u0 : FVec F S1024x4x300 .f32) (u1 : FVec F S1024x4x300 .f32) (u2 : FVec F S1024x4x300 .f32) : FVec F S1024x4x900 .f32 :=
  concatenate S1024x4x900 2 [⟨S1024x4x300, u0⟩, ⟨S1024x4x300, u1⟩, ⟨S1024x4x300, u2⟩] concatenates_S1024x4x300_S1024x4x300_S1024x4x300_S1024x4x900_d2

/-- Two arrays laid end to end along axis 1, the arrays given as separate arguments. -/
abbrev cat_main_v62 (u0 : FVec F S1024x600 .f32) (u1 : FVec F S1024x2048 .f32) : FVec F S1024x2648 .f32 :=
  concatenate S1024x2648 1 [⟨S1024x600, u0⟩, ⟨S1024x2048, u1⟩] concatenates_S1024x600_S1024x2048_S1024x2648_d1

/-- @main's 109 operations, in order. -/
abbrev ops : List (HloOp τ sig (Elt F)) :=
  [ nullary main_c (constantI S_ 32 0#32),
    unary main_c main_v0 (broadcastInDim S1024x30 ![] bcast_S_S1024x30 : (⟨S_, .i32⟩ : BufTy).Contents (Elt F) → (⟨S1024x30, .i32⟩ : BufTy).Contents (Elt F)),
    binary main_arg1 main_v0 main_v1 (cmpi .slt : (⟨S1024x30, .i32⟩ : BufTy).Contents (Elt F) → (⟨S1024x30, .i32⟩ : BufTy).Contents (Elt F) → (⟨S1024x30, .i1⟩ : BufTy).Contents (Elt F)),
    nullary main_c_0 (constantI S_ 32 32000#32),
    unary main_c_0 main_v2 (broadcastInDim S1024x30 ![] bcast_S_S1024x30 : (⟨S_, .i32⟩ : BufTy).Contents (Elt F) → (⟨S1024x30, .i32⟩ : BufTy).Contents (Elt F)),
    binary main_arg1 main_v2 main_v3 (addi : (⟨S1024x30, .i32⟩ : BufTy).Contents (Elt F) → (⟨S1024x30, .i32⟩ : BufTy).Contents (Elt F) → (⟨S1024x30, .i32⟩ : BufTy).Contents (Elt F)),
    ternary main_v1 main_v3 main_arg1 main_v4 (select : (⟨S1024x30, .i1⟩ : BufTy).Contents (Elt F) → (⟨S1024x30, .i32⟩ : BufTy).Contents (Elt F) → (⟨S1024x30, .i32⟩ : BufTy).Contents (Elt F) → (⟨S1024x30, .i32⟩ : BufTy).Contents (Elt F)),
    unary main_v4 main_v5 (broadcastInDim S1024x30x1 ![0, 1] bcast_S1024x30_S1024x30x1_0_1 : (⟨S1024x30, .i32⟩ : BufTy).Contents (Elt F) → (⟨S1024x30x1, .i32⟩ : BufTy).Contents (Elt F)),
    binary main_arg2 main_v5 main_v6 ((fun x i => Host.gather gather_S32000x512_S1024x30x1_S1024x30x512_2_0_n_n_0_2_1512 x i) : (⟨S32000x512, .f32⟩ : BufTy).Contents (Elt F) → (⟨S1024x30x1, .i32⟩ : BufTy).Contents (Elt F) → (⟨S1024x30x512, .f32⟩ : BufTy).Contents (Elt F)),
    unary main_v6 main_v7 ((extractStridedSlice S1024x28x512 ![0, 0, 0] · slices_S1024x30x512_S1024x28x512_0_0_0) : (⟨S1024x30x512, .f32⟩ : BufTy).Contents (Elt F) → (⟨S1024x28x512, .f32⟩ : BufTy).Contents (Elt F)),
    unary main_v6 main_v8 ((extractStridedSlice S1024x28x512 ![0, 1, 0] · slices_S1024x30x512_S1024x28x512_0_1_0) : (⟨S1024x30x512, .f32⟩ : BufTy).Contents (Elt F) → (⟨S1024x28x512, .f32⟩ : BufTy).Contents (Elt F)),
    unary main_v6 main_v9 ((extractStridedSlice S1024x28x512 ![0, 2, 0] · slices_S1024x30x512_S1024x28x512_0_2_0) : (⟨S1024x30x512, .f32⟩ : BufTy).Contents (Elt F) → (⟨S1024x28x512, .f32⟩ : BufTy).Contents (Elt F)),
    nary ![main_v7, main_v8, main_v9] main_v10 (fun u => cat_main_v10 (u 0) (u 1) (u 2)),
    binary main_v10 main_arg3 main_v11 ((fun l r => Host.dotGeneral dot_S1024x28x1536_S200x1536_S1024x28x200_2_1_01_0_n_n none l r) : (⟨S1024x28x1536, .f32⟩ : BufTy).Contents (Elt F) → (⟨S200x1536, .f32⟩ : BufTy).Contents (Elt F) → (⟨S1024x28x200, .f32⟩ : BufTy).Contents (Elt F)),
    unary main_arg4 main_v12 (broadcastInDim S1x1x200 ![2] bcast_S200_S1x1x200_2 : (⟨S200, .f32⟩ : BufTy).Contents (Elt F) → (⟨S1x1x200, .f32⟩ : BufTy).Contents (Elt F)),
    unary main_v12 main_v13 (broadcastInDim S1024x28x200 ![0, 1, 2] bcast_S1x1x200_S1024x28x200_0_1_2 : (⟨S1x1x200, .f32⟩ : BufTy).Contents (Elt F) → (⟨S1024x28x200, .f32⟩ : BufTy).Contents (Elt F)),
    binary main_v11 main_v13 main_v14 (addf : (⟨S1024x28x200, .f32⟩ : BufTy).Contents (Elt F) → (⟨S1024x28x200, .f32⟩ : BufTy).Contents (Elt F) → (⟨S1024x28x200, .f32⟩ : BufTy).Contents (Elt F)),
    TRef.nullary main_call0.cst (constant S_ .f32 0x00000000#32),
    TRef.unary main_call0.cst main_call0.v0 (broadcastInDim S1024x28x200 ![] bcast_S_S1024x28x200),
    TRef.binary (.of main_v14) main_call0.v0 main_call0.v1 (cmpf .oge),
    TRef.nullary main_call0.cst_0 (constant S_ .f32 0x3C23D70A#32),
    TRef.unary main_call0.cst_0 main_call0.v2 (broadcastInDim S1024x28x200 ![] bcast_S_S1024x28x200),
    TRef.binary main_call0.v2 (.of main_v14) main_call0.v3 mulf,
    TRef.ternary main_call0.v1 (.of main_v14) main_call0.v3 main_call0.call0.v0 select,
    nullary main_cst (constant S_ .f32 0x00000000#32),
    binary main_v10 main_cst main_v16 ((fun x v => Host.reduceAdd x v reducesTo_S1024x28x1536_S1024x28_d2 h_S_) : (⟨S1024x28x1536, .f32⟩ : BufTy).Contents (Elt F) → (⟨S_, .f32⟩ : BufTy).Contents (Elt F) → (⟨S1024x28, .f32⟩ : BufTy).Contents (Elt F)),
    unary main_v16 main_v17 (broadcastInDim S1024x28x1 ![0, 1] bcast_S1024x28_S1024x28x1_0_1 : (⟨S1024x28, .f32⟩ : BufTy).Contents (Elt F) → (⟨S1024x28x1, .f32⟩ : BufTy).Contents (Elt F)),
    nullary main_cst_1 (constant S_ .f32 0x00000000#32),
    unary main_cst_1 main_v18 (broadcastInDim S1024x28x1 ![] bcast_S_S1024x28x1 : (⟨S_, .f32⟩ : BufTy).Contents (Elt F) → (⟨S1024x28x1, .f32⟩ : BufTy).Contents (Elt F)),
    binary main_v17 main_v18 main_v19 (cmpf .une : (⟨S1024x28x1, .f32⟩ : BufTy).Contents (Elt F) → (⟨S1024x28x1, .f32⟩ : BufTy).Contents (Elt F) → (⟨S1024x28x1, .i1⟩ : BufTy).Contents (Elt F)),
    unary main_v19 main_v20 (uitofp .f32 : (⟨S1024x28x1, .i1⟩ : BufTy).Contents (Elt F) → (⟨S1024x28x1, .f32⟩ : BufTy).Contents (Elt F)),
    unary main_v20 main_v21 (broadcastInDim S1024x28x200 ![0, 1, 2] bcast_S1024x28x1_S1024x28x200_0_1_2 : (⟨S1024x28x1, .f32⟩ : BufTy).Contents (Elt F) → (⟨S1024x28x200, .f32⟩ : BufTy).Contents (Elt F)),
    binary main_v15 main_v21 main_v22 (mulf : (⟨S1024x28x200, .f32⟩ : BufTy).Contents (Elt F) → (⟨S1024x28x200, .f32⟩ : BufTy).Contents (Elt F) → (⟨S1024x28x200, .f32⟩ : BufTy).Contents (Elt F)),
    reshape main_v22 main_v23 rfl shapeCasts_S1024x28x200_S1024x14x2x200,
    nullary main_cst_2 (constant S_ .f32 0xFF800000#32),
    binary main_v23 main_cst_2 main_v24 ((fun x v => Host.reduce FloatOps.maximumf x v reducesTo_S1024x14x2x200_S1024x14x200_d2 h_S_) : (⟨S1024x14x2x200, .f32⟩ : BufTy).Contents (Elt F) → (⟨S_, .f32⟩ : BufTy).Contents (Elt F) → (⟨S1024x14x200, .f32⟩ : BufTy).Contents (Elt F)),
    unary main_v24 main_v25 ((extractStridedSlice S1024x12x200 ![0, 0, 0] · slices_S1024x14x200_S1024x12x200_0_0_0) : (⟨S1024x14x200, .f32⟩ : BufTy).Contents (Elt F) → (⟨S1024x12x200, .f32⟩ : BufTy).Contents (Elt F)),
    unary main_v24 main_v26 ((extractStridedSlice S1024x12x200 ![0, 1, 0] · slices_S1024x14x200_S1024x12x200_0_1_0) : (⟨S1024x14x200, .f32⟩ : BufTy).Contents (Elt F) → (⟨S1024x12x200, .f32⟩ : BufTy).Contents (Elt F)),
    unary main_v24 main_v27 ((extractStridedSlice S1024x12x200 ![0, 2, 0] · slices_S1024x14x200_S1024x12x200_0_2_0) : (⟨S1024x14x200, .f32⟩ : BufTy).Contents (Elt F) → (⟨S1024x12x200, .f32⟩ : BufTy).Contents (Elt F)),
    nary ![main_v25, main_v26, main_v27] main_v28 (fun u => cat_main_v28 (u 0) (u 1) (u 2)),
    binary main_v28 main_arg5 main_v29 ((fun l r => Host.dotGeneral dot_S1024x12x600_S300x600_S1024x12x300_2_1_01_0_n_n none l r) : (⟨S1024x12x600, .f32⟩ : BufTy).Contents (Elt F) → (⟨S300x600, .f32⟩ : BufTy).Contents (Elt F) → (⟨S1024x12x300, .f32⟩ : BufTy).Contents (Elt F)),
    unary main_arg6 main_v30 (broadcastInDim S1x1x300 ![2] bcast_S300_S1x1x300_2 : (⟨S300, .f32⟩ : BufTy).Contents (Elt F) → (⟨S1x1x300, .f32⟩ : BufTy).Contents (Elt F)),
    unary main_v30 main_v31 (broadcastInDim S1024x12x300 ![0, 1, 2] bcast_S1x1x300_S1024x12x300_0_1_2 : (⟨S1x1x300, .f32⟩ : BufTy).Contents (Elt F) → (⟨S1024x12x300, .f32⟩ : BufTy).Contents (Elt F)),
    binary main_v29 main_v31 main_v32 (addf : (⟨S1024x12x300, .f32⟩ : BufTy).Contents (Elt F) → (⟨S1024x12x300, .f32⟩ : BufTy).Contents (Elt F) → (⟨S1024x12x300, .f32⟩ : BufTy).Contents (Elt F)),
    TRef.nullary main_call1.cst (constant S_ .f32 0x00000000#32),
    TRef.unary main_call1.cst main_call1.v0 (broadcastInDim S1024x12x300 ![] bcast_S_S1024x12x300),
    TRef.binary (.of main_v32) main_call1.v0 main_call1.v1 (cmpf .oge),
    TRef.nullary main_call1.cst_0 (constant S_ .f32 0x3C23D70A#32),
    TRef.unary main_call1.cst_0 main_call1.v2 (broadcastInDim S1024x12x300 ![] bcast_S_S1024x12x300),
    TRef.binary main_call1.v2 (.of main_v32) main_call1.v3 mulf,
    TRef.ternary main_call1.v1 (.of main_v32) main_call1.v3 main_call1.call0.v0 select,
    nullary main_cst_3 (constant S_ .f32 0x00000000#32),
    binary main_v28 main_cst_3 main_v34 ((fun x v => Host.reduceAdd x v reducesTo_S1024x12x600_S1024x12_d2 h_S_) : (⟨S1024x12x600, .f32⟩ : BufTy).Contents (Elt F) → (⟨S_, .f32⟩ : BufTy).Contents (Elt F) → (⟨S1024x12, .f32⟩ : BufTy).Contents (Elt F)),
    unary main_v34 main_v35 (broadcastInDim S1024x12x1 ![0, 1] bcast_S1024x12_S1024x12x1_0_1 : (⟨S1024x12, .f32⟩ : BufTy).Contents (Elt F) → (⟨S1024x12x1, .f32⟩ : BufTy).Contents (Elt F)),
    nullary main_cst_4 (constant S_ .f32 0x00000000#32),
    unary main_cst_4 main_v36 (broadcastInDim S1024x12x1 ![] bcast_S_S1024x12x1 : (⟨S_, .f32⟩ : BufTy).Contents (Elt F) → (⟨S1024x12x1, .f32⟩ : BufTy).Contents (Elt F)),
    binary main_v35 main_v36 main_v37 (cmpf .une : (⟨S1024x12x1, .f32⟩ : BufTy).Contents (Elt F) → (⟨S1024x12x1, .f32⟩ : BufTy).Contents (Elt F) → (⟨S1024x12x1, .i1⟩ : BufTy).Contents (Elt F)),
    unary main_v37 main_v38 (uitofp .f32 : (⟨S1024x12x1, .i1⟩ : BufTy).Contents (Elt F) → (⟨S1024x12x1, .f32⟩ : BufTy).Contents (Elt F)),
    unary main_v38 main_v39 (broadcastInDim S1024x12x300 ![0, 1, 2] bcast_S1024x12x1_S1024x12x300_0_1_2 : (⟨S1024x12x1, .f32⟩ : BufTy).Contents (Elt F) → (⟨S1024x12x300, .f32⟩ : BufTy).Contents (Elt F)),
    binary main_v33 main_v39 main_v40 (mulf : (⟨S1024x12x300, .f32⟩ : BufTy).Contents (Elt F) → (⟨S1024x12x300, .f32⟩ : BufTy).Contents (Elt F) → (⟨S1024x12x300, .f32⟩ : BufTy).Contents (Elt F)),
    reshape main_v40 main_v41 rfl shapeCasts_S1024x12x300_S1024x6x2x300,
    nullary main_cst_5 (constant S_ .f32 0xFF800000#32),
    binary main_v41 main_cst_5 main_v42 ((fun x v => Host.reduce FloatOps.maximumf x v reducesTo_S1024x6x2x300_S1024x6x300_d2 h_S_) : (⟨S1024x6x2x300, .f32⟩ : BufTy).Contents (Elt F) → (⟨S_, .f32⟩ : BufTy).Contents (Elt F) → (⟨S1024x6x300, .f32⟩ : BufTy).Contents (Elt F)),
    unary main_v42 main_v43 ((extractStridedSlice S1024x4x300 ![0, 0, 0] · slices_S1024x6x300_S1024x4x300_0_0_0) : (⟨S1024x6x300, .f32⟩ : BufTy).Contents (Elt F) → (⟨S1024x4x300, .f32⟩ : BufTy).Contents (Elt F)),
    unary main_v42 main_v44 ((extractStridedSlice S1024x4x300 ![0, 1, 0] · slices_S1024x6x300_S1024x4x300_0_1_0) : (⟨S1024x6x300, .f32⟩ : BufTy).Contents (Elt F) → (⟨S1024x4x300, .f32⟩ : BufTy).Contents (Elt F)),
    unary main_v42 main_v45 ((extractStridedSlice S1024x4x300 ![0, 2, 0] · slices_S1024x6x300_S1024x4x300_0_2_0) : (⟨S1024x6x300, .f32⟩ : BufTy).Contents (Elt F) → (⟨S1024x4x300, .f32⟩ : BufTy).Contents (Elt F)),
    nary ![main_v43, main_v44, main_v45] main_v46 (fun u => cat_main_v46 (u 0) (u 1) (u 2)),
    binary main_v46 main_arg7 main_v47 ((fun l r => Host.dotGeneral dot_S1024x4x900_S300x900_S1024x4x300_2_1_01_0_n_n none l r) : (⟨S1024x4x900, .f32⟩ : BufTy).Contents (Elt F) → (⟨S300x900, .f32⟩ : BufTy).Contents (Elt F) → (⟨S1024x4x300, .f32⟩ : BufTy).Contents (Elt F)),
    unary main_arg8 main_v48 (broadcastInDim S1x1x300 ![2] bcast_S300_S1x1x300_2 : (⟨S300, .f32⟩ : BufTy).Contents (Elt F) → (⟨S1x1x300, .f32⟩ : BufTy).Contents (Elt F)),
    unary main_v48 main_v49 (broadcastInDim S1024x4x300 ![0, 1, 2] bcast_S1x1x300_S1024x4x300_0_1_2 : (⟨S1x1x300, .f32⟩ : BufTy).Contents (Elt F) → (⟨S1024x4x300, .f32⟩ : BufTy).Contents (Elt F)),
    binary main_v47 main_v49 main_v50 (addf : (⟨S1024x4x300, .f32⟩ : BufTy).Contents (Elt F) → (⟨S1024x4x300, .f32⟩ : BufTy).Contents (Elt F) → (⟨S1024x4x300, .f32⟩ : BufTy).Contents (Elt F)),
    TRef.nullary main_call2.cst (constant S_ .f32 0x00000000#32),
    TRef.unary main_call2.cst main_call2.v0 (broadcastInDim S1024x4x300 ![] bcast_S_S1024x4x300),
    TRef.binary (.of main_v50) main_call2.v0 main_call2.v1 (cmpf .oge),
    TRef.nullary main_call2.cst_0 (constant S_ .f32 0x3C23D70A#32),
    TRef.unary main_call2.cst_0 main_call2.v2 (broadcastInDim S1024x4x300 ![] bcast_S_S1024x4x300),
    TRef.binary main_call2.v2 (.of main_v50) main_call2.v3 mulf,
    TRef.ternary main_call2.v1 (.of main_v50) main_call2.v3 main_call2.call0.v0 select,
    nullary main_cst_6 (constant S_ .f32 0x00000000#32),
    binary main_v46 main_cst_6 main_v52 ((fun x v => Host.reduceAdd x v reducesTo_S1024x4x900_S1024x4_d2 h_S_) : (⟨S1024x4x900, .f32⟩ : BufTy).Contents (Elt F) → (⟨S_, .f32⟩ : BufTy).Contents (Elt F) → (⟨S1024x4, .f32⟩ : BufTy).Contents (Elt F)),
    unary main_v52 main_v53 (broadcastInDim S1024x4x1 ![0, 1] bcast_S1024x4_S1024x4x1_0_1 : (⟨S1024x4, .f32⟩ : BufTy).Contents (Elt F) → (⟨S1024x4x1, .f32⟩ : BufTy).Contents (Elt F)),
    nullary main_cst_7 (constant S_ .f32 0x00000000#32),
    unary main_cst_7 main_v54 (broadcastInDim S1024x4x1 ![] bcast_S_S1024x4x1 : (⟨S_, .f32⟩ : BufTy).Contents (Elt F) → (⟨S1024x4x1, .f32⟩ : BufTy).Contents (Elt F)),
    binary main_v53 main_v54 main_v55 (cmpf .une : (⟨S1024x4x1, .f32⟩ : BufTy).Contents (Elt F) → (⟨S1024x4x1, .f32⟩ : BufTy).Contents (Elt F) → (⟨S1024x4x1, .i1⟩ : BufTy).Contents (Elt F)),
    unary main_v55 main_v56 (uitofp .f32 : (⟨S1024x4x1, .i1⟩ : BufTy).Contents (Elt F) → (⟨S1024x4x1, .f32⟩ : BufTy).Contents (Elt F)),
    unary main_v56 main_v57 (broadcastInDim S1024x4x300 ![0, 1, 2] bcast_S1024x4x1_S1024x4x300_0_1_2 : (⟨S1024x4x1, .f32⟩ : BufTy).Contents (Elt F) → (⟨S1024x4x300, .f32⟩ : BufTy).Contents (Elt F)),
    binary main_v51 main_v57 main_v58 (mulf : (⟨S1024x4x300, .f32⟩ : BufTy).Contents (Elt F) → (⟨S1024x4x300, .f32⟩ : BufTy).Contents (Elt F) → (⟨S1024x4x300, .f32⟩ : BufTy).Contents (Elt F)),
    reshape main_v58 main_v59 rfl shapeCasts_S1024x4x300_S1024x2x2x300,
    nullary main_cst_8 (constant S_ .f32 0xFF800000#32),
    binary main_v59 main_cst_8 main_v60 ((fun x v => Host.reduce FloatOps.maximumf x v reducesTo_S1024x2x2x300_S1024x2x300_d2 h_S_) : (⟨S1024x2x2x300, .f32⟩ : BufTy).Contents (Elt F) → (⟨S_, .f32⟩ : BufTy).Contents (Elt F) → (⟨S1024x2x300, .f32⟩ : BufTy).Contents (Elt F)),
    reshape main_v60 main_v61 rfl shapeCasts_S1024x2x300_S1024x600,
    binary main_v61 main_arg0 main_v62 (cat_main_v62 : (⟨S1024x600, .f32⟩ : BufTy).Contents (Elt F) → (⟨S1024x2048, .f32⟩ : BufTy).Contents (Elt F) → (⟨S1024x2648, .f32⟩ : BufTy).Contents (Elt F)),
    unary main_arg9 main_v63 ((transpose S2648x400 [1, 0] · transposes_S400x2648_S2648x400_1_0) : (⟨S400x2648, .f32⟩ : BufTy).Contents (Elt F) → (⟨S2648x400, .f32⟩ : BufTy).Contents (Elt F)),
    binary main_v62 main_v63 main_v64 ((fun l r => Host.dotGeneral dot_S1024x2648_S2648x400_S1024x400_1_0_0_1_n_n none l r) : (⟨S1024x2648, .f32⟩ : BufTy).Contents (Elt F) → (⟨S2648x400, .f32⟩ : BufTy).Contents (Elt F) → (⟨S1024x400, .f32⟩ : BufTy).Contents (Elt F)),
    unary main_arg10 main_v65 (broadcastInDim S1x400 ![1] bcast_S400_S1x400_1 : (⟨S400, .f32⟩ : BufTy).Contents (Elt F) → (⟨S1x400, .f32⟩ : BufTy).Contents (Elt F)),
    unary main_v65 main_v66 (broadcastInDim S1024x400 ![0, 1] bcast_S1x400_S1024x400_0_1 : (⟨S1x400, .f32⟩ : BufTy).Contents (Elt F) → (⟨S1024x400, .f32⟩ : BufTy).Contents (Elt F)),
    binary main_v64 main_v66 main_v67 (addf : (⟨S1024x400, .f32⟩ : BufTy).Contents (Elt F) → (⟨S1024x400, .f32⟩ : BufTy).Contents (Elt F) → (⟨S1024x400, .f32⟩ : BufTy).Contents (Elt F)),
    TRef.nullary main_call3.cst (constant S_ .f32 0x00000000#32),
    TRef.unary main_call3.cst main_call3.v0 (broadcastInDim S1024x400 ![] bcast_S_S1024x400),
    TRef.binary (.of main_v67) main_call3.v0 main_call3.v1 (cmpf .oge),
    TRef.nullary main_call3.cst_0 (constant S_ .f32 0x3C23D70A#32),
    TRef.unary main_call3.cst_0 main_call3.v2 (broadcastInDim S1024x400 ![] bcast_S_S1024x400),
    TRef.binary main_call3.v2 (.of main_v67) main_call3.v3 mulf,
    TRef.ternary main_call3.v1 (.of main_v67) main_call3.v3 main_call3.call0.v0 select,
    unary main_arg11 main_v69 ((transpose S400x1 [1, 0] · transposes_S1x400_S400x1_1_0) : (⟨S1x400, .f32⟩ : BufTy).Contents (Elt F) → (⟨S400x1, .f32⟩ : BufTy).Contents (Elt F)),
    binary main_v68 main_v69 main_v70 ((fun l r => Host.dotGeneral dot_S1024x400_S400x1_S1024x1_1_0_0_1_n_n none l r) : (⟨S1024x400, .f32⟩ : BufTy).Contents (Elt F) → (⟨S400x1, .f32⟩ : BufTy).Contents (Elt F) → (⟨S1024x1, .f32⟩ : BufTy).Contents (Elt F)),
    unary main_arg12 main_v71 (broadcastInDim S1x1 ![1] bcast_S1_S1x1_1 : (⟨S1, .f32⟩ : BufTy).Contents (Elt F) → (⟨S1x1, .f32⟩ : BufTy).Contents (Elt F)),
    unary main_v71 main_v72 (broadcastInDim S1024x1 ![0, 1] bcast_S1x1_S1024x1_0_1 : (⟨S1x1, .f32⟩ : BufTy).Contents (Elt F) → (⟨S1024x1, .f32⟩ : BufTy).Contents (Elt F)),
    binary main_v70 main_v72 main_v73 (addf : (⟨S1024x1, .f32⟩ : BufTy).Contents (Elt F) → (⟨S1024x1, .f32⟩ : BufTy).Contents (Elt F) → (⟨S1024x1, .f32⟩ : BufTy).Contents (Elt F)) ]

/-- The token lookup: a negative token number is moved to the table's end, then each token's row is read (9 operations). -/
def opsEmbed : List (HloOp τ sig (Elt F)) :=
  [ nullary main_c (constantI S_ 32 0#32),
    unary main_c main_v0 (broadcastInDim S1024x30 ![] bcast_S_S1024x30 : (⟨S_, .i32⟩ : BufTy).Contents (Elt F) → (⟨S1024x30, .i32⟩ : BufTy).Contents (Elt F)),
    binary main_arg1 main_v0 main_v1 (cmpi .slt : (⟨S1024x30, .i32⟩ : BufTy).Contents (Elt F) → (⟨S1024x30, .i32⟩ : BufTy).Contents (Elt F) → (⟨S1024x30, .i1⟩ : BufTy).Contents (Elt F)),
    nullary main_c_0 (constantI S_ 32 32000#32),
    unary main_c_0 main_v2 (broadcastInDim S1024x30 ![] bcast_S_S1024x30 : (⟨S_, .i32⟩ : BufTy).Contents (Elt F) → (⟨S1024x30, .i32⟩ : BufTy).Contents (Elt F)),
    binary main_arg1 main_v2 main_v3 (addi : (⟨S1024x30, .i32⟩ : BufTy).Contents (Elt F) → (⟨S1024x30, .i32⟩ : BufTy).Contents (Elt F) → (⟨S1024x30, .i32⟩ : BufTy).Contents (Elt F)),
    ternary main_v1 main_v3 main_arg1 main_v4 (select : (⟨S1024x30, .i1⟩ : BufTy).Contents (Elt F) → (⟨S1024x30, .i32⟩ : BufTy).Contents (Elt F) → (⟨S1024x30, .i32⟩ : BufTy).Contents (Elt F) → (⟨S1024x30, .i32⟩ : BufTy).Contents (Elt F)),
    unary main_v4 main_v5 (broadcastInDim S1024x30x1 ![0, 1] bcast_S1024x30_S1024x30x1_0_1 : (⟨S1024x30, .i32⟩ : BufTy).Contents (Elt F) → (⟨S1024x30x1, .i32⟩ : BufTy).Contents (Elt F)),
    binary main_arg2 main_v5 main_v6 ((fun x i => Host.gather gather_S32000x512_S1024x30x1_S1024x30x512_2_0_n_n_0_2_1512 x i) : (⟨S32000x512, .f32⟩ : BufTy).Contents (Elt F) → (⟨S1024x30x1, .i32⟩ : BufTy).Contents (Elt F) → (⟨S1024x30x512, .f32⟩ : BufTy).Contents (Elt F)) ]

/-- The buffers that stretch writes. -/
abbrev opsEmbed_W : List (Ref sig .tc) := [main_c, main_v0, main_v1, main_c_0, main_v2, main_v3, main_v4, main_v5, main_v6]

theorem opsEmbed_writes : (opsEmbed : List (HloOp τ sig (Elt F))).Forall fun op => op.writes ⊆ (opsEmbed_W.map (Proc.devRef (τ := τ) .tc)).toFinset := by
  simp only [opsEmbed, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer that stretch does not write keeps its contents through it. -/
theorem keepEmbed (V : Valuation τ sig (Elt F)) {r : Ref sig .tc} (h : r ∉ opsEmbed_W) :
    after (opsEmbed (F := F)) V (no_index (Proc.devRef .tc r)) = V (Proc.devRef .tc r) :=
  after_of_writes_sub opsEmbed V opsEmbed_writes h

/-- The first stage: windows, product with the weights, bias, rectifier, gate, pairwise maximum (27 operations). -/
def opsStage1 : List (HloOp τ sig (Elt F)) :=
  [ unary main_v6 main_v7 ((extractStridedSlice S1024x28x512 ![0, 0, 0] · slices_S1024x30x512_S1024x28x512_0_0_0) : (⟨S1024x30x512, .f32⟩ : BufTy).Contents (Elt F) → (⟨S1024x28x512, .f32⟩ : BufTy).Contents (Elt F)),
    unary main_v6 main_v8 ((extractStridedSlice S1024x28x512 ![0, 1, 0] · slices_S1024x30x512_S1024x28x512_0_1_0) : (⟨S1024x30x512, .f32⟩ : BufTy).Contents (Elt F) → (⟨S1024x28x512, .f32⟩ : BufTy).Contents (Elt F)),
    unary main_v6 main_v9 ((extractStridedSlice S1024x28x512 ![0, 2, 0] · slices_S1024x30x512_S1024x28x512_0_2_0) : (⟨S1024x30x512, .f32⟩ : BufTy).Contents (Elt F) → (⟨S1024x28x512, .f32⟩ : BufTy).Contents (Elt F)),
    nary ![main_v7, main_v8, main_v9] main_v10 (fun u => cat_main_v10 (u 0) (u 1) (u 2)),
    binary main_v10 main_arg3 main_v11 ((fun l r => Host.dotGeneral dot_S1024x28x1536_S200x1536_S1024x28x200_2_1_01_0_n_n none l r) : (⟨S1024x28x1536, .f32⟩ : BufTy).Contents (Elt F) → (⟨S200x1536, .f32⟩ : BufTy).Contents (Elt F) → (⟨S1024x28x200, .f32⟩ : BufTy).Contents (Elt F)),
    unary main_arg4 main_v12 (broadcastInDim S1x1x200 ![2] bcast_S200_S1x1x200_2 : (⟨S200, .f32⟩ : BufTy).Contents (Elt F) → (⟨S1x1x200, .f32⟩ : BufTy).Contents (Elt F)),
    unary main_v12 main_v13 (broadcastInDim S1024x28x200 ![0, 1, 2] bcast_S1x1x200_S1024x28x200_0_1_2 : (⟨S1x1x200, .f32⟩ : BufTy).Contents (Elt F) → (⟨S1024x28x200, .f32⟩ : BufTy).Contents (Elt F)),
    binary main_v11 main_v13 main_v14 (addf : (⟨S1024x28x200, .f32⟩ : BufTy).Contents (Elt F) → (⟨S1024x28x200, .f32⟩ : BufTy).Contents (Elt F) → (⟨S1024x28x200, .f32⟩ : BufTy).Contents (Elt F)),
    TRef.nullary main_call0.cst (constant S_ .f32 0x00000000#32),
    TRef.unary main_call0.cst main_call0.v0 (broadcastInDim S1024x28x200 ![] bcast_S_S1024x28x200),
    TRef.binary (.of main_v14) main_call0.v0 main_call0.v1 (cmpf .oge),
    TRef.nullary main_call0.cst_0 (constant S_ .f32 0x3C23D70A#32),
    TRef.unary main_call0.cst_0 main_call0.v2 (broadcastInDim S1024x28x200 ![] bcast_S_S1024x28x200),
    TRef.binary main_call0.v2 (.of main_v14) main_call0.v3 mulf,
    TRef.ternary main_call0.v1 (.of main_v14) main_call0.v3 main_call0.call0.v0 select,
    nullary main_cst (constant S_ .f32 0x00000000#32),
    binary main_v10 main_cst main_v16 ((fun x v => Host.reduceAdd x v reducesTo_S1024x28x1536_S1024x28_d2 h_S_) : (⟨S1024x28x1536, .f32⟩ : BufTy).Contents (Elt F) → (⟨S_, .f32⟩ : BufTy).Contents (Elt F) → (⟨S1024x28, .f32⟩ : BufTy).Contents (Elt F)),
    unary main_v16 main_v17 (broadcastInDim S1024x28x1 ![0, 1] bcast_S1024x28_S1024x28x1_0_1 : (⟨S1024x28, .f32⟩ : BufTy).Contents (Elt F) → (⟨S1024x28x1, .f32⟩ : BufTy).Contents (Elt F)),
    nullary main_cst_1 (constant S_ .f32 0x00000000#32),
    unary main_cst_1 main_v18 (broadcastInDim S1024x28x1 ![] bcast_S_S1024x28x1 : (⟨S_, .f32⟩ : BufTy).Contents (Elt F) → (⟨S1024x28x1, .f32⟩ : BufTy).Contents (Elt F)),
    binary main_v17 main_v18 main_v19 (cmpf .une : (⟨S1024x28x1, .f32⟩ : BufTy).Contents (Elt F) → (⟨S1024x28x1, .f32⟩ : BufTy).Contents (Elt F) → (⟨S1024x28x1, .i1⟩ : BufTy).Contents (Elt F)),
    unary main_v19 main_v20 (uitofp .f32 : (⟨S1024x28x1, .i1⟩ : BufTy).Contents (Elt F) → (⟨S1024x28x1, .f32⟩ : BufTy).Contents (Elt F)),
    unary main_v20 main_v21 (broadcastInDim S1024x28x200 ![0, 1, 2] bcast_S1024x28x1_S1024x28x200_0_1_2 : (⟨S1024x28x1, .f32⟩ : BufTy).Contents (Elt F) → (⟨S1024x28x200, .f32⟩ : BufTy).Contents (Elt F)),
    binary main_v15 main_v21 main_v22 (mulf : (⟨S1024x28x200, .f32⟩ : BufTy).Contents (Elt F) → (⟨S1024x28x200, .f32⟩ : BufTy).Contents (Elt F) → (⟨S1024x28x200, .f32⟩ : BufTy).Contents (Elt F)),
    reshape main_v22 main_v23 rfl shapeCasts_S1024x28x200_S1024x14x2x200,
    nullary main_cst_2 (constant S_ .f32 0xFF800000#32),
    binary main_v23 main_cst_2 main_v24 ((fun x v => Host.reduce FloatOps.maximumf x v reducesTo_S1024x14x2x200_S1024x14x200_d2 h_S_) : (⟨S1024x14x2x200, .f32⟩ : BufTy).Contents (Elt F) → (⟨S_, .f32⟩ : BufTy).Contents (Elt F) → (⟨S1024x14x200, .f32⟩ : BufTy).Contents (Elt F)) ]

/-- The buffers that stretch writes. -/
abbrev opsStage1_W : List (Ref sig .tc) := [main_v7, main_v8, main_v9, main_v10, main_v11, main_v12, main_v13, main_v14, main_call0_cst, main_call0_v0, main_call0_v1, main_call0_cst_0, main_call0_v2, main_call0_v3, main_v15, main_cst, main_v16, main_v17, main_cst_1, main_v18, main_v19, main_v20, main_v21, main_v22, main_v23, main_cst_2, main_v24]

theorem opsStage1_writes : (opsStage1 : List (HloOp τ sig (Elt F))).Forall fun op => op.writes ⊆ (opsStage1_W.map (Proc.devRef (τ := τ) .tc)).toFinset := by
  simp only [opsStage1, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer that stretch does not write keeps its contents through it. -/
theorem keepStage1 (V : Valuation τ sig (Elt F)) {r : Ref sig .tc} (h : r ∉ opsStage1_W) :
    after (opsStage1 (F := F)) V (no_index (Proc.devRef .tc r)) = V (Proc.devRef .tc r) :=
  after_of_writes_sub opsStage1 V opsStage1_writes h

/-- The second stage (27 operations). -/
def opsStage2 : List (HloOp τ sig (Elt F)) :=
  [ unary main_v24 main_v25 ((extractStridedSlice S1024x12x200 ![0, 0, 0] · slices_S1024x14x200_S1024x12x200_0_0_0) : (⟨S1024x14x200, .f32⟩ : BufTy).Contents (Elt F) → (⟨S1024x12x200, .f32⟩ : BufTy).Contents (Elt F)),
    unary main_v24 main_v26 ((extractStridedSlice S1024x12x200 ![0, 1, 0] · slices_S1024x14x200_S1024x12x200_0_1_0) : (⟨S1024x14x200, .f32⟩ : BufTy).Contents (Elt F) → (⟨S1024x12x200, .f32⟩ : BufTy).Contents (Elt F)),
    unary main_v24 main_v27 ((extractStridedSlice S1024x12x200 ![0, 2, 0] · slices_S1024x14x200_S1024x12x200_0_2_0) : (⟨S1024x14x200, .f32⟩ : BufTy).Contents (Elt F) → (⟨S1024x12x200, .f32⟩ : BufTy).Contents (Elt F)),
    nary ![main_v25, main_v26, main_v27] main_v28 (fun u => cat_main_v28 (u 0) (u 1) (u 2)),
    binary main_v28 main_arg5 main_v29 ((fun l r => Host.dotGeneral dot_S1024x12x600_S300x600_S1024x12x300_2_1_01_0_n_n none l r) : (⟨S1024x12x600, .f32⟩ : BufTy).Contents (Elt F) → (⟨S300x600, .f32⟩ : BufTy).Contents (Elt F) → (⟨S1024x12x300, .f32⟩ : BufTy).Contents (Elt F)),
    unary main_arg6 main_v30 (broadcastInDim S1x1x300 ![2] bcast_S300_S1x1x300_2 : (⟨S300, .f32⟩ : BufTy).Contents (Elt F) → (⟨S1x1x300, .f32⟩ : BufTy).Contents (Elt F)),
    unary main_v30 main_v31 (broadcastInDim S1024x12x300 ![0, 1, 2] bcast_S1x1x300_S1024x12x300_0_1_2 : (⟨S1x1x300, .f32⟩ : BufTy).Contents (Elt F) → (⟨S1024x12x300, .f32⟩ : BufTy).Contents (Elt F)),
    binary main_v29 main_v31 main_v32 (addf : (⟨S1024x12x300, .f32⟩ : BufTy).Contents (Elt F) → (⟨S1024x12x300, .f32⟩ : BufTy).Contents (Elt F) → (⟨S1024x12x300, .f32⟩ : BufTy).Contents (Elt F)),
    TRef.nullary main_call1.cst (constant S_ .f32 0x00000000#32),
    TRef.unary main_call1.cst main_call1.v0 (broadcastInDim S1024x12x300 ![] bcast_S_S1024x12x300),
    TRef.binary (.of main_v32) main_call1.v0 main_call1.v1 (cmpf .oge),
    TRef.nullary main_call1.cst_0 (constant S_ .f32 0x3C23D70A#32),
    TRef.unary main_call1.cst_0 main_call1.v2 (broadcastInDim S1024x12x300 ![] bcast_S_S1024x12x300),
    TRef.binary main_call1.v2 (.of main_v32) main_call1.v3 mulf,
    TRef.ternary main_call1.v1 (.of main_v32) main_call1.v3 main_call1.call0.v0 select,
    nullary main_cst_3 (constant S_ .f32 0x00000000#32),
    binary main_v28 main_cst_3 main_v34 ((fun x v => Host.reduceAdd x v reducesTo_S1024x12x600_S1024x12_d2 h_S_) : (⟨S1024x12x600, .f32⟩ : BufTy).Contents (Elt F) → (⟨S_, .f32⟩ : BufTy).Contents (Elt F) → (⟨S1024x12, .f32⟩ : BufTy).Contents (Elt F)),
    unary main_v34 main_v35 (broadcastInDim S1024x12x1 ![0, 1] bcast_S1024x12_S1024x12x1_0_1 : (⟨S1024x12, .f32⟩ : BufTy).Contents (Elt F) → (⟨S1024x12x1, .f32⟩ : BufTy).Contents (Elt F)),
    nullary main_cst_4 (constant S_ .f32 0x00000000#32),
    unary main_cst_4 main_v36 (broadcastInDim S1024x12x1 ![] bcast_S_S1024x12x1 : (⟨S_, .f32⟩ : BufTy).Contents (Elt F) → (⟨S1024x12x1, .f32⟩ : BufTy).Contents (Elt F)),
    binary main_v35 main_v36 main_v37 (cmpf .une : (⟨S1024x12x1, .f32⟩ : BufTy).Contents (Elt F) → (⟨S1024x12x1, .f32⟩ : BufTy).Contents (Elt F) → (⟨S1024x12x1, .i1⟩ : BufTy).Contents (Elt F)),
    unary main_v37 main_v38 (uitofp .f32 : (⟨S1024x12x1, .i1⟩ : BufTy).Contents (Elt F) → (⟨S1024x12x1, .f32⟩ : BufTy).Contents (Elt F)),
    unary main_v38 main_v39 (broadcastInDim S1024x12x300 ![0, 1, 2] bcast_S1024x12x1_S1024x12x300_0_1_2 : (⟨S1024x12x1, .f32⟩ : BufTy).Contents (Elt F) → (⟨S1024x12x300, .f32⟩ : BufTy).Contents (Elt F)),
    binary main_v33 main_v39 main_v40 (mulf : (⟨S1024x12x300, .f32⟩ : BufTy).Contents (Elt F) → (⟨S1024x12x300, .f32⟩ : BufTy).Contents (Elt F) → (⟨S1024x12x300, .f32⟩ : BufTy).Contents (Elt F)),
    reshape main_v40 main_v41 rfl shapeCasts_S1024x12x300_S1024x6x2x300,
    nullary main_cst_5 (constant S_ .f32 0xFF800000#32),
    binary main_v41 main_cst_5 main_v42 ((fun x v => Host.reduce FloatOps.maximumf x v reducesTo_S1024x6x2x300_S1024x6x300_d2 h_S_) : (⟨S1024x6x2x300, .f32⟩ : BufTy).Contents (Elt F) → (⟨S_, .f32⟩ : BufTy).Contents (Elt F) → (⟨S1024x6x300, .f32⟩ : BufTy).Contents (Elt F)) ]

/-- The buffers that stretch writes. -/
abbrev opsStage2_W : List (Ref sig .tc) := [main_v25, main_v26, main_v27, main_v28, main_v29, main_v30, main_v31, main_v32, main_call1_cst, main_call1_v0, main_call1_v1, main_call1_cst_0, main_call1_v2, main_call1_v3, main_v33, main_cst_3, main_v34, main_v35, main_cst_4, main_v36, main_v37, main_v38, main_v39, main_v40, main_v41, main_cst_5, main_v42]

theorem opsStage2_writes : (opsStage2 : List (HloOp τ sig (Elt F))).Forall fun op => op.writes ⊆ (opsStage2_W.map (Proc.devRef (τ := τ) .tc)).toFinset := by
  simp only [opsStage2, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer that stretch does not write keeps its contents through it. -/
theorem keepStage2 (V : Valuation τ sig (Elt F)) {r : Ref sig .tc} (h : r ∉ opsStage2_W) :
    after (opsStage2 (F := F)) V (no_index (Proc.devRef .tc r)) = V (Proc.devRef .tc r) :=
  after_of_writes_sub opsStage2 V opsStage2_writes h

/-- The third stage up to its rectifier (15 operations: the end of @main's first window). -/
def opsStage3a : List (HloOp τ sig (Elt F)) :=
  [ unary main_v42 main_v43 ((extractStridedSlice S1024x4x300 ![0, 0, 0] · slices_S1024x6x300_S1024x4x300_0_0_0) : (⟨S1024x6x300, .f32⟩ : BufTy).Contents (Elt F) → (⟨S1024x4x300, .f32⟩ : BufTy).Contents (Elt F)),
    unary main_v42 main_v44 ((extractStridedSlice S1024x4x300 ![0, 1, 0] · slices_S1024x6x300_S1024x4x300_0_1_0) : (⟨S1024x6x300, .f32⟩ : BufTy).Contents (Elt F) → (⟨S1024x4x300, .f32⟩ : BufTy).Contents (Elt F)),
    unary main_v42 main_v45 ((extractStridedSlice S1024x4x300 ![0, 2, 0] · slices_S1024x6x300_S1024x4x300_0_2_0) : (⟨S1024x6x300, .f32⟩ : BufTy).Contents (Elt F) → (⟨S1024x4x300, .f32⟩ : BufTy).Contents (Elt F)),
    nary ![main_v43, main_v44, main_v45] main_v46 (fun u => cat_main_v46 (u 0) (u 1) (u 2)),
    binary main_v46 main_arg7 main_v47 ((fun l r => Host.dotGeneral dot_S1024x4x900_S300x900_S1024x4x300_2_1_01_0_n_n none l r) : (⟨S1024x4x900, .f32⟩ : BufTy).Contents (Elt F) → (⟨S300x900, .f32⟩ : BufTy).Contents (Elt F) → (⟨S1024x4x300, .f32⟩ : BufTy).Contents (Elt F)),
    unary main_arg8 main_v48 (broadcastInDim S1x1x300 ![2] bcast_S300_S1x1x300_2 : (⟨S300, .f32⟩ : BufTy).Contents (Elt F) → (⟨S1x1x300, .f32⟩ : BufTy).Contents (Elt F)),
    unary main_v48 main_v49 (broadcastInDim S1024x4x300 ![0, 1, 2] bcast_S1x1x300_S1024x4x300_0_1_2 : (⟨S1x1x300, .f32⟩ : BufTy).Contents (Elt F) → (⟨S1024x4x300, .f32⟩ : BufTy).Contents (Elt F)),
    binary main_v47 main_v49 main_v50 (addf : (⟨S1024x4x300, .f32⟩ : BufTy).Contents (Elt F) → (⟨S1024x4x300, .f32⟩ : BufTy).Contents (Elt F) → (⟨S1024x4x300, .f32⟩ : BufTy).Contents (Elt F)),
    TRef.nullary main_call2.cst (constant S_ .f32 0x00000000#32),
    TRef.unary main_call2.cst main_call2.v0 (broadcastInDim S1024x4x300 ![] bcast_S_S1024x4x300),
    TRef.binary (.of main_v50) main_call2.v0 main_call2.v1 (cmpf .oge),
    TRef.nullary main_call2.cst_0 (constant S_ .f32 0x3C23D70A#32),
    TRef.unary main_call2.cst_0 main_call2.v2 (broadcastInDim S1024x4x300 ![] bcast_S_S1024x4x300),
    TRef.binary main_call2.v2 (.of main_v50) main_call2.v3 mulf,
    TRef.ternary main_call2.v1 (.of main_v50) main_call2.v3 main_call2.call0.v0 select ]

/-- The buffers that stretch writes. -/
abbrev opsStage3a_W : List (Ref sig .tc) := [main_v43, main_v44, main_v45, main_v46, main_v47, main_v48, main_v49, main_v50, main_call2_cst, main_call2_v0, main_call2_v1, main_call2_cst_0, main_call2_v2, main_call2_v3, main_v51]

theorem opsStage3a_writes : (opsStage3a : List (HloOp τ sig (Elt F))).Forall fun op => op.writes ⊆ (opsStage3a_W.map (Proc.devRef (τ := τ) .tc)).toFinset := by
  simp only [opsStage3a, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer that stretch does not write keeps its contents through it. -/
theorem keepStage3a (V : Valuation τ sig (Elt F)) {r : Ref sig .tc} (h : r ∉ opsStage3a_W) :
    after (opsStage3a (F := F)) V (no_index (Proc.devRef .tc r)) = V (Proc.devRef .tc r) :=
  after_of_writes_sub opsStage3a V opsStage3a_writes h

/-- The third stage from its gate to its pairwise maximum (12 operations: the start of @main's second window). -/
def opsStage3b : List (HloOp τ sig (Elt F)) :=
  [ nullary main_cst_6 (constant S_ .f32 0x00000000#32),
    binary main_v46 main_cst_6 main_v52 ((fun x v => Host.reduceAdd x v reducesTo_S1024x4x900_S1024x4_d2 h_S_) : (⟨S1024x4x900, .f32⟩ : BufTy).Contents (Elt F) → (⟨S_, .f32⟩ : BufTy).Contents (Elt F) → (⟨S1024x4, .f32⟩ : BufTy).Contents (Elt F)),
    unary main_v52 main_v53 (broadcastInDim S1024x4x1 ![0, 1] bcast_S1024x4_S1024x4x1_0_1 : (⟨S1024x4, .f32⟩ : BufTy).Contents (Elt F) → (⟨S1024x4x1, .f32⟩ : BufTy).Contents (Elt F)),
    nullary main_cst_7 (constant S_ .f32 0x00000000#32),
    unary main_cst_7 main_v54 (broadcastInDim S1024x4x1 ![] bcast_S_S1024x4x1 : (⟨S_, .f32⟩ : BufTy).Contents (Elt F) → (⟨S1024x4x1, .f32⟩ : BufTy).Contents (Elt F)),
    binary main_v53 main_v54 main_v55 (cmpf .une : (⟨S1024x4x1, .f32⟩ : BufTy).Contents (Elt F) → (⟨S1024x4x1, .f32⟩ : BufTy).Contents (Elt F) → (⟨S1024x4x1, .i1⟩ : BufTy).Contents (Elt F)),
    unary main_v55 main_v56 (uitofp .f32 : (⟨S1024x4x1, .i1⟩ : BufTy).Contents (Elt F) → (⟨S1024x4x1, .f32⟩ : BufTy).Contents (Elt F)),
    unary main_v56 main_v57 (broadcastInDim S1024x4x300 ![0, 1, 2] bcast_S1024x4x1_S1024x4x300_0_1_2 : (⟨S1024x4x1, .f32⟩ : BufTy).Contents (Elt F) → (⟨S1024x4x300, .f32⟩ : BufTy).Contents (Elt F)),
    binary main_v51 main_v57 main_v58 (mulf : (⟨S1024x4x300, .f32⟩ : BufTy).Contents (Elt F) → (⟨S1024x4x300, .f32⟩ : BufTy).Contents (Elt F) → (⟨S1024x4x300, .f32⟩ : BufTy).Contents (Elt F)),
    reshape main_v58 main_v59 rfl shapeCasts_S1024x4x300_S1024x2x2x300,
    nullary main_cst_8 (constant S_ .f32 0xFF800000#32),
    binary main_v59 main_cst_8 main_v60 ((fun x v => Host.reduce FloatOps.maximumf x v reducesTo_S1024x2x2x300_S1024x2x300_d2 h_S_) : (⟨S1024x2x2x300, .f32⟩ : BufTy).Contents (Elt F) → (⟨S_, .f32⟩ : BufTy).Contents (Elt F) → (⟨S1024x2x300, .f32⟩ : BufTy).Contents (Elt F)) ]

/-- The buffers that stretch writes. -/
abbrev opsStage3b_W : List (Ref sig .tc) := [main_cst_6, main_v52, main_v53, main_cst_7, main_v54, main_v55, main_v56, main_v57, main_v58, main_v59, main_cst_8, main_v60]

theorem opsStage3b_writes : (opsStage3b : List (HloOp τ sig (Elt F))).Forall fun op => op.writes ⊆ (opsStage3b_W.map (Proc.devRef (τ := τ) .tc)).toFinset := by
  simp only [opsStage3b, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer that stretch does not write keeps its contents through it. -/
theorem keepStage3b (V : Valuation τ sig (Elt F)) {r : Ref sig .tc} (h : r ∉ opsStage3b_W) :
    after (opsStage3b (F := F)) V (no_index (Proc.devRef .tc r)) = V (Proc.devRef .tc r) :=
  after_of_writes_sub opsStage3b V opsStage3b_writes h

/-- The dense head: flattening, joining with the image vectors, the dense layer with its rectifier, the last linear layer (19 operations). -/
def opsHead : List (HloOp τ sig (Elt F)) :=
  [ reshape main_v60 main_v61 rfl shapeCasts_S1024x2x300_S1024x600,
    binary main_v61 main_arg0 main_v62 (cat_main_v62 : (⟨S1024x600, .f32⟩ : BufTy).Contents (Elt F) → (⟨S1024x2048, .f32⟩ : BufTy).Contents (Elt F) → (⟨S1024x2648, .f32⟩ : BufTy).Contents (Elt F)),
    unary main_arg9 main_v63 ((transpose S2648x400 [1, 0] · transposes_S400x2648_S2648x400_1_0) : (⟨S400x2648, .f32⟩ : BufTy).Contents (Elt F) → (⟨S2648x400, .f32⟩ : BufTy).Contents (Elt F)),
    binary main_v62 main_v63 main_v64 ((fun l r => Host.dotGeneral dot_S1024x2648_S2648x400_S1024x400_1_0_0_1_n_n none l r) : (⟨S1024x2648, .f32⟩ : BufTy).Contents (Elt F) → (⟨S2648x400, .f32⟩ : BufTy).Contents (Elt F) → (⟨S1024x400, .f32⟩ : BufTy).Contents (Elt F)),
    unary main_arg10 main_v65 (broadcastInDim S1x400 ![1] bcast_S400_S1x400_1 : (⟨S400, .f32⟩ : BufTy).Contents (Elt F) → (⟨S1x400, .f32⟩ : BufTy).Contents (Elt F)),
    unary main_v65 main_v66 (broadcastInDim S1024x400 ![0, 1] bcast_S1x400_S1024x400_0_1 : (⟨S1x400, .f32⟩ : BufTy).Contents (Elt F) → (⟨S1024x400, .f32⟩ : BufTy).Contents (Elt F)),
    binary main_v64 main_v66 main_v67 (addf : (⟨S1024x400, .f32⟩ : BufTy).Contents (Elt F) → (⟨S1024x400, .f32⟩ : BufTy).Contents (Elt F) → (⟨S1024x400, .f32⟩ : BufTy).Contents (Elt F)),
    TRef.nullary main_call3.cst (constant S_ .f32 0x00000000#32),
    TRef.unary main_call3.cst main_call3.v0 (broadcastInDim S1024x400 ![] bcast_S_S1024x400),
    TRef.binary (.of main_v67) main_call3.v0 main_call3.v1 (cmpf .oge),
    TRef.nullary main_call3.cst_0 (constant S_ .f32 0x3C23D70A#32),
    TRef.unary main_call3.cst_0 main_call3.v2 (broadcastInDim S1024x400 ![] bcast_S_S1024x400),
    TRef.binary main_call3.v2 (.of main_v67) main_call3.v3 mulf,
    TRef.ternary main_call3.v1 (.of main_v67) main_call3.v3 main_call3.call0.v0 select,
    unary main_arg11 main_v69 ((transpose S400x1 [1, 0] · transposes_S1x400_S400x1_1_0) : (⟨S1x400, .f32⟩ : BufTy).Contents (Elt F) → (⟨S400x1, .f32⟩ : BufTy).Contents (Elt F)),
    binary main_v68 main_v69 main_v70 ((fun l r => Host.dotGeneral dot_S1024x400_S400x1_S1024x1_1_0_0_1_n_n none l r) : (⟨S1024x400, .f32⟩ : BufTy).Contents (Elt F) → (⟨S400x1, .f32⟩ : BufTy).Contents (Elt F) → (⟨S1024x1, .f32⟩ : BufTy).Contents (Elt F)),
    unary main_arg12 main_v71 (broadcastInDim S1x1 ![1] bcast_S1_S1x1_1 : (⟨S1, .f32⟩ : BufTy).Contents (Elt F) → (⟨S1x1, .f32⟩ : BufTy).Contents (Elt F)),
    unary main_v71 main_v72 (broadcastInDim S1024x1 ![0, 1] bcast_S1x1_S1024x1_0_1 : (⟨S1x1, .f32⟩ : BufTy).Contents (Elt F) → (⟨S1024x1, .f32⟩ : BufTy).Contents (Elt F)),
    binary main_v70 main_v72 main_v73 (addf : (⟨S1024x1, .f32⟩ : BufTy).Contents (Elt F) → (⟨S1024x1, .f32⟩ : BufTy).Contents (Elt F) → (⟨S1024x1, .f32⟩ : BufTy).Contents (Elt F)) ]

/-- The buffers that stretch writes. -/
abbrev opsHead_W : List (Ref sig .tc) := [main_v61, main_v62, main_v63, main_v64, main_v65, main_v66, main_v67, main_call3_cst, main_call3_v0, main_call3_v1, main_call3_cst_0, main_call3_v2, main_call3_v3, main_v68, main_v69, main_v70, main_v71, main_v72, main_v73]

theorem opsHead_writes : (opsHead : List (HloOp τ sig (Elt F))).Forall fun op => op.writes ⊆ (opsHead_W.map (Proc.devRef (τ := τ) .tc)).toFinset := by
  simp only [opsHead, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer that stretch does not write keeps its contents through it. -/
theorem keepHead (V : Valuation τ sig (Elt F)) {r : Ref sig .tc} (h : r ∉ opsHead_W) :
    after (opsHead (F := F)) V (no_index (Proc.devRef .tc r)) = V (Proc.devRef .tc r) :=
  after_of_writes_sub opsHead V opsHead_writes h

/-- The whole line is the six stretches one after the other. -/
theorem ops_split : (ops : List (HloOp τ sig (Elt F))) = opsEmbed ++ (opsStage1 ++ (opsStage2 ++ (opsStage3a ++ (opsStage3b ++ opsHead)))) := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., nary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., binary_bufs_sub .., unary_bufs_sub .., nullary_bufs_sub .., unary_bufs_sub .., binary_bufs_sub .., unary_bufs_sub .., unary_bufs_sub .., binary_bufs_sub .., reshape_bufs_sub .., nullary_bufs_sub .., binary_bufs_sub .., unary_bufs_sub .., unary_bufs_sub .., unary_bufs_sub .., nary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., binary_bufs_sub .., unary_bufs_sub .., nullary_bufs_sub .., unary_bufs_sub .., binary_bufs_sub .., unary_bufs_sub .., unary_bufs_sub .., binary_bufs_sub .., reshape_bufs_sub .., nullary_bufs_sub .., binary_bufs_sub .., unary_bufs_sub .., unary_bufs_sub .., unary_bufs_sub .., nary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., binary_bufs_sub .., unary_bufs_sub .., nullary_bufs_sub .., unary_bufs_sub .., binary_bufs_sub .., unary_bufs_sub .., unary_bufs_sub .., binary_bufs_sub .., reshape_bufs_sub .., nullary_bufs_sub .., binary_bufs_sub .., reshape_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩

-- a chain of seventy-eight steps, each nested in the one before: the term is as deep as it is long
set_option maxRecDepth 8192 in
set_option maxHeartbeats 4000000 in
/-- @main's first window is its first 78 operations run in order: the called functions unfolded at their calls and the
    records at their fields, both sides are one chain of operation steps once sequencing is reassociated. -/
theorem part0_eq (c : Dev nD) :
    main_part0 (F := F) c = seq (opsEmbed ++ (opsStage1 ++ (opsStage2 ++ opsStage3a))) := by
  simp only [main_part0, fn_leaky_relu.body, fn_leaky_relu_0.body, fn_leaky_relu_2.body, fn_where.body, fn_where_1.body,
    fn_where_3.body, opsEmbed, opsStage1, opsStage2, opsStage3a, List.cons_append, List.nil_append, seq, bind_assoc, pure_bind]

set_option maxRecDepth 8192 in
set_option maxHeartbeats 4000000 in
/-- @main's second window is its last 31 operations run in order. -/
theorem part1_eq (c : Dev nD) : main_part1 (F := F) c = seq (opsStage3b ++ opsHead) := by
  simp only [main_part1, fn_leaky_relu_4.body, fn_where_5.body, opsStage3b, opsHead, List.cons_append, List.nil_append, seq,
    bind_assoc, pure_bind]

/-- @main is that straight line: its two windows one after the other. -/
theorem main_eq (c : Dev nD) : main (F := F) c = seq ops := by
  have h : (ops : List (HloOp τ sig (Elt F))) = (opsEmbed ++ (opsStage1 ++ (opsStage2 ++ opsStage3a))) ++ (opsStage3b ++ opsHead) := rfl
  rw [h, seq_append, ← part0_eq c, ← part1_eq c]
  rfl

end Cert.ReferenceIdeal.RefRun

end
-- ==== Proof.LibHostFold.lean ====
/-
  Two general facts about a straight line of host operations read as a fold over buffer contents.

  * The fold over two lines run one after the other is the second line's fold of the first line's result, so a long
    line can be read in stretches, each from whatever the stretch before it left.
  * An operation of a called function reads and writes its buffers through typed references: contents are carried to
    the buffer's own type when written and back when read. Carrying contents to a buffer's type and back gives the
    contents, for any typed reference whatever (by cases on the reference: its type equation becomes reflexivity), with
    no table of buffer types evaluated. Rewriting with it removes every written-then-read pair from a composed term —
    in particular around reductions, where comparing the carried term with the plain one by unfolding does not end.
-/
import Idealize.ShloMosaic.Lib.StableHlo.Run

noncomputable section

namespace Cert.HostFold

open Idealize.ShloMosaic Idealize.ShloMosaic.StableHlo

/-- The fold over two lines run one after the other is the second's fold of the first's. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => rw [List.cons_append, after_cons, after_cons]; exact ih _

/-- Contents carried to a buffer's own type and back are the contents. -/
theorem ofBuf_toBuf {sig : RefSig} {T : BufTy} {Val : EltTy → Type} (x : TRef sig T) (v : T.Contents Val) :
    x.ofBuf (x.toBuf v) = v := by
  obtain ⟨r, h, hd, hu⟩ := x
  subst h
  rfl

end Cert.HostFold

end
-- ==== Proof.RefRun.lean ====
/-
  The reference program's run: every weakly fair execution of its @main terminates, its result buffer ends at the one
  term of the launch contents of its thirteen argument buffers that composes its operations in order, and the argument
  buffers end unchanged.

  The operations' line is read in stretches. Each stretch, from any contents of the buffers, leaves at its output
  buffer the corresponding function of what its input buffers held: the token lookup, each of the three stages, the
  dense head. A stretch's function is the composition of its operations' functions by computation; the contents a
  called function's operation carries to its buffer's type and back are the contents. The stretches are then chained:
  the buffers a stretch reads besides the output of the one before are argument buffers, which no operation writes.
-/
import proofs.«117697_j48292612276233_2_alg».proof.Proof.RefTerm
import proofs.«117697_j48292612276233_2_alg».proof.Proof.RefRunOps
import proofs.«117697_j48292612276233_2_alg».proof.Proof.LibHostFold
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-! ## Each stretch from any contents

The two sides of each equation are the same composition of the operations' functions. The reductions, the lookup and the
concatenation enter it only by name: the equation does not depend on what they compute. -/

attribute [local irreducible] Host.gather Host.reduce Host.reduceAdd concatenate in
set_option maxRecDepth 8192 in
set_option maxHeartbeats 1000000 in
/-- After the token lookup its output buffer holds the embedded sentences of the token numbers and the table. -/
theorem embed_eq (V : Valuation τ sig (Elt F)) :
    after (opsEmbed (F := F)) V (Proc.devRef .tc main_v6)
      = RefValue.embed (V (Proc.devRef .tc main_arg1)) (V (Proc.devRef .tc main_arg2)) := by
  simp only [opsEmbed]
  after_results_simp
  try dsimp only [Matrix.cons_val]
  try after_results_simp
  try simp only [Cert.HostFold.ofBuf_toBuf]
  rfl

attribute [local irreducible] Host.gather Host.reduce Host.reduceAdd concatenate in
set_option maxRecDepth 8192 in
set_option maxHeartbeats 1000000 in
/-- After the first stage its output buffer holds the stage's function of its input, weights and bias. -/
theorem stage1_eq (V : Valuation τ sig (Elt F)) :
    after (opsStage1 (F := F)) V (Proc.devRef .tc main_v24)
      = RefValue.conv1 (V (Proc.devRef .tc main_v6)) (V (Proc.devRef .tc main_arg3)) (V (Proc.devRef .tc main_arg4)) := by
  simp only [opsStage1]
  after_results_simp
  try dsimp only [Matrix.cons_val]
  try after_results_simp
  try simp only [Cert.HostFold.ofBuf_toBuf]
  rfl

attribute [local irreducible] Host.gather Host.reduce Host.reduceAdd concatenate in
set_option maxRecDepth 8192 in
set_option maxHeartbeats 1000000 in
/-- The same for the second stage. -/
theorem stage2_eq (V : Valuation τ sig (Elt F)) :
    after (opsStage2 (F := F)) V (Proc.devRef .tc main_v42)
      = RefValue.conv2 (V (Proc.devRef .tc main_v24)) (V (Proc.devRef .tc main_arg5)) (V (Proc.devRef .tc main_arg6)) := by
  simp only [opsStage2]
  after_results_simp
  try dsimp only [Matrix.cons_val]
  try after_results_simp
  try simp only [Cert.HostFold.ofBuf_toBuf]
  rfl

attribute [local irreducible] Host.gather Host.reduce Host.reduceAdd concatenate in
set_option maxRecDepth 8192 in
set_option maxHeartbeats 1000000 in
/-- The same for the third stage, whose operations lie on both sides of the cut between @main's two windows. -/
theorem stage3_eq (V : Valuation τ sig (Elt F)) :
    after (opsStage3b (F := F)) (after (opsStage3a (F := F)) V) (Proc.devRef .tc main_v60)
      = RefValue.conv3 (V (Proc.devRef .tc main_v42)) (V (Proc.devRef .tc main_arg7)) (V (Proc.devRef .tc main_arg8)) := by
  simp only [opsStage3a, opsStage3b]
  after_results_simp
  try dsimp only [Matrix.cons_val]
  try after_results_simp
  try simp only [Cert.HostFold.ofBuf_toBuf]
  rfl

attribute [local irreducible] Host.gather Host.reduce Host.reduceAdd concatenate in
set_option maxRecDepth 8192 in
set_option maxHeartbeats 1000000 in
/-- After the dense head the result buffer holds the head's function of the last stage's output, the image vectors and
    the two layers' weights and biases. -/
theorem head_eq (V : Valuation τ sig (Elt F)) :
    after (opsHead (F := F)) V (Proc.devRef .tc main_v73)
      = RefValue.head (V (Proc.devRef .tc main_v60)) (V (Proc.devRef .tc main_arg0)) (V (Proc.devRef .tc main_arg9)) (V (Proc.devRef .tc main_arg10)) (V (Proc.devRef .tc main_arg11)) (V (Proc.devRef .tc main_arg12)) := by
  simp only [opsHead]
  after_results_simp
  try dsimp only [Matrix.cons_val]
  try after_results_simp
  try simp only [Cert.HostFold.ofBuf_toBuf]
  rfl

/-! ## The stretches chained -/

/-- A buffer none of the six stretches writes keeps its contents through the whole line. -/
theorem keepAll (V : Valuation τ sig (Elt F)) {r : Ref sig .tc} (h0 : r ∉ opsEmbed_W) (h1 : r ∉ opsStage1_W)
    (h2 : r ∉ opsStage2_W) (h3 : r ∉ opsStage3a_W) (h4 : r ∉ opsStage3b_W) (h5 : r ∉ opsHead_W) :
    after (ops (F := F)) V (Proc.devRef .tc r) = V (Proc.devRef .tc r) := by
  rw [ops_split, Cert.HostFold.after_append, Cert.HostFold.after_append, Cert.HostFold.after_append,
    Cert.HostFold.after_append, Cert.HostFold.after_append]
  exact (keepHead _ h5).trans ((keepStage3b _ h4).trans ((keepStage3a _ h3).trans ((keepStage2 _ h2).trans
    ((keepStage1 _ h1).trans (keepEmbed _ h0)))))

/-- After the whole line the result buffer holds the reference's result of the argument buffers' contents. -/
theorem result_eq (V : Valuation τ sig (Elt F)) :
    after (ops (F := F)) V (Proc.devRef .tc main_v73)
      = RefValue.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_split, Cert.HostFold.after_append, Cert.HostFold.after_append, Cert.HostFold.after_append,
    Cert.HostFold.after_append, Cert.HostFold.after_append]
  rw [head_eq, stage3_eq, stage2_eq, stage1_eq, embed_eq]
  simp (disch := decide) only [keepEmbed, keepStage1, keepStage2, keepStage3a, keepStage3b]
  rfl

/-! ## The run -/

/-- On every device, for any float values, from any memory with zero counters: every weakly fair execution of @main
    terminates with the result buffer at the reference's result of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v73)
          = RefValue.result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v73).trans (result_eq (launchContents m c)),
      (h c main_arg0).trans (keepAll (launchContents m c) (by decide) (by decide) (by decide) (by decide) (by decide) (by decide)),
      (h c main_arg1).trans (keepAll (launchContents m c) (by decide) (by decide) (by decide) (by decide) (by decide) (by decide)),
      (h c main_arg2).trans (keepAll (launchContents m c) (by decide) (by decide) (by decide) (by decide) (by decide) (by decide)),
      (h c main_arg3).trans (keepAll (launchContents m c) (by decide) (by decide) (by decide) (by decide) (by decide) (by decide)),
      (h c main_arg4).trans (keepAll (launchContents m c) (by decide) (by decide) (by decide) (by decide) (by decide) (by decide)),
      (h c main_arg5).trans (keepAll (launchContents m c) (by decide) (by decide) (by decide) (by decide) (by decide) (by decide)),
      (h c main_arg6).trans (keepAll (launchContents m c) (by decide) (by decide) (by decide) (by decide) (by decide) (by decide)),
      (h c main_arg7).trans (keepAll (launchContents m c) (by decide) (by decide) (by decide) (by decide) (by decide) (by decide)),
      (h c main_arg8).trans (keepAll (launchContents m c) (by decide) (by decide) (by decide) (by decide) (by decide) (by decide)),
      (h c main_arg9).trans (keepAll (launchContents m c) (by decide) (by decide) (by decide) (by decide) (by decide) (by decide)),
      (h c main_arg10).trans (keepAll (launchContents m c) (by decide) (by decide) (by decide) (by decide) (by decide) (by decide)),
      (h c main_arg11).trans (keepAll (launchContents m c) (by decide) (by decide) (by decide) (by decide) (by decide) (by decide)),
      (h c main_arg12).trans (keepAll (launchContents m c) (by decide) (by decide) (by decide) (by decide) (by decide) (by decide))⟩)
    (run_seq scopedRefs_eq scopedSems_eq defs main (fun _ => ops) main_eq (fun _ => ops_sub) m ρ)

end Cert.ReferenceIdeal.RefRun

end
-- ==== Proof.RefReadStage1.lean ====
/-
  The reference's stage 1 read at an index: the windows of three consecutive positions laid end to end, the product
  with the weights, the bias, the rectifier, the gate of the windows' sums and the pairwise maximum are, at batch row
  `b`, pooled position `q` and output channel `o`, the specification's stage on row `b`.
-/
import proofs.«117697_j48292612276233_2_alg».proof.Proof.RefTerm
import proofs.«117697_j48292612276233_2_alg».proof.Proof.Spec
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Cert.ReferenceIdeal.RefValue Idealize.ShloMosaic Idealize.ShloMosaic.ValueIdx
open Facts₀ Facts

variable [Facts]
/-! ## The windows at an index -/

/-- Entry `c` of window `l` is channel `c` of position `l`. -/
theorem windows1_apply_0 (x : FVec Ideal S1024x30x512 .f32) (b : Fin 1024) (l : Fin 28) (c : Fin 512)
    (k : Fin 1536) (hk : k.val = c.val) (l' : Fin 30) (hl : l'.val = l.val) :
    windows1 (F := Ideal) x (ix3 b l k) = x (ix3 b l' c) := by
  dsimp only [windows1]
  refine (concatenate_apply_piece (2 : Fin 3) _ _ (ix3 b l k) 0 ?hlen S1024x28x512
    (extractStridedSlice S1024x28x512 ![0, 0, 0] x slices_S1024x30x512_S1024x28x512_0_0_0) ?hxk ?hr 0 ?hpre (ix3 b l c)
    ?hi ?ha).trans ?_
  case hlen => simp
  case hxk => rfl
  case hr => rfl
  case hpre => rfl
  case hi =>
    intro a ha
    match a, ha with
    | ⟨0, _⟩, _ => rfl
    | ⟨1, _⟩, _ => rfl
    | ⟨2, _⟩, ha => exact absurd rfl ha
  case ha => show 0 + c.val = k.val; omega
  exact extractStridedSlice_apply _ x _ (ix3 b l c) (ix3 b l' c) (fun a => by
    match a with
    | ⟨0, _⟩ => show b.val = 0 + b.val; omega
    | ⟨1, _⟩ => show l'.val = 0 + l.val; omega
    | ⟨2, _⟩ => show c.val = 0 + c.val; omega)

/-- Entry `512 + c` of window `l` is channel `c` of position `l + 1`. -/
theorem windows1_apply_1 (x : FVec Ideal S1024x30x512 .f32) (b : Fin 1024) (l : Fin 28) (c : Fin 512)
    (k : Fin 1536) (hk : k.val = 512 + c.val) (l' : Fin 30) (hl : l'.val = l.val + 1) :
    windows1 (F := Ideal) x (ix3 b l k) = x (ix3 b l' c) := by
  dsimp only [windows1]
  refine (concatenate_apply_piece (2 : Fin 3) _ _ (ix3 b l k) 1 ?hlen S1024x28x512
    (extractStridedSlice S1024x28x512 ![0, 1, 0] x slices_S1024x30x512_S1024x28x512_0_1_0) ?hxk ?hr 512 ?hpre (ix3 b l c)
    ?hi ?ha).trans ?_
  case hlen => simp
  case hxk => rfl
  case hr => rfl
  case hpre => rfl
  case hi =>
    intro a ha
    match a, ha with
    | ⟨0, _⟩, _ => rfl
    | ⟨1, _⟩, _ => rfl
    | ⟨2, _⟩, ha => exact absurd rfl ha
  case ha => show 512 + c.val = k.val; omega
  exact extractStridedSlice_apply _ x _ (ix3 b l c) (ix3 b l' c) (fun a => by
    match a with
    | ⟨0, _⟩ => show b.val = 0 + b.val; omega
    | ⟨1, _⟩ => show l'.val = 1 + l.val; omega
    | ⟨2, _⟩ => show c.val = 0 + c.val; omega)

/-- Entry `1024 + c` of window `l` is channel `c` of position `l + 2`. -/
theorem windows1_apply_2 (x : FVec Ideal S1024x30x512 .f32) (b : Fin 1024) (l : Fin 28) (c : Fin 512)
    (k : Fin 1536) (hk : k.val = 1024 + c.val) (l' : Fin 30) (hl : l'.val = l.val + 2) :
    windows1 (F := Ideal) x (ix3 b l k) = x (ix3 b l' c) := by
  dsimp only [windows1]
  refine (concatenate_apply_piece (2 : Fin 3) _ _ (ix3 b l k) 2 ?hlen S1024x28x512
    (extractStridedSlice S1024x28x512 ![0, 2, 0] x slices_S1024x30x512_S1024x28x512_0_2_0) ?hxk ?hr 1024 ?hpre (ix3 b l c)
    ?hi ?ha).trans ?_
  case hlen => simp
  case hxk => rfl
  case hr => rfl
  case hpre => rfl
  case hi =>
    intro a ha
    match a, ha with
    | ⟨0, _⟩, _ => rfl
    | ⟨1, _⟩, _ => rfl
    | ⟨2, _⟩, ha => exact absurd rfl ha
  case ha => show 1024 + c.val = k.val; omega
  exact extractStridedSlice_apply _ x _ (ix3 b l c) (ix3 b l' c) (fun a => by
    match a with
    | ⟨0, _⟩ => show b.val = 0 + b.val; omega
    | ⟨1, _⟩ => show l'.val = 2 + l.val; omega
    | ⟨2, _⟩ => show c.val = 0 + c.val; omega)

/-! ## The product with the weights at an index -/

/-- The left operand's index at output `(b, l, o)` and contraction coordinate `k` is `(b, l, k)`. -/
theorem dot1_lhsIdx (b : Fin 1024) (l : Fin 28) (o : Fin 200) (k : Fin 1536) :
    dot_S1024x28x1536_S200x1536_S1024x28x200_2_1_01_0_n_n.lhsIdx (ix3 b l o)
      ((contrEquiv1 dot_S1024x28x1536_S200x1536_S1024x28x200_2_1_01_0_n_n 1536 rfl rfl).symm k) = ix3 b l k := by
  funext a
  refine Fin.ext ?_
  match a with
  | ⟨0, _⟩ => rfl
  | ⟨1, _⟩ => rfl
  | ⟨2, _⟩ =>
    exact (DotDims.lhsIdx_val_of_single dot_S1024x28x1536_S200x1536_S1024x28x200_2_1_01_0_n_n (cl := (2 : Fin 3)) rfl _ _).trans
      (contrEquiv1_symm_val dot_S1024x28x1536_S200x1536_S1024x28x200_2_1_01_0_n_n 1536 rfl rfl k)

/-- The right operand's index there is `(o, k)`. -/
theorem dot1_rhsIdx (b : Fin 1024) (l : Fin 28) (o : Fin 200) (k : Fin 1536) :
    dot_S1024x28x1536_S200x1536_S1024x28x200_2_1_01_0_n_n.rhsIdx (ix3 b l o)
      ((contrEquiv1 dot_S1024x28x1536_S200x1536_S1024x28x200_2_1_01_0_n_n 1536 rfl rfl).symm k) = ix2 o k := by
  funext a
  refine Fin.ext ?_
  match a with
  | ⟨0, _⟩ => rfl
  | ⟨1, _⟩ =>
    exact (DotDims.rhsIdx_val_of_single dot_S1024x28x1536_S200x1536_S1024x28x200_2_1_01_0_n_n (cr := (1 : Fin 2)) rfl _ _).trans
      (contrEquiv1_symm_val dot_S1024x28x1536_S200x1536_S1024x28x200_2_1_01_0_n_n 1536 rfl rfl k)

/-- The product read at `(b, l, o)`: the sum over the window's entries of entry times weight. -/
theorem dot1_apply (win : FVec Ideal S1024x28x1536 .f32) (W : FVec Ideal S200x1536 .f32) (b : Fin 1024) (l : Fin 28)
    (o : Fin 200) :
    Host.dotGeneral (F := Ideal) dot_S1024x28x1536_S200x1536_S1024x28x200_2_1_01_0_n_n none win W (ix3 b l o)
      = ∑ k : Fin 1536, win (ix3 b l k) * W (ix2 o k) := by
  show FloatOps.dotGeneral _ none _ win W (ix3 b l o) = _
  rw [Ideal.dotGeneral_apply,
    ← Equiv.sum_comp (contrEquiv1 dot_S1024x28x1536_S200x1536_S1024x28x200_2_1_01_0_n_n 1536 rfl rfl).symm]
  refine Finset.sum_congr rfl fun k _ => ?_
  rw [dot1_lhsIdx, dot1_rhsIdx]

/-! ## The value before the rectifier -/

/-- The product plus the bias, at `(b, l, o)`, is the specification's value before the rectifier: the sum over the
    window's `1536` entries splits into the three positions' sums. -/
theorem pre1_apply (x : FVec Ideal S1024x30x512 .f32) (W : FVec Ideal S200x1536 .f32) (bias : FVec Ideal S200 .f32)
    (b : Fin 1024) (l : Fin 28) (o : Fin 200) :
    addf (Host.dotGeneral (F := Ideal) dot_S1024x28x1536_S200x1536_S1024x28x200_2_1_01_0_n_n none (windows1 (F := Ideal) x) W)
        (broadcastInDim S1024x28x200 ![0, 1, 2] bcast_S1x1x200_S1024x28x200_0_1_2
          (broadcastInDim S1x1x200 ![2] bcast_S200_S1x1x200_2 bias)) (ix3 b l o)
      = Cert.Spec.pre 30 28 512 200 rfl (fun l c => x (ix3 b l c))
          (fun c o => W (ix2 o (⟨c.val, by omega⟩ : Fin 1536)))
          (fun c o => W (ix2 o (⟨512 + c.val, by omega⟩ : Fin 1536)))
          (fun c o => W (ix2 o (⟨1024 + c.val, by omega⟩ : Fin 1536)))
          (fun o => bias (ix1 o)) l o := by
  rw [addf_apply, dot1_apply]
  unfold Cert.Spec.pre
  refine congrArg₂ (· + ·) ?_ ?_
  · refine (Cert.Spec.sum_split3 512 1536 rfl _).trans ?_
    refine congrArg₂ (· + ·) (congrArg₂ (· + ·) ?_ ?_) ?_
    · refine Finset.sum_congr rfl fun c _ => ?_
      dsimp only
      rw [windows1_apply_0 x b l c _ rfl ⟨l.val, by omega⟩ rfl]
    · refine Finset.sum_congr rfl fun c _ => ?_
      dsimp only
      rw [windows1_apply_1 x b l c _ rfl ⟨l.val + 1, by omega⟩ rfl]
    · refine Finset.sum_congr rfl fun c _ => ?_
      dsimp only
      rw [windows1_apply_2 x b l c _ rfl ⟨l.val + 2, by omega⟩ rfl]
  · refine (broadcastInDim_apply _ _ _ (ix3 b l o) (ix3 (0 : Fin 1) (0 : Fin 1) o) (fun a => by
      match a with
      | ⟨0, _⟩ => rfl
      | ⟨1, _⟩ => rfl
      | ⟨2, _⟩ => rfl)).trans ?_
    exact broadcastInDim_apply _ _ bias (ix3 (0 : Fin 1) (0 : Fin 1) o) (ix1 o) (fun a => by
      match a with
      | ⟨0, _⟩ => rfl)

/-! ## The rectifier -/

/-- The reference's compare, multiply and select, at an index, is the leaky rectifier of the element. -/
theorem leaky1_apply (y : FVec Ideal S1024x28x200 .f32) (j : S1024x28x200.Idx) :
    leaky1 (F := Ideal) y j = Cert.Spec.leaky (y j) := rfl

/-! ## The gate -/

/-- The sum of a window's `1536` entries is the three positions' sums. -/
theorem wsum1_apply (x : FVec Ideal S1024x30x512 .f32) (b : Fin 1024) (l : Fin 28) :
    Host.reduceAdd (F := Ideal) (windows1 (F := Ideal) x) (constant (F := Ideal) S_ .f32 0x00000000#32)
        reducesTo_S1024x28x1536_S1024x28_d2 h_S_ (ix2 b l)
      = Cert.Spec.wsum 30 28 512 rfl (fun l c => x (ix3 b l c)) l := by
  have hR : S1024x28x1536.Reduces [2] S1024x28 := by decide
  have hlift : ∀ k : Fin 1536, hR.lift (ix2 b l) k = ix3 b l k := fun k =>
    funext fun a => Fin.ext (by
      match a with
      | ⟨0, _⟩ => rfl
      | ⟨1, _⟩ => rfl
      | ⟨2, _⟩ => rfl)
  refine (Ideal.hostReduceAdd_single reducesTo_S1024x28x1536_S1024x28_d2 hR (windows1 (F := Ideal) x)
    (Ideal.ofBits .f32 0x00000000#32) (ix2 b l)).trans ?_
  rw [Ideal.ofBits_zero_f32, zero_add]
  refine (Finset.sum_congr rfl fun k _ => congrArg (windows1 (F := Ideal) x) (hlift k)).trans ?_
  refine (Cert.Spec.sum_split3 512 1536 rfl _).trans ?_
  unfold Cert.Spec.wsum
  refine congrArg₂ (· + ·) (congrArg₂ (· + ·) ?_ ?_) ?_
  · exact Finset.sum_congr rfl fun c _ => windows1_apply_0 x b l c _ rfl ⟨l.val, by omega⟩ rfl
  · exact Finset.sum_congr rfl fun c _ => windows1_apply_1 x b l c _ rfl ⟨l.val + 1, by omega⟩ rfl
  · exact Finset.sum_congr rfl fun c _ => windows1_apply_2 x b l c _ rfl ⟨l.val + 2, by omega⟩ rfl

/-- The comparison of the windows' sums with zero, widened and broadcast over the channels, at `(b, l, o)`, is the gate
    of window `l`'s sum. -/
theorem gate1_apply (ws : FVec Ideal S1024x28 .f32) (b : Fin 1024) (l : Fin 28) (o : Fin 200) :
    broadcastInDim S1024x28x200 ![0, 1, 2] bcast_S1024x28x1_S1024x28x200_0_1_2
        (uitofp (F := Ideal) .f32 (cmpf .une (broadcastInDim S1024x28x1 ![0, 1] bcast_S1024x28_S1024x28x1_0_1 ws)
          (broadcastInDim S1024x28x1 ![] bcast_S_S1024x28x1 (constant (F := Ideal) S_ .f32 0x00000000#32))))
        (ix3 b l o)
      = Cert.Spec.gate (ws (ix2 b l)) := by
  refine (broadcastInDim_apply _ _ _ (ix3 b l o) (ix3 b l (0 : Fin 1)) (fun a => by
    match a with
    | ⟨0, _⟩ => rfl
    | ⟨1, _⟩ => rfl
    | ⟨2, _⟩ => rfl)).trans ?_
  show (((Ideal.cmp .une (broadcastInDim S1024x28x1 ![0, 1] bcast_S1024x28_S1024x28x1_0_1 ws (ix3 b l (0 : Fin 1)))
    Cert.Spec.zeroW).toNat : ℝ) : EReal) = _
  rw [broadcastInDim_apply _ _ ws (ix3 b l (0 : Fin 1)) (ix2 b l) (fun a => by
    match a with
    | ⟨0, _⟩ => rfl
    | ⟨1, _⟩ => rfl)]
  exact Cert.Spec.gate_eq_toNat _

/-! ## The pooling -/

/-- The array regrouped in pairs of positions and reduced by the maximum from −∞, at `(b, q, o)`, is the pool of
    positions `2q` and `2q + 1`. -/
theorem pool1_apply (y : FVec Ideal S1024x28x200 .f32) (b : Fin 1024) (q : Fin 14) (o : Fin 200) :
    Host.reduce (FloatOps.maximumf (F := Ideal) (φ := .f32)) (shapeCast S1024x14x2x200 y shapeCasts_S1024x28x200_S1024x14x2x200)
        (constant (F := Ideal) S_ .f32 0xFF800000#32) reducesTo_S1024x14x2x200_S1024x14x200_d2 h_S_ (ix3 b q o)
      = Cert.Spec.pool fun r =>
          y (ix3 b (⟨2 * q.val + r.val, by have := q.isLt; have := r.isLt; omega⟩ : Fin 28) o) := by
  refine (Host.reduce_eq_fold_single (FloatOps.maximumf (F := Ideal) (φ := .f32)) _ _
    reducesTo_S1024x14x2x200_S1024x14x200_d2 (by decide) h_S_ (ix3 b q o)).trans ?_
  unfold Cert.Spec.pool
  show (Finset.univ : Finset (Fin 2)).fold max Cert.Spec.negInfW _ = _
  refine congrArg (fun f : Fin 2 → EReal => (Finset.univ : Finset (Fin 2)).fold max Cert.Spec.negInfW f)
    (funext fun (r : Fin 2) => ?_)
  refine shapeCast_apply y _ _ (ix3 b (⟨2 * q.val + r.val, by have := q.isLt; have := r.isLt; omega⟩ : Fin 28) o) ?_
  rw [Shape.rowMajor_val_three, Shape.rowMajor_val_four]
  show (b.val * 28 + (2 * q.val + r.val)) * 200 + o.val = ((b.val * 14 + q.val) * 2 + r.val) * 200 + o.val
  omega

/-! ## The stage -/

/-- **The reference's stage 1 at an index** is the specification's stage on the batch row. -/
theorem conv1_apply (x : FVec Ideal S1024x30x512 .f32) (W : FVec Ideal S200x1536 .f32) (bias : FVec Ideal S200 .f32)
    (b : Fin 1024) (q : Fin 14) (o : Fin 200) :
    conv1 (F := Ideal) x W bias (ix3 b q o)
      = Cert.Spec.stage 30 28 14 512 200 rfl rfl (fun l c => x (ix3 b l c))
          (fun c o => W (ix2 o (⟨c.val, by omega⟩ : Fin 1536)))
          (fun c o => W (ix2 o (⟨512 + c.val, by omega⟩ : Fin 1536)))
          (fun c o => W (ix2 o (⟨1024 + c.val, by omega⟩ : Fin 1536)))
          (fun o => bias (ix1 o)) q o := by
  dsimp only [conv1]
  refine (pool1_apply _ b q o).trans ?_
  unfold Cert.Spec.stage
  refine congrArg Cert.Spec.pool (funext fun r => ?_)
  rw [mulf_apply, leaky1_apply, gate1_apply, pre1_apply, wsum1_apply]
  rfl

end Cert.ReferenceIdeal.RefRead

end
-- ==== Proof.RefReadStage2.lean ====
/-
  The reference's stage 2 read at an index: the windows of three consecutive positions laid end to end, the product
  with the weights, the bias, the rectifier, the gate of the windows' sums and the pairwise maximum are, at batch row
  `b`, pooled position `q` and output channel `o`, the specification's stage on row `b`.
-/
import proofs.«117697_j48292612276233_2_alg».proof.Proof.RefTerm
import proofs.«117697_j48292612276233_2_alg».proof.Proof.Spec
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Cert.ReferenceIdeal.RefValue Idealize.ShloMosaic Idealize.ShloMosaic.ValueIdx
open Facts₀ Facts

variable [Facts]
/-! ## The windows at an index -/

/-- Entry `c` of window `l` is channel `c` of position `l`. -/
theorem windows2_apply_0 (x : FVec Ideal S1024x14x200 .f32) (b : Fin 1024) (l : Fin 12) (c : Fin 200)
    (k : Fin 600) (hk : k.val = c.val) (l' : Fin 14) (hl : l'.val = l.val) :
    windows2 (F := Ideal) x (ix3 b l k) = x (ix3 b l' c) := by
  dsimp only [windows2]
  refine (concatenate_apply_piece (2 : Fin 3) _ _ (ix3 b l k) 0 ?hlen S1024x12x200
    (extractStridedSlice S1024x12x200 ![0, 0, 0] x slices_S1024x14x200_S1024x12x200_0_0_0) ?hxk ?hr 0 ?hpre (ix3 b l c)
    ?hi ?ha).trans ?_
  case hlen => simp
  case hxk => rfl
  case hr => rfl
  case hpre => rfl
  case hi =>
    intro a ha
    match a, ha with
    | ⟨0, _⟩, _ => rfl
    | ⟨1, _⟩, _ => rfl
    | ⟨2, _⟩, ha => exact absurd rfl ha
  case ha => show 0 + c.val = k.val; omega
  exact extractStridedSlice_apply _ x _ (ix3 b l c) (ix3 b l' c) (fun a => by
    match a with
    | ⟨0, _⟩ => show b.val = 0 + b.val; omega
    | ⟨1, _⟩ => show l'.val = 0 + l.val; omega
    | ⟨2, _⟩ => show c.val = 0 + c.val; omega)

/-- Entry `200 + c` of window `l` is channel `c` of position `l + 1`. -/
theorem windows2_apply_1 (x : FVec Ideal S1024x14x200 .f32) (b : Fin 1024) (l : Fin 12) (c : Fin 200)
    (k : Fin 600) (hk : k.val = 200 + c.val) (l' : Fin 14) (hl : l'.val = l.val + 1) :
    windows2 (F := Ideal) x (ix3 b l k) = x (ix3 b l' c) := by
  dsimp only [windows2]
  refine (concatenate_apply_piece (2 : Fin 3) _ _ (ix3 b l k) 1 ?hlen S1024x12x200
    (extractStridedSlice S1024x12x200 ![0, 1, 0] x slices_S1024x14x200_S1024x12x200_0_1_0) ?hxk ?hr 200 ?hpre (ix3 b l c)
    ?hi ?ha).trans ?_
  case hlen => simp
  case hxk => rfl
  case hr => rfl
  case hpre => rfl
  case hi =>
    intro a ha
    match a, ha with
    | ⟨0, _⟩, _ => rfl
    | ⟨1, _⟩, _ => rfl
    | ⟨2, _⟩, ha => exact absurd rfl ha
  case ha => show 200 + c.val = k.val; omega
  exact extractStridedSlice_apply _ x _ (ix3 b l c) (ix3 b l' c) (fun a => by
    match a with
    | ⟨0, _⟩ => show b.val = 0 + b.val; omega
    | ⟨1, _⟩ => show l'.val = 1 + l.val; omega
    | ⟨2, _⟩ => show c.val = 0 + c.val; omega)

/-- Entry `400 + c` of window `l` is channel `c` of position `l + 2`. -/
theorem windows2_apply_2 (x : FVec Ideal S1024x14x200 .f32) (b : Fin 1024) (l : Fin 12) (c : Fin 200)
    (k : Fin 600) (hk : k.val = 400 + c.val) (l' : Fin 14) (hl : l'.val = l.val + 2) :
    windows2 (F := Ideal) x (ix3 b l k) = x (ix3 b l' c) := by
  dsimp only [windows2]
  refine (concatenate_apply_piece (2 : Fin 3) _ _ (ix3 b l k) 2 ?hlen S1024x12x200
    (extractStridedSlice S1024x12x200 ![0, 2, 0] x slices_S1024x14x200_S1024x12x200_0_2_0) ?hxk ?hr 400 ?hpre (ix3 b l c)
    ?hi ?ha).trans ?_
  case hlen => simp
  case hxk => rfl
  case hr => rfl
  case hpre => rfl
  case hi =>
    intro a ha
    match a, ha with
    | ⟨0, _⟩, _ => rfl
    | ⟨1, _⟩, _ => rfl
    | ⟨2, _⟩, ha => exact absurd rfl ha
  case ha => show 400 + c.val = k.val; omega
  exact extractStridedSlice_apply _ x _ (ix3 b l c) (ix3 b l' c) (fun a => by
    match a with
    | ⟨0, _⟩ => show b.val = 0 + b.val; omega
    | ⟨1, _⟩ => show l'.val = 2 + l.val; omega
    | ⟨2, _⟩ => show c.val = 0 + c.val; omega)

/-! ## The product with the weights at an index -/

/-- The left operand's index at output `(b, l, o)` and contraction coordinate `k` is `(b, l, k)`. -/
theorem dot2_lhsIdx (b : Fin 1024) (l : Fin 12) (o : Fin 300) (k : Fin 600) :
    dot_S1024x12x600_S300x600_S1024x12x300_2_1_01_0_n_n.lhsIdx (ix3 b l o)
      ((contrEquiv1 dot_S1024x12x600_S300x600_S1024x12x300_2_1_01_0_n_n 600 rfl rfl).symm k) = ix3 b l k := by
  funext a
  refine Fin.ext ?_
  match a with
  | ⟨0, _⟩ => rfl
  | ⟨1, _⟩ => rfl
  | ⟨2, _⟩ =>
    exact (DotDims.lhsIdx_val_of_single dot_S1024x12x600_S300x600_S1024x12x300_2_1_01_0_n_n (cl := (2 : Fin 3)) rfl _ _).trans
      (contrEquiv1_symm_val dot_S1024x12x600_S300x600_S1024x12x300_2_1_01_0_n_n 600 rfl rfl k)

/-- The right operand's index there is `(o, k)`. -/
theorem dot2_rhsIdx (b : Fin 1024) (l : Fin 12) (o : Fin 300) (k : Fin 600) :
    dot_S1024x12x600_S300x600_S1024x12x300_2_1_01_0_n_n.rhsIdx (ix3 b l o)
      ((contrEquiv1 dot_S1024x12x600_S300x600_S1024x12x300_2_1_01_0_n_n 600 rfl rfl).symm k) = ix2 o k := by
  funext a
  refine Fin.ext ?_
  match a with
  | ⟨0, _⟩ => rfl
  | ⟨1, _⟩ =>
    exact (DotDims.rhsIdx_val_of_single dot_S1024x12x600_S300x600_S1024x12x300_2_1_01_0_n_n (cr := (1 : Fin 2)) rfl _ _).trans
      (contrEquiv1_symm_val dot_S1024x12x600_S300x600_S1024x12x300_2_1_01_0_n_n 600 rfl rfl k)

/-- The product read at `(b, l, o)`: the sum over the window's entries of entry times weight. -/
theorem dot2_apply (win : FVec Ideal S1024x12x600 .f32) (W : FVec Ideal S300x600 .f32) (b : Fin 1024) (l : Fin 12)
    (o : Fin 300) :
    Host.dotGeneral (F := Ideal) dot_S1024x12x600_S300x600_S1024x12x300_2_1_01_0_n_n none win W (ix3 b l o)
      = ∑ k : Fin 600, win (ix3 b l k) * W (ix2 o k) := by
  show FloatOps.dotGeneral _ none _ win W (ix3 b l o) = _
  rw [Ideal.dotGeneral_apply,
    ← Equiv.sum_comp (contrEquiv1 dot_S1024x12x600_S300x600_S1024x12x300_2_1_01_0_n_n 600 rfl rfl).symm]
  refine Finset.sum_congr rfl fun k _ => ?_
  rw [dot2_lhsIdx, dot2_rhsIdx]

/-! ## The value before the rectifier -/

/-- The product plus the bias, at `(b, l, o)`, is the specification's value before the rectifier: the sum over the
    window's `600` entries splits into the three positions' sums. -/
theorem pre2_apply (x : FVec Ideal S1024x14x200 .f32) (W : FVec Ideal S300x600 .f32) (bias : FVec Ideal S300 .f32)
    (b : Fin 1024) (l : Fin 12) (o : Fin 300) :
    addf (Host.dotGeneral (F := Ideal) dot_S1024x12x600_S300x600_S1024x12x300_2_1_01_0_n_n none (windows2 (F := Ideal) x) W)
        (broadcastInDim S1024x12x300 ![0, 1, 2] bcast_S1x1x300_S1024x12x300_0_1_2
          (broadcastInDim S1x1x300 ![2] bcast_S300_S1x1x300_2 bias)) (ix3 b l o)
      = Cert.Spec.pre 14 12 200 300 rfl (fun l c => x (ix3 b l c))
          (fun c o => W (ix2 o (⟨c.val, by omega⟩ : Fin 600)))
          (fun c o => W (ix2 o (⟨200 + c.val, by omega⟩ : Fin 600)))
          (fun c o => W (ix2 o (⟨400 + c.val, by omega⟩ : Fin 600)))
          (fun o => bias (ix1 o)) l o := by
  rw [addf_apply, dot2_apply]
  unfold Cert.Spec.pre
  refine congrArg₂ (· + ·) ?_ ?_
  · refine (Cert.Spec.sum_split3 200 600 rfl _).trans ?_
    refine congrArg₂ (· + ·) (congrArg₂ (· + ·) ?_ ?_) ?_
    · refine Finset.sum_congr rfl fun c _ => ?_
      dsimp only
      rw [windows2_apply_0 x b l c _ rfl ⟨l.val, by omega⟩ rfl]
    · refine Finset.sum_congr rfl fun c _ => ?_
      dsimp only
      rw [windows2_apply_1 x b l c _ rfl ⟨l.val + 1, by omega⟩ rfl]
    · refine Finset.sum_congr rfl fun c _ => ?_
      dsimp only
      rw [windows2_apply_2 x b l c _ rfl ⟨l.val + 2, by omega⟩ rfl]
  · refine (broadcastInDim_apply _ _ _ (ix3 b l o) (ix3 (0 : Fin 1) (0 : Fin 1) o) (fun a => by
      match a with
      | ⟨0, _⟩ => rfl
      | ⟨1, _⟩ => rfl
      | ⟨2, _⟩ => rfl)).trans ?_
    exact broadcastInDim_apply _ _ bias (ix3 (0 : Fin 1) (0 : Fin 1) o) (ix1 o) (fun a => by
      match a with
      | ⟨0, _⟩ => rfl)

/-! ## The rectifier -/

/-- The reference's compare, multiply and select, at an index, is the leaky rectifier of the element. -/
theorem leaky2_apply (y : FVec Ideal S1024x12x300 .f32) (j : S1024x12x300.Idx) :
    leaky2 (F := Ideal) y j = Cert.Spec.leaky (y j) := rfl

/-! ## The gate -/

/-- The sum of a window's `600` entries is the three positions' sums. -/
theorem wsum2_apply (x : FVec Ideal S1024x14x200 .f32) (b : Fin 1024) (l : Fin 12) :
    Host.reduceAdd (F := Ideal) (windows2 (F := Ideal) x) (constant (F := Ideal) S_ .f32 0x00000000#32)
        reducesTo_S1024x12x600_S1024x12_d2 h_S_ (ix2 b l)
      = Cert.Spec.wsum 14 12 200 rfl (fun l c => x (ix3 b l c)) l := by
  have hR : S1024x12x600.Reduces [2] S1024x12 := by decide
  have hlift : ∀ k : Fin 600, hR.lift (ix2 b l) k = ix3 b l k := fun k =>
    funext fun a => Fin.ext (by
      match a with
      | ⟨0, _⟩ => rfl
      | ⟨1, _⟩ => rfl
      | ⟨2, _⟩ => rfl)
  refine (Ideal.hostReduceAdd_single reducesTo_S1024x12x600_S1024x12_d2 hR (windows2 (F := Ideal) x)
    (Ideal.ofBits .f32 0x00000000#32) (ix2 b l)).trans ?_
  rw [Ideal.ofBits_zero_f32, zero_add]
  refine (Finset.sum_congr rfl fun k _ => congrArg (windows2 (F := Ideal) x) (hlift k)).trans ?_
  refine (Cert.Spec.sum_split3 200 600 rfl _).trans ?_
  unfold Cert.Spec.wsum
  refine congrArg₂ (· + ·) (congrArg₂ (· + ·) ?_ ?_) ?_
  · exact Finset.sum_congr rfl fun c _ => windows2_apply_0 x b l c _ rfl ⟨l.val, by omega⟩ rfl
  · exact Finset.sum_congr rfl fun c _ => windows2_apply_1 x b l c _ rfl ⟨l.val + 1, by omega⟩ rfl
  · exact Finset.sum_congr rfl fun c _ => windows2_apply_2 x b l c _ rfl ⟨l.val + 2, by omega⟩ rfl

/-- The comparison of the windows' sums with zero, widened and broadcast over the channels, at `(b, l, o)`, is the gate
    of window `l`'s sum. -/
theorem gate2_apply (ws : FVec Ideal S1024x12 .f32) (b : Fin 1024) (l : Fin 12) (o : Fin 300) :
    broadcastInDim S1024x12x300 ![0, 1, 2] bcast_S1024x12x1_S1024x12x300_0_1_2
        (uitofp (F := Ideal) .f32 (cmpf .une (broadcastInDim S1024x12x1 ![0, 1] bcast_S1024x12_S1024x12x1_0_1 ws)
          (broadcastInDim S1024x12x1 ![] bcast_S_S1024x12x1 (constant (F := Ideal) S_ .f32 0x00000000#32))))
        (ix3 b l o)
      = Cert.Spec.gate (ws (ix2 b l)) := by
  refine (broadcastInDim_apply _ _ _ (ix3 b l o) (ix3 b l (0 : Fin 1)) (fun a => by
    match a with
    | ⟨0, _⟩ => rfl
    | ⟨1, _⟩ => rfl
    | ⟨2, _⟩ => rfl)).trans ?_
  show (((Ideal.cmp .une (broadcastInDim S1024x12x1 ![0, 1] bcast_S1024x12_S1024x12x1_0_1 ws (ix3 b l (0 : Fin 1)))
    Cert.Spec.zeroW).toNat : ℝ) : EReal) = _
  rw [broadcastInDim_apply _ _ ws (ix3 b l (0 : Fin 1)) (ix2 b l) (fun a => by
    match a with
    | ⟨0, _⟩ => rfl
    | ⟨1, _⟩ => rfl)]
  exact Cert.Spec.gate_eq_toNat _

/-! ## The pooling -/

/-- The array regrouped in pairs of positions and reduced by the maximum from −∞, at `(b, q, o)`, is the pool of
    positions `2q` and `2q + 1`. -/
theorem pool2_apply (y : FVec Ideal S1024x12x300 .f32) (b : Fin 1024) (q : Fin 6) (o : Fin 300) :
    Host.reduce (FloatOps.maximumf (F := Ideal) (φ := .f32)) (shapeCast S1024x6x2x300 y shapeCasts_S1024x12x300_S1024x6x2x300)
        (constant (F := Ideal) S_ .f32 0xFF800000#32) reducesTo_S1024x6x2x300_S1024x6x300_d2 h_S_ (ix3 b q o)
      = Cert.Spec.pool fun r =>
          y (ix3 b (⟨2 * q.val + r.val, by have := q.isLt; have := r.isLt; omega⟩ : Fin 12) o) := by
  refine (Host.reduce_eq_fold_single (FloatOps.maximumf (F := Ideal) (φ := .f32)) _ _
    reducesTo_S1024x6x2x300_S1024x6x300_d2 (by decide) h_S_ (ix3 b q o)).trans ?_
  unfold Cert.Spec.pool
  show (Finset.univ : Finset (Fin 2)).fold max Cert.Spec.negInfW _ = _
  refine congrArg (fun f : Fin 2 → EReal => (Finset.univ : Finset (Fin 2)).fold max Cert.Spec.negInfW f)
    (funext fun (r : Fin 2) => ?_)
  refine shapeCast_apply y _ _ (ix3 b (⟨2 * q.val + r.val, by have := q.isLt; have := r.isLt; omega⟩ : Fin 12) o) ?_
  rw [Shape.rowMajor_val_three, Shape.rowMajor_val_four]
  show (b.val * 12 + (2 * q.val + r.val)) * 300 + o.val = ((b.val * 6 + q.val) * 2 + r.val) * 300 + o.val
  omega

/-! ## The stage -/

/-- **The reference's stage 2 at an index** is the specification's stage on the batch row. -/
theorem conv2_apply (x : FVec Ideal S1024x14x200 .f32) (W : FVec Ideal S300x600 .f32) (bias : FVec Ideal S300 .f32)
    (b : Fin 1024) (q : Fin 6) (o : Fin 300) :
    conv2 (F := Ideal) x W bias (ix3 b q o)
      = Cert.Spec.stage 14 12 6 200 300 rfl rfl (fun l c => x (ix3 b l c))
          (fun c o => W (ix2 o (⟨c.val, by omega⟩ : Fin 600)))
          (fun c o => W (ix2 o (⟨200 + c.val, by omega⟩ : Fin 600)))
          (fun c o => W (ix2 o (⟨400 + c.val, by omega⟩ : Fin 600)))
          (fun o => bias (ix1 o)) q o := by
  dsimp only [conv2]
  refine (pool2_apply _ b q o).trans ?_
  unfold Cert.Spec.stage
  refine congrArg Cert.Spec.pool (funext fun r => ?_)
  rw [mulf_apply, leaky2_apply, gate2_apply, pre2_apply, wsum2_apply]
  rfl

end Cert.ReferenceIdeal.RefRead

end
-- ==== Proof.RefReadStage3.lean ====
/-
  The reference's stage 3 read at an index: the windows of three consecutive positions laid end to end, the product
  with the weights, the bias, the rectifier, the gate of the windows' sums and the pairwise maximum are, at batch row
  `b`, pooled position `q` and output channel `o`, the specification's stage on row `b`.
-/
import proofs.«117697_j48292612276233_2_alg».proof.Proof.RefTerm
import proofs.«117697_j48292612276233_2_alg».proof.Proof.Spec
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Cert.ReferenceIdeal.RefValue Idealize.ShloMosaic Idealize.ShloMosaic.ValueIdx
open Facts₀ Facts

variable [Facts]
/-! ## The windows at an index -/

/-- Entry `c` of window `l` is channel `c` of position `l`. -/
theorem windows3_apply_0 (x : FVec Ideal S1024x6x300 .f32) (b : Fin 1024) (l : Fin 4) (c : Fin 300)
    (k : Fin 900) (hk : k.val = c.val) (l' : Fin 6) (hl : l'.val = l.val) :
    windows3 (F := Ideal) x (ix3 b l k) = x (ix3 b l' c) := by
  dsimp only [windows3]
  refine (concatenate_apply_piece (2 : Fin 3) _ _ (ix3 b l k) 0 ?hlen S1024x4x300
    (extractStridedSlice S1024x4x300 ![0, 0, 0] x slices_S1024x6x300_S1024x4x300_0_0_0) ?hxk ?hr 0 ?hpre (ix3 b l c)
    ?hi ?ha).trans ?_
  case hlen => simp
  case hxk => rfl
  case hr => rfl
  case hpre => rfl
  case hi =>
    intro a ha
    match a, ha with
    | ⟨0, _⟩, _ => rfl
    | ⟨1, _⟩, _ => rfl
    | ⟨2, _⟩, ha => exact absurd rfl ha
  case ha => show 0 + c.val = k.val; omega
  exact extractStridedSlice_apply _ x _ (ix3 b l c) (ix3 b l' c) (fun a => by
    match a with
    | ⟨0, _⟩ => show b.val = 0 + b.val; omega
    | ⟨1, _⟩ => show l'.val = 0 + l.val; omega
    | ⟨2, _⟩ => show c.val = 0 + c.val; omega)

/-- Entry `300 + c` of window `l` is channel `c` of position `l + 1`. -/
theorem windows3_apply_1 (x : FVec Ideal S1024x6x300 .f32) (b : Fin 1024) (l : Fin 4) (c : Fin 300)
    (k : Fin 900) (hk : k.val = 300 + c.val) (l' : Fin 6) (hl : l'.val = l.val + 1) :
    windows3 (F := Ideal) x (ix3 b l k) = x (ix3 b l' c) := by
  dsimp only [windows3]
  refine (concatenate_apply_piece (2 : Fin 3) _ _ (ix3 b l k) 1 ?hlen S1024x4x300
    (extractStridedSlice S1024x4x300 ![0, 1, 0] x slices_S1024x6x300_S1024x4x300_0_1_0) ?hxk ?hr 300 ?hpre (ix3 b l c)
    ?hi ?ha).trans ?_
  case hlen => simp
  case hxk => rfl
  case hr => rfl
  case hpre => rfl
  case hi =>
    intro a ha
    match a, ha with
    | ⟨0, _⟩, _ => rfl
    | ⟨1, _⟩, _ => rfl
    | ⟨2, _⟩, ha => exact absurd rfl ha
  case ha => show 300 + c.val = k.val; omega
  exact extractStridedSlice_apply _ x _ (ix3 b l c) (ix3 b l' c) (fun a => by
    match a with
    | ⟨0, _⟩ => show b.val = 0 + b.val; omega
    | ⟨1, _⟩ => show l'.val = 1 + l.val; omega
    | ⟨2, _⟩ => show c.val = 0 + c.val; omega)

/-- Entry `600 + c` of window `l` is channel `c` of position `l + 2`. -/
theorem windows3_apply_2 (x : FVec Ideal S1024x6x300 .f32) (b : Fin 1024) (l : Fin 4) (c : Fin 300)
    (k : Fin 900) (hk : k.val = 600 + c.val) (l' : Fin 6) (hl : l'.val = l.val + 2) :
    windows3 (F := Ideal) x (ix3 b l k) = x (ix3 b l' c) := by
  dsimp only [windows3]
  refine (concatenate_apply_piece (2 : Fin 3) _ _ (ix3 b l k) 2 ?hlen S1024x4x300
    (extractStridedSlice S1024x4x300 ![0, 2, 0] x slices_S1024x6x300_S1024x4x300_0_2_0) ?hxk ?hr 600 ?hpre (ix3 b l c)
    ?hi ?ha).trans ?_
  case hlen => simp
  case hxk => rfl
  case hr => rfl
  case hpre => rfl
  case hi =>
    intro a ha
    match a, ha with
    | ⟨0, _⟩, _ => rfl
    | ⟨1, _⟩, _ => rfl
    | ⟨2, _⟩, ha => exact absurd rfl ha
  case ha => show 600 + c.val = k.val; omega
  exact extractStridedSlice_apply _ x _ (ix3 b l c) (ix3 b l' c) (fun a => by
    match a with
    | ⟨0, _⟩ => show b.val = 0 + b.val; omega
    | ⟨1, _⟩ => show l'.val = 2 + l.val; omega
    | ⟨2, _⟩ => show c.val = 0 + c.val; omega)

/-! ## The product with the weights at an index -/

/-- The left operand's index at output `(b, l, o)` and contraction coordinate `k` is `(b, l, k)`. -/
theorem dot3_lhsIdx (b : Fin 1024) (l : Fin 4) (o : Fin 300) (k : Fin 900) :
    dot_S1024x4x900_S300x900_S1024x4x300_2_1_01_0_n_n.lhsIdx (ix3 b l o)
      ((contrEquiv1 dot_S1024x4x900_S300x900_S1024x4x300_2_1_01_0_n_n 900 rfl rfl).symm k) = ix3 b l k := by
  funext a
  refine Fin.ext ?_
  match a with
  | ⟨0, _⟩ => rfl
  | ⟨1, _⟩ => rfl
  | ⟨2, _⟩ =>
    exact (DotDims.lhsIdx_val_of_single dot_S1024x4x900_S300x900_S1024x4x300_2_1_01_0_n_n (cl := (2 : Fin 3)) rfl _ _).trans
      (contrEquiv1_symm_val dot_S1024x4x900_S300x900_S1024x4x300_2_1_01_0_n_n 900 rfl rfl k)

/-- The right operand's index there is `(o, k)`. -/
theorem dot3_rhsIdx (b : Fin 1024) (l : Fin 4) (o : Fin 300) (k : Fin 900) :
    dot_S1024x4x900_S300x900_S1024x4x300_2_1_01_0_n_n.rhsIdx (ix3 b l o)
      ((contrEquiv1 dot_S1024x4x900_S300x900_S1024x4x300_2_1_01_0_n_n 900 rfl rfl).symm k) = ix2 o k := by
  funext a
  refine Fin.ext ?_
  match a with
  | ⟨0, _⟩ => rfl
  | ⟨1, _⟩ =>
    exact (DotDims.rhsIdx_val_of_single dot_S1024x4x900_S300x900_S1024x4x300_2_1_01_0_n_n (cr := (1 : Fin 2)) rfl _ _).trans
      (contrEquiv1_symm_val dot_S1024x4x900_S300x900_S1024x4x300_2_1_01_0_n_n 900 rfl rfl k)

/-- The product read at `(b, l, o)`: the sum over the window's entries of entry times weight. -/
theorem dot3_apply (win : FVec Ideal S1024x4x900 .f32) (W : FVec Ideal S300x900 .f32) (b : Fin 1024) (l : Fin 4)
    (o : Fin 300) :
    Host.dotGeneral (F := Ideal) dot_S1024x4x900_S300x900_S1024x4x300_2_1_01_0_n_n none win W (ix3 b l o)
      = ∑ k : Fin 900, win (ix3 b l k) * W (ix2 o k) := by
  show FloatOps.dotGeneral _ none _ win W (ix3 b l o) = _
  rw [Ideal.dotGeneral_apply,
    ← Equiv.sum_comp (contrEquiv1 dot_S1024x4x900_S300x900_S1024x4x300_2_1_01_0_n_n 900 rfl rfl).symm]
  refine Finset.sum_congr rfl fun k _ => ?_
  rw [dot3_lhsIdx, dot3_rhsIdx]

/-! ## The value before the rectifier -/

/-- The product plus the bias, at `(b, l, o)`, is the specification's value before the rectifier: the sum over the
    window's `900` entries splits into the three positions' sums. -/
theorem pre3_apply (x : FVec Ideal S1024x6x300 .f32) (W : FVec Ideal S300x900 .f32) (bias : FVec Ideal S300 .f32)
    (b : Fin 1024) (l : Fin 4) (o : Fin 300) :
    addf (Host.dotGeneral (F := Ideal) dot_S1024x4x900_S300x900_S1024x4x300_2_1_01_0_n_n none (windows3 (F := Ideal) x) W)
        (broadcastInDim S1024x4x300 ![0, 1, 2] bcast_S1x1x300_S1024x4x300_0_1_2
          (broadcastInDim S1x1x300 ![2] bcast_S300_S1x1x300_2 bias)) (ix3 b l o)
      = Cert.Spec.pre 6 4 300 300 rfl (fun l c => x (ix3 b l c))
          (fun c o => W (ix2 o (⟨c.val, by omega⟩ : Fin 900)))
          (fun c o => W (ix2 o (⟨300 + c.val, by omega⟩ : Fin 900)))
          (fun c o => W (ix2 o (⟨600 + c.val, by omega⟩ : Fin 900)))
          (fun o => bias (ix1 o)) l o := by
  rw [addf_apply, dot3_apply]
  unfold Cert.Spec.pre
  refine congrArg₂ (· + ·) ?_ ?_
  · refine (Cert.Spec.sum_split3 300 900 rfl _).trans ?_
    refine congrArg₂ (· + ·) (congrArg₂ (· + ·) ?_ ?_) ?_
    · refine Finset.sum_congr rfl fun c _ => ?_
      dsimp only
      rw [windows3_apply_0 x b l c _ rfl ⟨l.val, by omega⟩ rfl]
    · refine Finset.sum_congr rfl fun c _ => ?_
      dsimp only
      rw [windows3_apply_1 x b l c _ rfl ⟨l.val + 1, by omega⟩ rfl]
    · refine Finset.sum_congr rfl fun c _ => ?_
      dsimp only
      rw [windows3_apply_2 x b l c _ rfl ⟨l.val + 2, by omega⟩ rfl]
  · refine (broadcastInDim_apply _ _ _ (ix3 b l o) (ix3 (0 : Fin 1) (0 : Fin 1) o) (fun a => by
      match a with
      | ⟨0, _⟩ => rfl
      | ⟨1, _⟩ => rfl
      | ⟨2, _⟩ => rfl)).trans ?_
    exact broadcastInDim_apply _ _ bias (ix3 (0 : Fin 1) (0 : Fin 1) o) (ix1 o) (fun a => by
      match a with
      | ⟨0, _⟩ => rfl)

/-! ## The rectifier -/

/-- The reference's compare, multiply and select, at an index, is the leaky rectifier of the element. -/
theorem leaky3_apply (y : FVec Ideal S1024x4x300 .f32) (j : S1024x4x300.Idx) :
    leaky3 (F := Ideal) y j = Cert.Spec.leaky (y j) := rfl

/-! ## The gate -/

/-- The sum of a window's `900` entries is the three positions' sums. -/
theorem wsum3_apply (x : FVec Ideal S1024x6x300 .f32) (b : Fin 1024) (l : Fin 4) :
    Host.reduceAdd (F := Ideal) (windows3 (F := Ideal) x) (constant (F := Ideal) S_ .f32 0x00000000#32)
        reducesTo_S1024x4x900_S1024x4_d2 h_S_ (ix2 b l)
      = Cert.Spec.wsum 6 4 300 rfl (fun l c => x (ix3 b l c)) l := by
  have hR : S1024x4x900.Reduces [2] S1024x4 := by decide
  have hlift : ∀ k : Fin 900, hR.lift (ix2 b l) k = ix3 b l k := fun k =>
    funext fun a => Fin.ext (by
      match a with
      | ⟨0, _⟩ => rfl
      | ⟨1, _⟩ => rfl
      | ⟨2, _⟩ => rfl)
  refine (Ideal.hostReduceAdd_single reducesTo_S1024x4x900_S1024x4_d2 hR (windows3 (F := Ideal) x)
    (Ideal.ofBits .f32 0x00000000#32) (ix2 b l)).trans ?_
  rw [Ideal.ofBits_zero_f32, zero_add]
  refine (Finset.sum_congr rfl fun k _ => congrArg (windows3 (F := Ideal) x) (hlift k)).trans ?_
  refine (Cert.Spec.sum_split3 300 900 rfl _).trans ?_
  unfold Cert.Spec.wsum
  refine congrArg₂ (· + ·) (congrArg₂ (· + ·) ?_ ?_) ?_
  · exact Finset.sum_congr rfl fun c _ => windows3_apply_0 x b l c _ rfl ⟨l.val, by omega⟩ rfl
  · exact Finset.sum_congr rfl fun c _ => windows3_apply_1 x b l c _ rfl ⟨l.val + 1, by omega⟩ rfl
  · exact Finset.sum_congr rfl fun c _ => windows3_apply_2 x b l c _ rfl ⟨l.val + 2, by omega⟩ rfl

/-- The comparison of the windows' sums with zero, widened and broadcast over the channels, at `(b, l, o)`, is the gate
    of window `l`'s sum. -/
theorem gate3_apply (ws : FVec Ideal S1024x4 .f32) (b : Fin 1024) (l : Fin 4) (o : Fin 300) :
    broadcastInDim S1024x4x300 ![0, 1, 2] bcast_S1024x4x1_S1024x4x300_0_1_2
        (uitofp (F := Ideal) .f32 (cmpf .une (broadcastInDim S1024x4x1 ![0, 1] bcast_S1024x4_S1024x4x1_0_1 ws)
          (broadcastInDim S1024x4x1 ![] bcast_S_S1024x4x1 (constant (F := Ideal) S_ .f32 0x00000000#32))))
        (ix3 b l o)
      = Cert.Spec.gate (ws (ix2 b l)) := by
  refine (broadcastInDim_apply _ _ _ (ix3 b l o) (ix3 b l (0 : Fin 1)) (fun a => by
    match a with
    | ⟨0, _⟩ => rfl
    | ⟨1, _⟩ => rfl
    | ⟨2, _⟩ => rfl)).trans ?_
  show (((Ideal.cmp .une (broadcastInDim S1024x4x1 ![0, 1] bcast_S1024x4_S1024x4x1_0_1 ws (ix3 b l (0 : Fin 1)))
    Cert.Spec.zeroW).toNat : ℝ) : EReal) = _
  rw [broadcastInDim_apply _ _ ws (ix3 b l (0 : Fin 1)) (ix2 b l) (fun a => by
    match a with
    | ⟨0, _⟩ => rfl
    | ⟨1, _⟩ => rfl)]
  exact Cert.Spec.gate_eq_toNat _

/-! ## The pooling -/

/-- The array regrouped in pairs of positions and reduced by the maximum from −∞, at `(b, q, o)`, is the pool of
    positions `2q` and `2q + 1`. -/
theorem pool3_apply (y : FVec Ideal S1024x4x300 .f32) (b : Fin 1024) (q : Fin 2) (o : Fin 300) :
    Host.reduce (FloatOps.maximumf (F := Ideal) (φ := .f32)) (shapeCast S1024x2x2x300 y shapeCasts_S1024x4x300_S1024x2x2x300)
        (constant (F := Ideal) S_ .f32 0xFF800000#32) reducesTo_S1024x2x2x300_S1024x2x300_d2 h_S_ (ix3 b q o)
      = Cert.Spec.pool fun r =>
          y (ix3 b (⟨2 * q.val + r.val, by have := q.isLt; have := r.isLt; omega⟩ : Fin 4) o) := by
  refine (Host.reduce_eq_fold_single (FloatOps.maximumf (F := Ideal) (φ := .f32)) _ _
    reducesTo_S1024x2x2x300_S1024x2x300_d2 (by decide) h_S_ (ix3 b q o)).trans ?_
  unfold Cert.Spec.pool
  show (Finset.univ : Finset (Fin 2)).fold max Cert.Spec.negInfW _ = _
  refine congrArg (fun f : Fin 2 → EReal => (Finset.univ : Finset (Fin 2)).fold max Cert.Spec.negInfW f)
    (funext fun (r : Fin 2) => ?_)
  refine shapeCast_apply y _ _ (ix3 b (⟨2 * q.val + r.val, by have := q.isLt; have := r.isLt; omega⟩ : Fin 4) o) ?_
  rw [Shape.rowMajor_val_three, Shape.rowMajor_val_four]
  show (b.val * 4 + (2 * q.val + r.val)) * 300 + o.val = ((b.val * 2 + q.val) * 2 + r.val) * 300 + o.val
  omega

/-! ## The stage -/

/-- **The reference's stage 3 at an index** is the specification's stage on the batch row. -/
theorem conv3_apply (x : FVec Ideal S1024x6x300 .f32) (W : FVec Ideal S300x900 .f32) (bias : FVec Ideal S300 .f32)
    (b : Fin 1024) (q : Fin 2) (o : Fin 300) :
    conv3 (F := Ideal) x W bias (ix3 b q o)
      = Cert.Spec.stage 6 4 2 300 300 rfl rfl (fun l c => x (ix3 b l c))
          (fun c o => W (ix2 o (⟨c.val, by omega⟩ : Fin 900)))
          (fun c o => W (ix2 o (⟨300 + c.val, by omega⟩ : Fin 900)))
          (fun c o => W (ix2 o (⟨600 + c.val, by omega⟩ : Fin 900)))
          (fun o => bias (ix1 o)) q o := by
  dsimp only [conv3]
  refine (pool3_apply _ b q o).trans ?_
  unfold Cert.Spec.stage
  refine congrArg Cert.Spec.pool (funext fun r => ?_)
  rw [mulf_apply, leaky3_apply, gate3_apply, pre3_apply, wsum3_apply]
  rfl

end Cert.ReferenceIdeal.RefRead

end
-- ==== Proof.RefReadHead.lean ====
/-
  The reference's dense head read at an index: the last stage's two pooled positions flattened channel-fastest and
  joined with the image vector, the dense layer with its bias and rectifier, and the last linear layer with its bias
  are, at batch row `b`, the specification's head on row `b`.
-/
import proofs.«117697_j48292612276233_2_alg».proof.Proof.RefTerm
import proofs.«117697_j48292612276233_2_alg».proof.Proof.Spec
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Cert.ReferenceIdeal.RefValue Idealize.ShloMosaic Idealize.ShloMosaic.ValueIdx
open Facts₀ Facts

variable [Facts]

/-! ## The joined features at an index -/

/-- Entry `k < 600` of the joined features is channel `k % 300` of pooled position `k / 300`. -/
theorem feat_apply_x (x3 : FVec Ideal S1024x2x300 .f32) (a0 : FVec Ideal S1024x2048 .f32) (b : Fin 1024) (k : Fin 600)
    (k' : Fin 2648) (hk : k'.val = k.val) :
    concatenate S1024x2648 1 [⟨S1024x600, shapeCast S1024x600 x3 shapeCasts_S1024x2x300_S1024x600⟩, ⟨S1024x2048, a0⟩]
        concatenates_S1024x600_S1024x2048_S1024x2648_d1 (ix2 b k')
      = x3 (ix3 b (⟨k.val / 300, by omega⟩ : Fin 2) (⟨k.val % 300, by omega⟩ : Fin 300)) := by
  refine (concatenate_apply_piece (1 : Fin 2) _ _ (ix2 b k') 0 ?hlen S1024x600
    (shapeCast S1024x600 x3 shapeCasts_S1024x2x300_S1024x600) ?hxk ?hr 0 ?hpre (ix2 b k) ?hi ?ha).trans ?_
  case hlen => simp
  case hxk => rfl
  case hr => rfl
  case hpre => rfl
  case hi =>
    intro a ha
    match a, ha with
    | ⟨0, _⟩, _ => rfl
    | ⟨1, _⟩, ha => exact absurd rfl ha
  case ha => show 0 + k.val = k'.val; omega
  refine shapeCast_apply x3 _ (ix2 b k) (ix3 b (⟨k.val / 300, by omega⟩ : Fin 2) (⟨k.val % 300, by omega⟩ : Fin 300)) ?_
  rw [Shape.rowMajor_val_three, Shape.rowMajor_val_two]
  show (b.val * 2 + k.val / 300) * 300 + k.val % 300 = b.val * 600 + k.val
  omega

/-- Entry `600 + k` of the joined features is entry `k` of the image vector. -/
theorem feat_apply_img (x3 : FVec Ideal S1024x2x300 .f32) (a0 : FVec Ideal S1024x2048 .f32) (b : Fin 1024) (k : Fin 2048)
    (k' : Fin 2648) (hk : k'.val = 600 + k.val) :
    concatenate S1024x2648 1 [⟨S1024x600, shapeCast S1024x600 x3 shapeCasts_S1024x2x300_S1024x600⟩, ⟨S1024x2048, a0⟩]
        concatenates_S1024x600_S1024x2048_S1024x2648_d1 (ix2 b k')
      = a0 (ix2 b k) := by
  refine concatenate_apply_piece (1 : Fin 2) _ _ (ix2 b k') 1 ?hlen S1024x2048 a0 ?hxk ?hr 600 ?hpre (ix2 b k) ?hi ?ha
  case hlen => simp
  case hxk => rfl
  case hr => rfl
  case hpre => rfl
  case hi =>
    intro a ha
    match a, ha with
    | ⟨0, _⟩, _ => rfl
    | ⟨1, _⟩, ha => exact absurd rfl ha
  case ha => show 600 + k.val = k'.val; omega

/-! ## The transposed weights at an index -/

/-- The dense layer's weights transposed, at `(k, o)`, are the weights at `(o, k)`. -/
theorem wmT_apply (Wm : FVec Ideal S400x2648 .f32) (k : Fin 2648) (o : Fin 400) :
    transpose S2648x400 [1, 0] Wm transposes_S400x2648_S2648x400_1_0 (ix2 k o) = Wm (ix2 o k) :=
  transpose_apply _ Wm _ (ix2 k o) (ix2 o k) (fun a => by
    match a with
    | ⟨0, _⟩ => rfl
    | ⟨1, _⟩ => rfl)

/-- The last layer's weights transposed, at `(o, 0)`, are the weights at `(0, o)`. -/
theorem woT_apply (Wo : FVec Ideal S1x400 .f32) (o : Fin 400) :
    transpose S400x1 [1, 0] Wo transposes_S1x400_S400x1_1_0 (ix2 o (0 : Fin 1)) = Wo (ix2 (0 : Fin 1) o) :=
  transpose_apply _ Wo _ (ix2 o (0 : Fin 1)) (ix2 (0 : Fin 1) o) (fun a => by
    match a with
    | ⟨0, _⟩ => rfl
    | ⟨1, _⟩ => rfl)

/-! ## The two products at an index -/

/-- The left operand's index of the dense layer's product at output `(r, c)` and contraction coordinate `k` is `(r, k)`. -/
theorem dotm_lhsIdx (r : Fin 1024) (c : Fin 400) (k : Fin 2648) :
    dot_S1024x2648_S2648x400_S1024x400_1_0_0_1_n_n.lhsIdx (ix2 r c)
      ((contrEquiv1 dot_S1024x2648_S2648x400_S1024x400_1_0_0_1_n_n 2648 rfl rfl).symm k) = ix2 r k := by
  funext a
  refine Fin.ext ?_
  match a with
  | ⟨0, _⟩ => rfl
  | ⟨1, _⟩ =>
    exact (DotDims.lhsIdx_val_of_single dot_S1024x2648_S2648x400_S1024x400_1_0_0_1_n_n (cl := (1 : Fin 2)) rfl _ _).trans
      (contrEquiv1_symm_val dot_S1024x2648_S2648x400_S1024x400_1_0_0_1_n_n 2648 rfl rfl k)

/-- The right operand's index there is `(k, c)`. -/
theorem dotm_rhsIdx (r : Fin 1024) (c : Fin 400) (k : Fin 2648) :
    dot_S1024x2648_S2648x400_S1024x400_1_0_0_1_n_n.rhsIdx (ix2 r c)
      ((contrEquiv1 dot_S1024x2648_S2648x400_S1024x400_1_0_0_1_n_n 2648 rfl rfl).symm k) = ix2 k c := by
  funext a
  refine Fin.ext ?_
  match a with
  | ⟨0, _⟩ =>
    exact (DotDims.rhsIdx_val_of_single dot_S1024x2648_S2648x400_S1024x400_1_0_0_1_n_n (cr := (0 : Fin 2)) rfl _ _).trans
      (contrEquiv1_symm_val dot_S1024x2648_S2648x400_S1024x400_1_0_0_1_n_n 2648 rfl rfl k)
  | ⟨1, _⟩ => rfl

/-- The dense layer's product read at `(r, c)`: the sum over the contracted coordinate of the products of the entries. -/
theorem dotm_apply (A : FVec Ideal S1024x2648 .f32) (B : FVec Ideal S2648x400 .f32) (r : Fin 1024) (c : Fin 400) :
    Host.dotGeneral (F := Ideal) dot_S1024x2648_S2648x400_S1024x400_1_0_0_1_n_n none A B (ix2 r c)
      = ∑ k : Fin 2648, A (ix2 r k) * B (ix2 k c) := by
  show FloatOps.dotGeneral _ none _ A B (ix2 r c) = _
  rw [Ideal.dotGeneral_apply,
    ← Equiv.sum_comp (contrEquiv1 dot_S1024x2648_S2648x400_S1024x400_1_0_0_1_n_n 2648 rfl rfl).symm]
  refine Finset.sum_congr rfl fun k _ => ?_
  rw [dotm_lhsIdx, dotm_rhsIdx]

/-- The left operand's index of the last layer's product at output `(r, c)` and contraction coordinate `k` is `(r, k)`. -/
theorem doto_lhsIdx (r : Fin 1024) (c : Fin 1) (k : Fin 400) :
    dot_S1024x400_S400x1_S1024x1_1_0_0_1_n_n.lhsIdx (ix2 r c)
      ((contrEquiv1 dot_S1024x400_S400x1_S1024x1_1_0_0_1_n_n 400 rfl rfl).symm k) = ix2 r k := by
  funext a
  refine Fin.ext ?_
  match a with
  | ⟨0, _⟩ => rfl
  | ⟨1, _⟩ =>
    exact (DotDims.lhsIdx_val_of_single dot_S1024x400_S400x1_S1024x1_1_0_0_1_n_n (cl := (1 : Fin 2)) rfl _ _).trans
      (contrEquiv1_symm_val dot_S1024x400_S400x1_S1024x1_1_0_0_1_n_n 400 rfl rfl k)

/-- The right operand's index there is `(k, c)`. -/
theorem doto_rhsIdx (r : Fin 1024) (c : Fin 1) (k : Fin 400) :
    dot_S1024x400_S400x1_S1024x1_1_0_0_1_n_n.rhsIdx (ix2 r c)
      ((contrEquiv1 dot_S1024x400_S400x1_S1024x1_1_0_0_1_n_n 400 rfl rfl).symm k) = ix2 k c := by
  funext a
  refine Fin.ext ?_
  match a with
  | ⟨0, _⟩ =>
    exact (DotDims.rhsIdx_val_of_single dot_S1024x400_S400x1_S1024x1_1_0_0_1_n_n (cr := (0 : Fin 2)) rfl _ _).trans
      (contrEquiv1_symm_val dot_S1024x400_S400x1_S1024x1_1_0_0_1_n_n 400 rfl rfl k)
  | ⟨1, _⟩ => rfl

/-- The last layer's product read at `(r, c)`: the sum over the contracted coordinate of the products of the entries. -/
theorem doto_apply (A : FVec Ideal S1024x400 .f32) (B : FVec Ideal S400x1 .f32) (r : Fin 1024) (c : Fin 1) :
    Host.dotGeneral (F := Ideal) dot_S1024x400_S400x1_S1024x1_1_0_0_1_n_n none A B (ix2 r c)
      = ∑ k : Fin 400, A (ix2 r k) * B (ix2 k c) := by
  show FloatOps.dotGeneral _ none _ A B (ix2 r c) = _
  rw [Ideal.dotGeneral_apply,
    ← Equiv.sum_comp (contrEquiv1 dot_S1024x400_S400x1_S1024x1_1_0_0_1_n_n 400 rfl rfl).symm]
  refine Finset.sum_congr rfl fun k _ => ?_
  rw [doto_lhsIdx, doto_rhsIdx]

/-! ## The rectifier -/

/-- The reference's compare, multiply and select, at an index, is the leaky rectifier of the element. -/
theorem leaky4_apply (y : FVec Ideal S1024x400 .f32) (j : S1024x400.Idx) :
    leaky4 (F := Ideal) y j = Cert.Spec.leaky (y j) := rfl

/-! ## The head -/

/-- **The reference's head at row `b`** is the specification's head on the row. -/
theorem head_apply (x3 : FVec Ideal S1024x2x300 .f32) (a0 : FVec Ideal S1024x2048 .f32) (Wm : FVec Ideal S400x2648 .f32)
    (bm : FVec Ideal S400 .f32) (Wo : FVec Ideal S1x400 .f32) (bo : FVec Ideal S1 .f32) (b : Fin 1024) :
    head (F := Ideal) x3 a0 Wm bm Wo bo (ix2 b (0 : Fin 1))
      = Cert.Spec.head (fun q o => x3 (ix3 b q o)) (fun k => a0 (ix2 b k))
          (fun k o => Wm (ix2 o (⟨k.val, by omega⟩ : Fin 2648)))
          (fun k o => Wm (ix2 o (⟨600 + k.val, by omega⟩ : Fin 2648)))
          (fun o => bm (ix1 o)) (fun o => Wo (ix2 (0 : Fin 1) o)) (bo (ix1 (0 : Fin 1))) := by
  dsimp only [head]
  rw [addf_apply, doto_apply]
  unfold Cert.Spec.head
  refine congrArg₂ (· + ·) ?_ ?_
  · refine Finset.sum_congr rfl fun o _ => ?_
    rw [leaky4_apply, woT_apply, addf_apply, dotm_apply]
    refine congrArg (fun t => Cert.Spec.leaky t * Wo (ix2 (0 : Fin 1) o)) ?_
    refine congrArg₂ (· + ·) ?_ ?_
    · refine (Cert.Spec.sum_split2 600 2048 2648 rfl _).trans ?_
      refine congrArg₂ (· + ·) ?_ ?_
      · refine Finset.sum_congr rfl fun k _ => ?_
        dsimp only
        rw [feat_apply_x x3 a0 b k _ rfl, wmT_apply]
      · refine Finset.sum_congr rfl fun k _ => ?_
        dsimp only
        rw [feat_apply_img x3 a0 b k _ rfl, wmT_apply]
    · refine (broadcastInDim_apply _ _ _ (ix2 b o) (ix2 (0 : Fin 1) o) (fun a => by
        match a with
        | ⟨0, _⟩ => rfl
        | ⟨1, _⟩ => rfl)).trans ?_
      exact broadcastInDim_apply _ _ bm (ix2 (0 : Fin 1) o) (ix1 o) (fun a => by
        match a with
        | ⟨0, _⟩ => rfl)
  · refine (broadcastInDim_apply _ _ _ (ix2 b (0 : Fin 1)) (ix2 (0 : Fin 1) (0 : Fin 1)) (fun a => by
      match a with
      | ⟨0, _⟩ => rfl
      | ⟨1, _⟩ => rfl)).trans ?_
    exact broadcastInDim_apply _ _ bo (ix2 (0 : Fin 1) (0 : Fin 1)) (ix1 (0 : Fin 1)) (fun a => by
      match a with
      | ⟨0, _⟩ => rfl)

end Cert.ReferenceIdeal.RefRead

end
-- ==== Proof.RefRead.lean ====
/-
  The reference's result read at an index is the network's row function: the three stages read inside one another,
  then the dense head, at each batch row of the embedded sentences and the image vectors.
-/
import proofs.«117697_j48292612276233_2_alg».proof.Proof.RefTerm
import proofs.«117697_j48292612276233_2_alg».proof.Proof.Spec
import proofs.«117697_j48292612276233_2_alg».proof.Proof.RefReadStage1
import proofs.«117697_j48292612276233_2_alg».proof.Proof.RefReadStage2
import proofs.«117697_j48292612276233_2_alg».proof.Proof.RefReadStage3
import proofs.«117697_j48292612276233_2_alg».proof.Proof.RefReadHead

noncomputable section

namespace Cert.ReferenceIdeal.RefRead

open Cert.ReferenceIdeal Cert.ReferenceIdeal.RefValue Idealize.ShloMosaic Idealize.ShloMosaic.ValueIdx

/-- The stages and the head on ANY embedded sentences `E`, at batch row `b`: the specification's row function of row `b`
    of `E` and of the image vectors. Each stage's output at row `b` is the specification's stage on the previous one's. -/
theorem row_apply [Facts] (E : FVec Ideal S1024x30x512 .f32) (a0 : FVec Ideal S1024x2048 .f32) (a3 : FVec Ideal S200x1536 .f32) (a4 : FVec Ideal S200 .f32)
    (a5 : FVec Ideal S300x600 .f32) (a6 : FVec Ideal S300 .f32) (a7 : FVec Ideal S300x900 .f32) (a8 : FVec Ideal S300 .f32)
    (a9 : FVec Ideal S400x2648 .f32) (a10 : FVec Ideal S400 .f32) (a11 : FVec Ideal S1x400 .f32) (a12 : FVec Ideal S1 .f32) (b : Fin 1024) :
    head (F := Ideal) (conv3 (F := Ideal) (conv2 (F := Ideal) (conv1 (F := Ideal) E a3 a4) a5 a6) a7 a8) a0 a9 a10 a11 a12
        (ix2 b (0 : Fin 1))
      = Cert.Spec.row (Cert.Spec.paramsOf a3 a4 a5 a6 a7 a8 a9 a10 a11 a12) (fun l c => E (ix3 b l c))
          (fun k => a0 (ix2 b k)) := by
  have e1 : (fun q o => conv1 (F := Ideal) E a3 a4 (ix3 b q o))
      = Cert.Spec.x1 (Cert.Spec.paramsOf a3 a4 a5 a6 a7 a8 a9 a10 a11 a12) (fun l c => E (ix3 b l c)) :=
    funext fun q => funext fun o => conv1_apply E a3 a4 b q o
  have e2 : (fun q o => conv2 (F := Ideal) (conv1 (F := Ideal) E a3 a4) a5 a6 (ix3 b q o))
      = Cert.Spec.x2 (Cert.Spec.paramsOf a3 a4 a5 a6 a7 a8 a9 a10 a11 a12) (fun l c => E (ix3 b l c)) :=
    funext fun q => funext fun o => (conv2_apply (conv1 (F := Ideal) E a3 a4) a5 a6 b q o).trans (by rw [e1]; rfl)
  have e3 : (fun q o => conv3 (F := Ideal) (conv2 (F := Ideal) (conv1 (F := Ideal) E a3 a4) a5 a6) a7 a8 (ix3 b q o))
      = Cert.Spec.x3 (Cert.Spec.paramsOf a3 a4 a5 a6 a7 a8 a9 a10 a11 a12) (fun l c => E (ix3 b l c)) :=
    funext fun q => funext fun o =>
      (conv3_apply (conv2 (F := Ideal) (conv1 (F := Ideal) E a3 a4) a5 a6) a7 a8 b q o).trans (by rw [e2]; rfl)
  rw [head_apply, e3]
  rfl

/-- **The reference's result is the network's output array** on the embedded sentences and the image vectors. -/
theorem result_eq [Facts] (a0 : FVec Ideal S1024x2048 .f32) (a1 : IVec S1024x30 32) (a2 : FVec Ideal S32000x512 .f32) (a3 : FVec Ideal S200x1536 .f32) (a4 : FVec Ideal S200 .f32) (a5 : FVec Ideal S300x600 .f32) (a6 : FVec Ideal S300 .f32) (a7 : FVec Ideal S300x900 .f32) (a8 : FVec Ideal S300 .f32) (a9 : FVec Ideal S400x2648 .f32) (a10 : FVec Ideal S400 .f32) (a11 : FVec Ideal S1x400 .f32) (a12 : FVec Ideal S1 .f32) :
    result (F := Ideal) a0 a1 a2 a3 a4 a5 a6 a7 a8 a9 a10 a11 a12
      = Cert.Spec.out (embed (F := Ideal) a1 a2) a0 (Cert.Spec.paramsOf a3 a4 a5 a6 a7 a8 a9 a10 a11 a12) := by
  funext i
  obtain ⟨b, z, rfl⟩ : ∃ (b : Fin 1024) (z : Fin 1), i = ix2 b z := ⟨i 0, i 1, eq_ix2 i⟩
  obtain rfl : z = 0 := Subsingleton.elim _ _
  unfold result
  generalize embed (F := Ideal) a1 a2 = E
  exact row_apply E a0 a3 a4 a5 a6 a7 a8 a9 a10 a11 a12 b

end Cert.ReferenceIdeal.RefRead

end
-- ==== Proof.lean ====
/-
  The certificate of the sentence-and-image matching network's kernel against its reference.

  Both programs compute, for each of the 1024 batch rows, ONE function of that row's embedded sentence (30 tokens × 512
  channels, looked up in the embedding table) and image vector (2048) and of the network's weights: three stages of
  width-3 convolution with bias, leaky rectifier, zero-window gate and pairwise max-pooling, then a dense layer with
  the rectifier and a last linear layer (`Cert.Spec.row`). The kernel works on blocks of 128 rows and adds, position
  by position, three products against the three positions' weight blocks; the reference lays each window's three
  positions end to end and takes one product against the whole weight matrix, and likewise joins the last stage's
  features with the image vector before one product where the kernel adds two. At the ideal values (floats as extended
  reals, changes of format the identity) the two differ only in how finite sums are grouped, and addition of extended
  reals is commutative and associative: no finiteness of the inputs is used.

  The parts: `Proof/Spec.lean` the function and the regrouping law; `Proof/KPay*.lean` the kernel body's stored value
  row by row; `Proof/KBlocks.lean`, `Proof/KHost.lean`, `Proof/KRun.lean` from the body's blocks to the kernel's
  output array as a function of the arguments; `Proof/RefTerm.lean`, `Proof/RefRun*.lean` the reference's run ending
  at one term of its arguments; `Proof/RefRead*.lean` that term read row by row. Here the claims are assembled.
-/
import proofs.«117697_j48292612276233_2_alg».proof.Defs
import proofs.«117697_j48292612276233_2_alg».proof.Proof.Gen.Kernel
import proofs.«117697_j48292612276233_2_alg».proof.Proof.Gen.Kernel.Skeleton
import proofs.«117697_j48292612276233_2_alg».proof.Proof.Gen.Kernel.Launch
import proofs.«117697_j48292612276233_2_alg».proof.Proof.Gen.Kernel.Points
import proofs.«117697_j48292612276233_2_alg».proof.Proof.Gen.Kernel.Frame
import proofs.«117697_j48292612276233_2_alg».proof.Proof.Gen.KernelIdeal
import proofs.«117697_j48292612276233_2_alg».proof.Proof.Gen.KernelIdeal.Skeleton
import proofs.«117697_j48292612276233_2_alg».proof.Proof.Gen.KernelIdeal.Launch
import proofs.«117697_j48292612276233_2_alg».proof.Proof.Gen.KernelIdeal.Points
import proofs.«117697_j48292612276233_2_alg».proof.Proof.Gen.KernelIdeal.Frame
import proofs.«117697_j48292612276233_2_alg».proof.Proof.Gen.KernelIdeal.Value
import proofs.«117697_j48292612276233_2_alg».proof.Proof.Gen.ReferenceIdeal
import proofs.«117697_j48292612276233_2_alg».proof.Proof.Gen.Pre_finite_inputs
import proofs.«117697_j48292612276233_2_alg».proof.Proof.KPay
import proofs.«117697_j48292612276233_2_alg».proof.Proof.KRun
import proofs.«117697_j48292612276233_2_alg».proof.Proof.RefRun
import proofs.«117697_j48292612276233_2_alg».proof.Proof.RefRead
import Idealize.ShloMosaic.Adequacy
import Idealize.ShloMosaic.Init

noncomputable section

namespace Cert.Proof

open Idealize.ShloMosaic Idealize.ShloMosaic.TcCoe Idealize.SL.Sem

/-- The token lookup — a negative token number counted from the table's end, then the row gathered — is one function in
    the two programs (the kernel's program narrows the rows to bf16 afterwards, which changes nothing at the ideal values). -/
theorem embed_eq (a1 : IVec Cert.ReferenceIdeal.S1024x30 32) (a2 : FVec Ideal Cert.ReferenceIdeal.S32000x512 .f32) :
    Cert.ReferenceIdeal.RefValue.embed (F := Ideal) a1 a2 = Cert.KernelIdeal.KHost.embedK a1 a2 := rfl

/-- The body's stored value row by row, as the blocks-to-array step takes it. -/
theorem pay_row : Cert.KernelIdeal.KValue.PayRow :=
  fun x0 x1 x2 x3 x4 x5 x6 x7 x8 x9 x10 x11 x12 x13 x14 x15 x16 x17 x18 p =>
    Cert.KernelIdeal.KPay.pay_row x0 x1 x2 x3 x4 x5 x6 x7 x8 x9 x10 x11 x12 x13 x14 x15 x16 x17 x18 p

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- From memories agreeing on the arguments the kernel's output array and the reference's result are the network's
    output of the same embedded sentences, image vectors and weights. -/
theorem algebraic : Cert.algebraic_KernelIdeal_ReferenceIdeal := by
  intro m ρ m' ρ' _ hagree
  refine ⟨_, Cert.KernelIdeal.KValue.run m ρ pay_row, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9, h10, h11, h12⟩ := hagree c
  rw [Cert.ReferenceIdeal.RefRead.result_eq, embed_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
